-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8x2048x256 .f32) (main_arg1 : FVec F S256x256 .f32) (main_arg2 : FVec F S256x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S8x2048x256 : Shape := ⟨3, ![8, 2048, 256]⟩
abbrev S256x256 : Shape := ⟨2, ![256, 256]⟩
abbrev S1x2048x256 : Shape := ⟨3, ![1, 2048, 256]⟩
abbrev S2048x256 : Shape := ⟨2, ![2048, 256]⟩
abbrev S1x1024x256 : Shape := ⟨3, ![1, 1024, 256]⟩
abbrev S1x512x256 : Shape := ⟨3, ![1, 512, 256]⟩
abbrev S1024x1 : Shape := ⟨2, ![1024, 1]⟩
abbrev S1024x256 : Shape := ⟨2, ![1024, 256]⟩
abbrev S512x256 : Shape := ⟨2, ![512, 256]⟩
abbrev S256x512 : Shape := ⟨2, ![256, 512]⟩
abbrev S1024x512 : Shape := ⟨2, ![1024, 512]⟩
abbrev S1024 : Shape := ⟨1, ![1024]⟩

abbrev nBuf : Space → Nat
  | .hbm => 7
  | .vmem => 21
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256x256, .f32⟩
  | .hbm, ⟨3, _⟩ => ⟨S8x2048x256, .bf16⟩
  | .hbm, ⟨4, _⟩ => ⟨S8x2048x256, .bf16⟩
  | .hbm, ⟨5, _⟩ => ⟨S8x2048x256, .bf16⟩
  | .hbm, ⟨6, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S256x256, .f32⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x1024x256, .f32⟩
  | .local _ .vmem, ⟨17, _⟩ => ⟨S1x1024x256, .f32⟩
  | .local _ .vmem, ⟨18, _⟩ => ⟨S1024x1, .f32⟩
  | .local _ .vmem, ⟨19, _⟩ => ⟨S1024x1, .f32⟩
  | .local _ .vmem, ⟨20, _⟩ => ⟨S1024x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_27 : BitVec 32 := 0#32
  let v45 : BitVec 1 := Scalar.cmpi .ne v44 c0_i32_27
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  shapeCasts_S2048x256_S1x2048x256 : S2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  transposes_S512x256_p1_0_S256x512 : S512x256.Transposes [1, 0] S256x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x256 : S1024x1.Broadcasts S1024x256
  shapeCasts_S1024x256_S1x1024x256 : S1024x256.ShapeCasts S1x1024x256
  dot_S2048x256_S256x256_S2048x256_1_0_0_1_n_n_wf : DotDims.WF S2048x256 S256x256 S2048x256 [1] [0] [0] [1] [] []
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x256.size a
  hwx0_3 : ∀ i : grid0.Coords, EltTy.bits .bf16 = 32 ∨ (Rect.block (s := S8x2048x256) S1x2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S8x2048x256.size a
  hwx0_4 : ∀ i : grid0.Coords, EltTy.bits .bf16 = 32 ∨ (Rect.block (s := S8x2048x256) S1x2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S8x2048x256.size a
  hwx0_5 : ∀ i : grid0.Coords, EltTy.bits .bf16 = 32 ∨ (Rect.block (s := S8x2048x256) S1x2048x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x2048x256.size a
  hwx1_0 : ∀ i : grid1.Coords, EltTy.bits .bf16 = 32 ∨ (Rect.block (s := S8x2048x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S8x2048x256.size a
  hwx1_1 : ∀ i : grid1.Coords, EltTy.bits .bf16 = 32 ∨ (Rect.block (s := S8x2048x256) S1x512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x256.size a ≤ S8x2048x256.size a
  hwx1_2 : ∀ i : grid1.Coords, EltTy.bits .bf16 = 32 ∨ (Rect.block (s := S8x2048x256) S1x512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S8x2048x256.size a
  hwx1_3 : ∀ i : grid1.Coords, EltTy.bits .f32 = 32 ∨ (Rect.block (s := S8x2048x256) S1x1024x256.size (cc1_transform_3 i) (hinb1_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2048x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x256 : Shape := ⟨3, ![8, 2048, 256]⟩
abbrev S256x256 : Shape := ⟨2, ![256, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256x256, .f32⟩
  | .hbm, ⟨3, _⟩ => ⟨S8x2048x256, .f32⟩
  | .hbm, ⟨4, _⟩ => ⟨S8x2048x256, .f32⟩
  | .hbm, ⟨5, _⟩ => ⟨S8x2048x2048, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x256_S256x256_S8x2048x256_2_1_01_0_n_n_wf : DotDims.WF S8x2048x256 S256x256 S8x2048x256 [2] [1] [0, 1] [0] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KRegion0.lean ====
/- Region 0 of @main (the projection kernel, grid (8,)) at a parameter `V`, the TensorCore's buffer contents when the
   region is entered: each window's block at a point, what the body leaves in each output window's staging buffer,
   the body's triple, the pipeline's proof data and the body obligation. Every window is loaded and stored whole
   through literal rectangles; there is no branch and no scratch. -/
import proofs.«160592_j63909113364812_2_alg».proof.Proof.Gen.Kernel.Launch
import proofs.«160592_j63909113364812_2_alg».proof.Proof.Gen.Kernel.Skeleton
import proofs.«160592_j63909113364812_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 2048 x 256: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the projection kernel, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations `x`, one batch row per point) holds its block in its current staging buffer at
    every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight `Wq`, one block, fetched at the first point only) holds its block at every point:
    unfetched, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the weight `Wk`), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole `[1, 2048, 256]` buffer as a rectangle, -/
abbrev rX : Rect S1x2048x256 := Rect.unit (s := S1x2048x256) ![0, 0, 0] S1x2048x256.size inb_S1x2048x256_S1x2048x256_0_0_0
/-- and the whole `[256, 256]` one. -/
abbrev rW : Rect S256x256 := Rect.unit (s := S256x256) ![0, 0] S256x256.size inb_S256x256_S256x256_0_0

/-! ## What the body leaves in each output window's buffer -/

/-- Window 3's staging buffer after the body (the projection `Q` of the point's batch row), from the blocks of `x`
    and `Wq`: its one store as a piece. -/
def outQ (x : Vec F S1x2048x256 .f32) (wq : Vec F S256x256 .f32) : Vec F S1x2048x256 .bf16 :=
  View.canon [⟨rX, k0_pay2 (View.ld x rX) (View.ld wq rW)⟩]

/-- Window 4's (the projection `K`), from the blocks of `x` and `Wk`. -/
def outK (x : Vec F S1x2048x256 .f32) (wk : Vec F S256x256 .f32) : Vec F S1x2048x256 .bf16 :=
  View.canon [⟨rX, k0_pay3 (View.ld x rX) (View.ld wk rW)⟩]

/-- Window 5's (`V`, the batch row rounded), from the block of `x`. -/
def outV (x : Vec F S1x2048x256 .f32) : Vec F S1x2048x256 .bf16 :=
  View.canon [⟨rX, k0_pay4 (View.ld x rX)⟩]

/-- A store through the whole-buffer rectangle covers the buffer: the one piece tiles it. -/
theorem coverX (p : Vec F S1x2048x256 .bf16) (y : S1x2048x256.Idx) :
    ∃ pc ∈ ([⟨rX, p⟩] : List (View.Piece (Elt F) S1x2048x256 .bf16)), y ∈ pc.1.set :=
  View.cover_of_tiled [⟨rX, p⟩] S1x2048x256.size (by rfl) y

/-! ## The body's triple -/

set_option maxHeartbeats 4000000 in
/-- The kernel body on whole staging memrefs, the three inputs' at read contents `x0`, `x1`, `x2` and the three outputs'
    at anything, runs to the continuation holding the inputs' as they were and the outputs' at `outQ x0 x1`,
    `outK x0 x2`, `outV x0`. The body loads each output buffer before storing it whole; what it loads is not used. -/
theorem sound_kernel0 (c : Dev nD) (E : Set ℕ) (i : grid0.Coords)
    (arg1 : Memref sig .tc .vmem S1x2048x256 .f32) (harg1 : arg1.IsWhole)
    (arg2 : Memref sig .tc .vmem S256x256 .f32) (harg2 : arg2.IsWhole)
    (arg3 : Memref sig .tc .vmem S256x256 .f32) (harg3 : arg3.IsWhole)
    (arg4 : Memref sig .tc .vmem S1x2048x256 .bf16) (harg4 : arg4.IsWhole)
    (arg5 : Memref sig .tc .vmem S1x2048x256 .bf16) (harg5 : arg5.IsWhole)
    (arg6 : Memref sig .tc .vmem S1x2048x256 .bf16) (harg6 : arg6.IsWhole)
    (x0 : Vec F S1x2048x256 .f32) (x1 : Vec F S256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outQ x0 x1) ∗ owns (c : Thread nD τ) arg5 fullShare (outK x0 x2)
            ∗ owns (c : Thread nD τ) arg6 fullShare (outV x0)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverX _)
  isplitl [H4]
  · iexists _; isplitr
    swap; · iexact H4
    ipureintro
    exact View.read_writes_eq_canon _ _ _ (coverX _)
  iexists _; isplitr
  swap; · iexact H5
  ipureintro
  exact View.read_writes_eq_canon _ _ _ (coverX _)

/-! ## The pipeline's proof data -/

/-- The proof data of pipeline 0 on core `c`: the arrays as the region finds them (`V`); after the body at point `t`
    each input's buffer at its block and the outputs' at `outQ`, `outK`, `outV` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outQ (iblk0 V c 0 t) (iblk0 V c 1 t)
    | ⟨4, _⟩ => outK (iblk0 V c 0 t) (iblk0 V c 2 t)
    | ⟨5, _⟩ => outV (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outQ (iblk0 V c 0 t) (iblk0 V c 1 t) := by dsimp only [dat0]
theorem after0_4 (c : Dev nD) (t : Fin cfg0.N) : (dat0 V c).after 4 t = outK (iblk0 V c 0 t) (iblk0 V c 2 t) := by dsimp only [dat0]
theorem after0_5 (c : Dev nD) (t : Fin cfg0.N) : (dat0 V c).after 5 t = outV (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Base.lean ====
/-
  The attention region (the second pallas_call) at the contents `V` it is entered from: what the three input windows
  hold at a grid point, in which of the three control cases a point lies, and where the output window is idle.

  The grid is (batch, query tile, key tile) = (8, 2, 4), the key-tile axis innermost, so a point's position mod 4 is its
  key tile. At key tile 0 the body resets the running maximum, normaliser and accumulator it keeps in scratch; at every
  key tile it updates them from the staged query, key and value blocks; at key tile 3 it also stores the quotient into
  the output block, which is written back there and nowhere else.
-/
import proofs.«160592_j63909113364812_2_alg».proof.Proof.Gen.Kernel.Launch
import proofs.«160592_j63909113364812_2_alg».proof.Proof.Gen.Kernel.Skeleton
import proofs.«160592_j63909113364812_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block, fetched there or not (its block index does not
    move along the key-tile axis). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds the point's key block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds the point's value block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions, decided over the grid -/

/-- "The key tile is the first": the reset's condition, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The key tile is the last": the output store's condition. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1x1024x256 .f32 := (Memref.whole cc1_stg3_0 : Memref sig .tc .vmem S1x1024x256 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x256 .f32 := win1_3.stage (cfg1.slots t 3)
abbrev hs1_3 (t : Fin cfg1.N) : (ms1_3 t).IsWhole := hstage1_3 ((cfg1.slots t 3).cast nbuf1_3)
/-- The scratch operands: the running maximum, the normaliser, the accumulator. -/
abbrev scM : Memref sig .tc .vmem S1024x1 .f32 := Memref.whole cc1_scratch0
abbrev scL : Memref sig .tc .vmem S1024x1 .f32 := Memref.whole cc1_scratch1
abbrev scA : Memref sig .tc .vmem S1024x256 .f32 := Memref.whole cc1_scratch2
abbrev VSM : View sig .tc .vmem S1024x1 .f32 := scM.view
abbrev VSL : View sig .tc .vmem S1024x1 .f32 := scL.view
abbrev VSA : View sig .tc .vmem S1024x256 .f32 := scA.view

/-- The scoped buffers the attention region does not stage, with the three scratch operands at the given states: the
    projection region's ten staging buffers at anything, then the scratch. -/
abbrev ScRest (c : Dev nD) (SM SL SA : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ SM ∗ SL ∗ SA)

/-- The region's class invariant with the scratch operands as memrefs owned at some contents. -/
theorem PhiA1_eq (c : Dev nD) :
    (Pipeline.ΦA spec1 c : sProp 𝕄)
      = iprop(ScRest c iprop(∃ d, owns (c : Thread nD τ) scM fullShare d) iprop(∃ d, owns (c : Thread nD τ) scL fullShare d) iprop(∃ d, owns (c : Thread nD τ) scA fullShare d)
          ∗ (∃ r, prngReg c r)) := by
  unfold Pipeline.ΦA; rw [scopedRest1_eq]; simp only [scM, scL, scA, owns_whole]; try rfl

end Cert.Kernel.Hand

end
-- ==== Proof.KR1RunA.lean ====
/-
  The attention body at a point of the FIRST key tile: the scratch operands, at anything, are reset and then updated
  from the staged blocks; the output block is left as found.
-/
import proofs.«160592_j63909113364812_2_alg».proof.Proof.KR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each scratch operand (last first) at a first-key-tile point, with the proof
    that on whole memrefs — the inputs' at their contents, the output's at contents handed back untouched, the scratch
    at anything — the body runs to the continuation holding the inputs as they were and each scratch with its pieces
    written. The pieces are what the run finds. -/
noncomputable def kernelRun1_A (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1x1024x256 .bf16) (x1 : Vec F S1x512x256 .bf16) (x2 : Vec F S1x512x256 .bf16) :
    Σ' (L3 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (xi3 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KR1RunB.lean ====
/-
  The attention body at a point of a MIDDLE key tile (neither first nor last): the scratch operands, at what the point
  before left, are updated from the staged blocks; the output block is left as found.
-/
import proofs.«160592_j63909113364812_2_alg».proof.Proof.KR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each scratch operand at a middle-key-tile point, the scratch entered at the
    contents `xs·` the point before left. -/
noncomputable def kernelRun1_B (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1x1024x256 .bf16) (x1 : Vec F S1x512x256 .bf16) (x2 : Vec F S1x512x256 .bf16)
    (xs0 : Vec F S1024x1 .f32) (xs1 : Vec F S1024x1 .f32) (xs2 : Vec F S1024x256 .f32) :
    Σ' (L3 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (xi3 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KR1RunC.lean ====
/-
  The attention body at a point of the LAST key tile: the scratch operands, at what the point before left, are updated
  from the staged blocks, and the quotient of the accumulator by the normaliser is stored into the output block.
-/
import proofs.«160592_j63909113364812_2_alg».proof.Proof.KR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in each scratch operand at a last-key-tile point, the
    scratch entered at the contents `xs·` the point before left, the output block at anything. -/
noncomputable def kernelRun1_C (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1x1024x256 .bf16) (x1 : Vec F S1x512x256 .bf16) (x2 : Vec F S1x512x256 .bf16)
    (xs0 : Vec F S1024x1 .f32) (xs1 : Vec F S1024x1 .f32) (xs2 : Vec F S1024x256 .f32) :
    Σ' (L3 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.KRegion1.lean ====
/-
  The attention region's proof data at the contents `V` it is entered from, and its body obligation.

  What the scratch operands (running maximum, normaliser, accumulator) and the output block hold after the body at each
  grid position is defined by recursion on the position: at a first key tile the reset-and-update of the point's blocks,
  otherwise the update of what the position before left; the output block is the quotient at a last key tile. The
  region's invariant carries the scratch at those contents from one point to the next.
-/
import proofs.«160592_j63909113364812_2_alg».proof.Proof.KR1RunA
import proofs.«160592_j63909113364812_2_alg».proof.Proof.KR1RunB
import proofs.«160592_j63909113364812_2_alg».proof.Proof.KR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The runs at a grid point's own memrefs -/

/-- The first-key-tile run at point `t`. -/
abbrev runA (c : Dev nD) (t : Fin cfg1.N) (h0 : t.val % 4 = 0) (x0 : Vec F S1x1024x256 .bf16) (x1 x2 : Vec F S1x512x256 .bf16) :=
  kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) x0 x1 x2
/-- The middle-key-tile run at point `t`. -/
abbrev runB (c : Dev nD) (t : Fin cfg1.N) (h0 : ¬t.val % 4 = 0) (h1 : ¬t.val % 4 = 3) (x0 : Vec F S1x1024x256 .bf16) (x1 x2 : Vec F S1x512x256 .bf16)
    (xs0 xs1 : Vec F S1024x1 .f32) (xs2 : Vec F S1024x256 .f32) :=
  kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) x0 x1 x2 xs0 xs1 xs2
/-- The last-key-tile run at point `t`. -/
abbrev runC (c : Dev nD) (t : Fin cfg1.N) (h0 : ¬t.val % 4 = 0) (h1 : t.val % 4 = 3) (x0 : Vec F S1x1024x256 .bf16) (x1 x2 : Vec F S1x512x256 .bf16)
    (xs0 xs1 : Vec F S1024x1 .f32) (xs2 : Vec F S1024x256 .f32) :=
  kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) x0 x1 x2 xs0 xs1 xs2

/-! ## What each case leaves, read back; the pieces cover -/

theorem coverM_A (c : Dev nD) (t : Fin cfg1.N) (h0) (x0 x1 x2) (y : S1024x1.Idx) : ∃ pc ∈ (runA (F := F) c t h0 x0 x1 x2).2.1, y ∈ pc.1.set :=
  View.cover_of_tiledL _ S1024x1.size (by sl_kernel_rfl) y
theorem coverL_A (c : Dev nD) (t : Fin cfg1.N) (h0) (x0 x1 x2) (y : S1024x1.Idx) : ∃ pc ∈ (runA (F := F) c t h0 x0 x1 x2).2.2.1, y ∈ pc.1.set :=
  View.cover_of_tiledL _ S1024x1.size (by sl_kernel_rfl) y
theorem coverA_A (c : Dev nD) (t : Fin cfg1.N) (h0) (x0 x1 x2) (y : S1024x256.Idx) : ∃ pc ∈ (runA (F := F) c t h0 x0 x1 x2).2.2.2.1, y ∈ pc.1.set :=
  View.cover_of_tiledL _ S1024x256.size (by sl_kernel_rfl) y
theorem coverM_B (c : Dev nD) (t : Fin cfg1.N) (h0 h1) (x0 x1 x2 xs0 xs1 xs2) (y : S1024x1.Idx) : ∃ pc ∈ (runB (F := F) c t h0 h1 x0 x1 x2 xs0 xs1 xs2).2.1, y ∈ pc.1.set :=
  View.cover_of_tiledL _ S1024x1.size (by sl_kernel_rfl) y
theorem coverL_B (c : Dev nD) (t : Fin cfg1.N) (h0 h1) (x0 x1 x2 xs0 xs1 xs2) (y : S1024x1.Idx) : ∃ pc ∈ (runB (F := F) c t h0 h1 x0 x1 x2 xs0 xs1 xs2).2.2.1, y ∈ pc.1.set :=
  View.cover_of_tiledL _ S1024x1.size (by sl_kernel_rfl) y
theorem coverA_B (c : Dev nD) (t : Fin cfg1.N) (h0 h1) (x0 x1 x2 xs0 xs1 xs2) (y : S1024x256.Idx) : ∃ pc ∈ (runB (F := F) c t h0 h1 x0 x1 x2 xs0 xs1 xs2).2.2.2.1, y ∈ pc.1.set :=
  View.cover_of_tiledL _ S1024x256.size (by sl_kernel_rfl) y
theorem coverO_C (c : Dev nD) (t : Fin cfg1.N) (h0 h1) (x0 x1 x2 xs0 xs1 xs2) (y : S1x1024x256.Idx) : ∃ pc ∈ (runC (F := F) c t h0 h1 x0 x1 x2 xs0 xs1 xs2).1, y ∈ pc.1.set :=
  View.cover_of_tiledL _ S1x1024x256.size (by sl_kernel_rfl) y
theorem coverM_C (c : Dev nD) (t : Fin cfg1.N) (h0 h1) (x0 x1 x2 xs0 xs1 xs2) (y : S1024x1.Idx) : ∃ pc ∈ (runC (F := F) c t h0 h1 x0 x1 x2 xs0 xs1 xs2).2.1, y ∈ pc.1.set :=
  View.cover_of_tiledL _ S1024x1.size (by sl_kernel_rfl) y
theorem coverL_C (c : Dev nD) (t : Fin cfg1.N) (h0 h1) (x0 x1 x2 xs0 xs1 xs2) (y : S1024x1.Idx) : ∃ pc ∈ (runC (F := F) c t h0 h1 x0 x1 x2 xs0 xs1 xs2).2.2.1, y ∈ pc.1.set :=
  View.cover_of_tiledL _ S1024x1.size (by sl_kernel_rfl) y
theorem coverA_C (c : Dev nD) (t : Fin cfg1.N) (h0 h1) (x0 x1 x2 xs0 xs1 xs2) (y : S1024x256.Idx) : ∃ pc ∈ (runC (F := F) c t h0 h1 x0 x1 x2 xs0 xs1 xs2).2.2.2.1, y ∈ pc.1.set :=
  View.cover_of_tiledL _ S1024x256.size (by sl_kernel_rfl) y

/-- The four buffers after a first-key-tile point: the output block (untouched: a placeholder), then maximum,
    normaliser, accumulator. -/
def outs_A (c : Dev nD) (t : Fin cfg1.N) (h0 : t.val % 4 = 0) (x0 : Vec F S1x1024x256 .bf16) (x1 x2 : Vec F S1x512x256 .bf16) :
    Vec F S1x1024x256 .f32 × Vec F S1024x1 .f32 × Vec F S1024x1 .f32 × Vec F S1024x256 .f32 :=
  (VO1_3.read (Elt F) (VO1_3.writes (Elt F) VO1_3.junk (runA c t h0 x0 x1 x2).1),
   VSM.read (Elt F) (VSM.writes (Elt F) VSM.junk (runA c t h0 x0 x1 x2).2.1),
   VSL.read (Elt F) (VSL.writes (Elt F) VSL.junk (runA c t h0 x0 x1 x2).2.2.1),
   VSA.read (Elt F) (VSA.writes (Elt F) VSA.junk (runA c t h0 x0 x1 x2).2.2.2.1))
/-- After a middle-key-tile point. -/
def outs_B (c : Dev nD) (t : Fin cfg1.N) (h0 : ¬t.val % 4 = 0) (h1 : ¬t.val % 4 = 3) (x0 : Vec F S1x1024x256 .bf16) (x1 x2 : Vec F S1x512x256 .bf16)
    (xs0 xs1 : Vec F S1024x1 .f32) (xs2 : Vec F S1024x256 .f32) :
    Vec F S1x1024x256 .f32 × Vec F S1024x1 .f32 × Vec F S1024x1 .f32 × Vec F S1024x256 .f32 :=
  (VO1_3.read (Elt F) (VO1_3.writes (Elt F) VO1_3.junk (runB c t h0 h1 x0 x1 x2 xs0 xs1 xs2).1),
   VSM.read (Elt F) (VSM.writes (Elt F) VSM.junk (runB c t h0 h1 x0 x1 x2 xs0 xs1 xs2).2.1),
   VSL.read (Elt F) (VSL.writes (Elt F) VSL.junk (runB c t h0 h1 x0 x1 x2 xs0 xs1 xs2).2.2.1),
   VSA.read (Elt F) (VSA.writes (Elt F) VSA.junk (runB c t h0 h1 x0 x1 x2 xs0 xs1 xs2).2.2.2.1))
/-- After a last-key-tile point. -/
def outs_C (c : Dev nD) (t : Fin cfg1.N) (h0 : ¬t.val % 4 = 0) (h1 : t.val % 4 = 3) (x0 : Vec F S1x1024x256 .bf16) (x1 x2 : Vec F S1x512x256 .bf16)
    (xs0 xs1 : Vec F S1024x1 .f32) (xs2 : Vec F S1024x256 .f32) :
    Vec F S1x1024x256 .f32 × Vec F S1024x1 .f32 × Vec F S1024x1 .f32 × Vec F S1024x256 .f32 :=
  (VO1_3.read (Elt F) (VO1_3.writes (Elt F) VO1_3.junk (runC c t h0 h1 x0 x1 x2 xs0 xs1 xs2).1),
   VSM.read (Elt F) (VSM.writes (Elt F) VSM.junk (runC c t h0 h1 x0 x1 x2 xs0 xs1 xs2).2.1),
   VSL.read (Elt F) (VSL.writes (Elt F) VSL.junk (runC c t h0 h1 x0 x1 x2 xs0 xs1 xs2).2.2.1),
   VSA.read (Elt F) (VSA.writes (Elt F) VSA.junk (runC c t h0 h1 x0 x1 x2 xs0 xs1 xs2).2.2.2.1))

/-! ## Position by position -/

/-- What the output block and the three scratch operands hold after the body at position `n`. -/
def outsAt1 (c : Dev nD) : (n : ℕ) → n < cfg1.N → Vec F S1x1024x256 .f32 × Vec F S1024x1 .f32 × Vec F S1024x1 .f32 × Vec F S1024x256 .f32
  | 0, hn => outs_A c ⟨0, hn⟩ (Nat.zero_mod _) (iblk1 V c 0 ⟨0, hn⟩) (iblk1 V c 1 ⟨0, hn⟩) (iblk1 V c 2 ⟨0, hn⟩)
  | n + 1, hn =>
    if h0 : (n + 1) % 4 = 0 then
      outs_A c ⟨n + 1, hn⟩ h0 (iblk1 V c 0 ⟨n + 1, hn⟩) (iblk1 V c 1 ⟨n + 1, hn⟩) (iblk1 V c 2 ⟨n + 1, hn⟩)
    else if h1 : (n + 1) % 4 = 3 then
      outs_C c ⟨n + 1, hn⟩ h0 h1 (iblk1 V c 0 ⟨n + 1, hn⟩) (iblk1 V c 1 ⟨n + 1, hn⟩) (iblk1 V c 2 ⟨n + 1, hn⟩)
        (outsAt1 c n (Nat.lt_of_succ_lt hn)).2.1 (outsAt1 c n (Nat.lt_of_succ_lt hn)).2.2.1 (outsAt1 c n (Nat.lt_of_succ_lt hn)).2.2.2
    else
      outs_B c ⟨n + 1, hn⟩ h0 h1 (iblk1 V c 0 ⟨n + 1, hn⟩) (iblk1 V c 1 ⟨n + 1, hn⟩) (iblk1 V c 2 ⟨n + 1, hn⟩)
        (outsAt1 c n (Nat.lt_of_succ_lt hn)).2.1 (outsAt1 c n (Nat.lt_of_succ_lt hn)).2.2.1 (outsAt1 c n (Nat.lt_of_succ_lt hn)).2.2.2

/-- The position before `t`, as a bound. -/
theorem pred_lt (t : Fin cfg1.N) : t.val - 1 < cfg1.N := Nat.lt_of_le_of_lt (Nat.sub_le _ _) t.isLt

theorem outsAt1_A (c : Dev nD) (t : Fin cfg1.N) (h0 : t.val % 4 = 0) :
    outsAt1 V c t.val t.isLt = outs_A c t h0 (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = outs_B c t h0 h1 (iblk1 V c 0 t) (iblk1 V c 1 t) (iblk1 V c 2 t)
      (outsAt1 V c (t.val - 1) (pred_lt t)).2.1 (outsAt1 V c (t.val - 1) (pred_lt t)).2.2.1 (outsAt1 V c (t.val - 1) (pred_lt t)).2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = outs_C c t h0 h1 (iblk1 V c 0 t) (iblk1 V c 1 t) (iblk1 V c 2 t)
      (outsAt1 V c (t.val - 1) (pred_lt t)).2.1 (outsAt1 V c (t.val - 1) (pred_lt t)).2.2.1 (outsAt1 V c (t.val - 1) (pred_lt t)).2.2.2 := by
  obtain ⟨n, hn⟩ := t
  cases n with
  | zero => exact absurd (Nat.zero_mod _) h0
  | succ n => exact (dif_neg h0).trans ((dif_pos h1).trans rfl)

/-- The region's invariant before position `n`: before the first point the class's (every scratch at anything);
    afterwards the scoped rest with each scratch operand at what the position before left. -/
def PhiS1 (c : Dev nD) : (n : ℕ) → n ≤ cfg1.N → sProp 𝕄
  | 0, _ => Pipeline.ΦA spec1 c
  | n + 1, hn => iprop(ScRest c (owns (c : Thread nD τ) scM fullShare (outsAt1 V c n hn).2.1) (owns (c : Thread nD τ) scL fullShare (outsAt1 V c n hn).2.2.1)
      (owns (c : Thread nD τ) scA fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(ScRest c (owns (c : Thread nD τ) scM fullShare (outsAt1 V c n hn).2.1) (owns (c : Thread nD τ) scL fullShare (outsAt1 V c n hn).2.2.1)
      (owns (c : Thread nD τ) scA fullShare (outsAt1 V c n hn).2.2.2) ∗ (∃ r, prngReg c r)) := rfl

theorem PhiS1_pos (c : Dev nD) (n : ℕ) (h : n ≤ cfg1.N) (hz : n ≠ 0) :
    PhiS1 V c n h = iprop(ScRest c (owns (c : Thread nD τ) scM fullShare (outsAt1 V c (n - 1) (by omega)).2.1) (owns (c : Thread nD τ) scL fullShare (outsAt1 V c (n - 1) (by omega)).2.2.1)
      (owns (c : Thread nD τ) scA fullShare (outsAt1 V c (n - 1) (by omega)).2.2.2) ∗ (∃ r, prngReg c r)) := by
  cases n with
  | zero => exact absurd rfl hz
  | succ n => rfl

/-! ## The proof data -/

/-- The attention pipeline's proof data on core `c`: the arrays as the region finds them; after the body each input's
    buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the point's position mod 4 says which case it is in;
    the invariant hands the body the scratch at what the position before left (at anything before the first point)
    and takes it back at this position's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => h1 ((hcond1_1 t).mp h))) (noFlush1_3 t (fun h => h1 ((hcond1_1 t).mp h)))]
    rw [outsAt1_A V c t h0]
    unfold outs_A; (try dsimp only)
    by_cases hz : t.val = 0
    · rw [PhiS1_castSucc V c t, PhiS1_zero V c _ _ hz, PhiA1_eq]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩⟩
      iapply ((runA c t h0 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (coverM_A c t h0 _ _ _)
          isplitl [HS1]
          · unfold owns; iexists _; isplitr
            swap; · iexact HS1
            ipureintro; exact View.read_writes_of_cover _ _ _ _ _ (coverL_A c t h0 _ _ _)
          unfold owns; iexists _; isplitr
          swap; · iexact HS2
          ipureintro; exact View.read_writes_of_cover _ _ _ _ _ (coverA_A c t h0 _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩⟩
      iapply ((runA c t h0 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (coverM_A c t h0 _ _ _)
          isplitl [HS1]
          · unfold owns; iexists _; isplitr
            swap; · iexact HS1
            ipureintro; exact View.read_writes_of_cover _ _ _ _ _ (coverL_A c t h0 _ _ _)
          unfold owns; iexists _; isplitr
          swap; · iexact HS2
          ipureintro; exact View.read_writes_of_cover _ _ _ _ _ (coverA_A c t h0 _ _ _)
        iexact Hg
      isplitl [Ho]; · iexact Ho
      isplitl [H0]; · iexact H0
      isplitl [H1]; · iexact H1
      isplitl [H2]; · iexact H2
      iexists _; iexact H3
  · by_cases h1 : t.val % 4 = 3
    · have hz : t.val ≠ 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold outs_C; (try dsimp only)
      rw [PhiS1_castSucc V c t, PhiS1_pos V c _ _ hz]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩⟩
      iapply ((runC c t h0 h1 (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (coverM_C c t h0 h1 _ _ _ _ _ _)
          isplitl [HS1]
          · unfold owns; iexists _; isplitr
            swap; · iexact HS1
            ipureintro; exact View.read_writes_of_cover _ _ _ _ _ (coverL_C c t h0 h1 _ _ _ _ _ _)
          unfold owns; iexists _; isplitr
          swap; · iexact HS2
          ipureintro; exact View.read_writes_of_cover _ _ _ _ _ (coverA_C c t h0 h1 _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverO_C c t h0 h1 _ _ _ _ _ _)
    · have hz : t.val ≠ 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold outs_B; (try dsimp only)
      rw [PhiS1_castSucc V c t, PhiS1_pos V c _ _ hz]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩⟩
      iapply ((runB c t h0 h1 (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (coverM_B c t h0 h1 _ _ _ _ _ _)
          isplitl [HS1]
          · unfold owns; iexists _; isplitr
            swap; · iexact HS1
            ipureintro; exact View.read_writes_of_cover _ _ _ _ _ (coverL_B c t h0 h1 _ _ _ _ _ _)
          unfold owns; iexists _; isplitr
          swap; · iexact HS2
          ipureintro; exact View.read_writes_of_cover _ _ _ _ _ (coverA_B c t h0 h1 _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨R0, R1, R2, R3, R4, R5, R6, R7, R8, R9, HS0, HS1, HS2⟩, Hg⟩
  isplitl [R0 R1 R2 R3 R4 R5 R6 R7 R8 R9 HS0 HS1 HS2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    isplitl [HS1]; · iexists _; iexact HS1
    iexists _; iexact HS2
  iexact Hg

end Cert.Kernel.Hand

end
-- ==== Proof.KRun.lean ====
/-
  The whole program's run: the projection region, then the attention region, over the thread state "every unscoped
  buffer at the boundary's contents, the generator register at some state, nothing owed".

  The buffer contents at the three boundaries are a fold from the launch memory: after a region its arrays hold what its
  write-backs leave and every other buffer what it held before. Every weakly fair execution terminates with every
  unscoped buffer at the last boundary's contents; the argument arrays, which no region writes, read back as launched.
-/
import proofs.«160592_j63909113364812_2_alg».proof.Proof.KRegion0
import proofs.«160592_j63909113364812_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references: what the projection region is entered from. -/
abbrev V0r : (c : Dev nD) → (b : Ref sig .tc) → Buf (Elt F) ((c : Thread nD τ).loc b) := fun c b => W0 m ρ c b
/-- After the projection region: its arrays at what the pipeline leaves, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- What the attention region is entered from. -/
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the attention region. -/
def W2 (c : Dev nD) : Valuation τ sig (Elt F) :=
  Pipeline.withArrays spec1 c (W1 m ρ c) fun w => (dat1 (V1r m ρ) c).arrAt w cfg1.N
theorem W2_arr (c : Dev nD) (w : Fin cfg1.W) :
    W2 m ρ c (Proc.devRef .tc (Pipeline.arrRef spec1 w)) = (dat1 (V1r m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2r : (c : Dev nD) → (b : Ref sig .tc) → Buf (Elt F) ((c : Thread nD τ).loc b) := fun c b => W2 m ρ c b
theorem hF1 (c : Dev nD) (w : Fin cfg1.W) : (dat1 (V1r m ρ) c).arrAt w cfg1.N = V2r m ρ c (Pipeline.arrRef spec1 w) :=
  (W2_arr m ρ c w).symm
theorem hrest1 (c : Dev nD) : ∀ b, b ∉ Finset.univ.image (Pipeline.arrRef spec1) → V2r m ρ c b = V1r m ρ c b :=
  fun b hb => W2_of_ne m ρ c b fun w e => hb (Finset.mem_image.mpr ⟨w, Finset.mem_univ _, e⟩)

/-! ### The arguments end as launched: the attention region does not touch them, the projection region only reads them -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0r m ρ) c).arrAt_in 0 rfl _).trans (A_eq0 (V0r m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0r m ρ) c).arrAt_in 1 rfl _).trans (A_eq0 (V0r m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0r m ρ) c).arrAt_in 2 rfl _).trans (A_eq0 (V0r m ρ) c 2))
    _ = m ((c : Thread nD τ).loc main_arg2) := rfl
/-- The result buffer ends at what the attention region's write-backs leave in it. -/
theorem W2_main_v1 (c : Dev nD) : W2 m ρ c (Proc.devRef .tc main_v1) = (dat1 (V1r m ρ) c).arrAt 3 cfg1.N := W2_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V1r m ρ) c
abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-- Entering a region's invariant: the generator register and the scoped rest, the (empty) tables dropped. -/
theorem enterInv (X Pf S : sProp 𝕄) : iprop(X ∗ Pf ∗ S) ⊢ iprop(S ∗ X) := by
  iintro ⟨Hp, -, Hr⟩
  isplitl [Hr]; · iexact Hr
  iexact Hp
/-- Leaving it. -/
theorem leaveInv (S X : sProp 𝕄) : iprop(S ∗ X) ⊢ iprop(X ∗ BI.emp ∗ S) := by
  iintro ⟨Hr, Hp⟩
  isplitl [Hp]; · iexact Hp
  isplitr; · iempintro
  iexact Hr

/-! ## The regions as segments -/

set_option backward.isDefEq.respectTransparency.types false in
/-- The projection region over the thread state: entered from every unscoped buffer at `W0`, left at `W1`: its arrays
    split out of the unscoped buffers and put back at what its write-backs leave; the generator register into the region's
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W1`, left at `W2`: its arrays
    split out of the unscoped buffers and put back at what its write-backs leave; the generator register into the region's
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1r m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (enterInv _ _ _).trans (show Pipeline.ΦA spec1 c ⊢ (pdats m ρ 1 c).Φ 0 from hin1 (V1r m ρ) c)
  hout c := by
    rw [Pipeline.ownSems0_none]
    exact (show (pdats m ρ 1 c).Φ (Fin.last _) ⊢ Pipeline.ΦA spec1 c from hout1 (V1r m ρ) c).trans (leaveInv _ _)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1r m ρ c) (V2r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- At the compiled mesh, from any memory with zero counters: every weakly fair execution of @main terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

/-- The run with the result buffer named: it ends at what the attention region's write-backs leave. -/
theorem run_value : θ_run defs (onTc (τ := τ) (main (F := F))) ⟨m, fun _ => 0, ρ⟩ (fun r => ∀ c : Dev nD,
      r.2.mem ((c.tc : Thread nD τ).loc main_v1) = (dat1 (V1r m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

end Cert.Kernel.Hand

end
-- ==== Proof.KIRegion0.lean ====
/- Region 0 of @main (the projection kernel, grid (8,)) at a parameter `V`, the TensorCore's buffer contents when the
   region is entered: each window's block at a point, what the body leaves in each output window's staging buffer,
   the body's triple, the pipeline's proof data and the body obligation. Every window is loaded and stored whole
   through literal rectangles; there is no branch and no scratch. -/
import proofs.«160592_j63909113364812_2_alg».proof.Proof.Gen.KernelIdeal.Launch
import proofs.«160592_j63909113364812_2_alg».proof.Proof.Gen.KernelIdeal.Skeleton
import proofs.«160592_j63909113364812_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 2048 x 256: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the projection kernel, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations `x`, one batch row per point) holds its block in its current staging buffer at
    every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight `Wq`, one block, fetched at the first point only) holds its block at every point:
    unfetched, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the weight `Wk`), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole `[1, 2048, 256]` buffer as a rectangle, -/
abbrev rX : Rect S1x2048x256 := Rect.unit (s := S1x2048x256) ![0, 0, 0] S1x2048x256.size inb_S1x2048x256_S1x2048x256_0_0_0
/-- and the whole `[256, 256]` one. -/
abbrev rW : Rect S256x256 := Rect.unit (s := S256x256) ![0, 0] S256x256.size inb_S256x256_S256x256_0_0

/-! ## What the body leaves in each output window's buffer -/

/-- Window 3's staging buffer after the body (the projection `Q` of the point's batch row), from the blocks of `x`
    and `Wq`: its one store as a piece. -/
def outQ (x : Vec F S1x2048x256 .f32) (wq : Vec F S256x256 .f32) : Vec F S1x2048x256 .bf16 :=
  View.canon [⟨rX, k0_pay2 (View.ld x rX) (View.ld wq rW)⟩]

/-- Window 4's (the projection `K`), from the blocks of `x` and `Wk`. -/
def outK (x : Vec F S1x2048x256 .f32) (wk : Vec F S256x256 .f32) : Vec F S1x2048x256 .bf16 :=
  View.canon [⟨rX, k0_pay3 (View.ld x rX) (View.ld wk rW)⟩]

/-- Window 5's (`V`, the batch row rounded), from the block of `x`. -/
def outV (x : Vec F S1x2048x256 .f32) : Vec F S1x2048x256 .bf16 :=
  View.canon [⟨rX, k0_pay4 (View.ld x rX)⟩]

/-- A store through the whole-buffer rectangle covers the buffer: the one piece tiles it. -/
theorem coverX (p : Vec F S1x2048x256 .bf16) (y : S1x2048x256.Idx) :
    ∃ pc ∈ ([⟨rX, p⟩] : List (View.Piece (Elt F) S1x2048x256 .bf16)), y ∈ pc.1.set :=
  View.cover_of_tiled [⟨rX, p⟩] S1x2048x256.size (by rfl) y

/-! ## The body's triple -/

set_option maxHeartbeats 4000000 in
/-- The kernel body on whole staging memrefs, the three inputs' at read contents `x0`, `x1`, `x2` and the three outputs'
    at anything, runs to the continuation holding the inputs' as they were and the outputs' at `outQ x0 x1`,
    `outK x0 x2`, `outV x0`. The body loads each output buffer before storing it whole; what it loads is not used. -/
theorem sound_kernel0 (c : Dev nD) (E : Set ℕ) (i : grid0.Coords)
    (arg1 : Memref sig .tc .vmem S1x2048x256 .f32) (harg1 : arg1.IsWhole)
    (arg2 : Memref sig .tc .vmem S256x256 .f32) (harg2 : arg2.IsWhole)
    (arg3 : Memref sig .tc .vmem S256x256 .f32) (harg3 : arg3.IsWhole)
    (arg4 : Memref sig .tc .vmem S1x2048x256 .bf16) (harg4 : arg4.IsWhole)
    (arg5 : Memref sig .tc .vmem S1x2048x256 .bf16) (harg5 : arg5.IsWhole)
    (arg6 : Memref sig .tc .vmem S1x2048x256 .bf16) (harg6 : arg6.IsWhole)
    (x0 : Vec F S1x2048x256 .f32) (x1 : Vec F S256x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outQ x0 x1) ∗ owns (c : Thread nD τ) arg5 fullShare (outK x0 x2)
            ∗ owns (c : Thread nD τ) arg6 fullShare (outV x0)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverX _)
  isplitl [H4]
  · iexists _; isplitr
    swap; · iexact H4
    ipureintro
    exact View.read_writes_eq_canon _ _ _ (coverX _)
  iexists _; isplitr
  swap; · iexact H5
  ipureintro
  exact View.read_writes_eq_canon _ _ _ (coverX _)

/-! ## The pipeline's proof data -/

/-- The proof data of pipeline 0 on core `c`: the arrays as the region finds them (`V`); after the body at point `t`
    each input's buffer at its block and the outputs' at `outQ`, `outK`, `outV` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outQ (iblk0 V c 0 t) (iblk0 V c 1 t)
    | ⟨4, _⟩ => outK (iblk0 V c 0 t) (iblk0 V c 2 t)
    | ⟨5, _⟩ => outV (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outQ (iblk0 V c 0 t) (iblk0 V c 1 t) := by dsimp only [dat0]
theorem after0_4 (c : Dev nD) (t : Fin cfg0.N) : (dat0 V c).after 4 t = outK (iblk0 V c 0 t) (iblk0 V c 2 t) := by dsimp only [dat0]
theorem after0_5 (c : Dev nD) (t : Fin cfg0.N) : (dat0 V c).after 5 t = outV (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIR1Base.lean ====
/-
  The attention region (the second pallas_call) at the contents `V` it is entered from: what the three input windows
  hold at a grid point, in which of the three control cases a point lies, and where the output window is idle.

  The grid is (batch, query tile, key tile) = (8, 2, 4), the key-tile axis innermost, so a point's position mod 4 is its
  key tile. At key tile 0 the body resets the running maximum, normaliser and accumulator it keeps in scratch; at every
  key tile it updates them from the staged query, key and value blocks; at key tile 3 it also stores the quotient into
  the output block, which is written back there and nowhere else.
-/
import proofs.«160592_j63909113364812_2_alg».proof.Proof.Gen.KernelIdeal.Launch
import proofs.«160592_j63909113364812_2_alg».proof.Proof.Gen.KernelIdeal.Skeleton
import proofs.«160592_j63909113364812_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's query block, fetched there or not (its block index does not
    move along the key-tile axis). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds the point's key block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds the point's value block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions, decided over the grid -/

/-- "The key tile is the first": the reset's condition, from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The key tile is the last": the output store's condition. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S1x1024x256 .f32 := (Memref.whole cc1_stg3_0 : Memref sig .tc .vmem S1x1024x256 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x256 .f32 := win1_3.stage (cfg1.slots t 3)
abbrev hs1_3 (t : Fin cfg1.N) : (ms1_3 t).IsWhole := hstage1_3 ((cfg1.slots t 3).cast nbuf1_3)
/-- The scratch operands: the running maximum, the normaliser, the accumulator. -/
abbrev scM : Memref sig .tc .vmem S1024x1 .f32 := Memref.whole cc1_scratch0
abbrev scL : Memref sig .tc .vmem S1024x1 .f32 := Memref.whole cc1_scratch1
abbrev scA : Memref sig .tc .vmem S1024x256 .f32 := Memref.whole cc1_scratch2
abbrev VSM : View sig .tc .vmem S1024x1 .f32 := scM.view
abbrev VSL : View sig .tc .vmem S1024x1 .f32 := scL.view
abbrev VSA : View sig .tc .vmem S1024x256 .f32 := scA.view

/-- The scoped buffers the attention region does not stage, with the three scratch operands at the given states: the
    projection region's ten staging buffers at anything, then the scratch. -/
abbrev ScRest (c : Dev nD) (SM SL SA : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ SM ∗ SL ∗ SA)

/-- The region's class invariant with the scratch operands as memrefs owned at some contents. -/
theorem PhiA1_eq (c : Dev nD) :
    (Pipeline.ΦA spec1 c : sProp 𝕄)
      = iprop(ScRest c iprop(∃ d, owns (c : Thread nD τ) scM fullShare d) iprop(∃ d, owns (c : Thread nD τ) scL fullShare d) iprop(∃ d, owns (c : Thread nD τ) scA fullShare d)
          ∗ (∃ r, prngReg c r)) := by
  unfold Pipeline.ΦA; rw [scopedRest1_eq]; simp only [scM, scL, scA, owns_whole]; try rfl

end Cert.KernelIdeal.Hand

end
-- ==== Proof.KIR1RunA.lean ====
/-
  The attention body at a point of the FIRST key tile: the scratch operands, at anything, are reset and then updated
  from the staged blocks; the output block is left as found.
-/
import proofs.«160592_j63909113364812_2_alg».proof.Proof.KIR1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each scratch operand (last first) at a first-key-tile point, with the proof
    that on whole memrefs — the inputs' at their contents, the output's at contents handed back untouched, the scratch
    at anything — the body runs to the continuation holding the inputs as they were and each scratch with its pieces
    written. The pieces are what the run finds. -/
noncomputable def kernelRun1_A (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1x1024x256 .bf16) (x1 : Vec F S1x512x256 .bf16) (x2 : Vec F S1x512x256 .bf16) :
    Σ' (L3 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (xi3 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KIR1RunB.lean ====
/-
  The attention body at a point of a MIDDLE key tile (neither first nor last): the scratch operands, at what the point
  before left, are updated from the staged blocks; the output block is left as found.
-/
import proofs.«160592_j63909113364812_2_alg».proof.Proof.KIR1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in each scratch operand at a middle-key-tile point, the scratch entered at the
    contents `xs·` the point before left. -/
noncomputable def kernelRun1_B (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1x1024x256 .bf16) (x1 : Vec F S1x512x256 .bf16) (x2 : Vec F S1x512x256 .bf16)
    (xs0 : Vec F S1024x1 .f32) (xs1 : Vec F S1024x1 .f32) (xs2 : Vec F S1024x256 .f32) :
    Σ' (L3 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (xi3 : Vec F S1x1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KIR1RunC.lean ====
/-
  The attention body at a point of the LAST key tile: the scratch operands, at what the point before left, are updated
  from the staged blocks, and the quotient of the accumulator by the normaliser is stored into the output block.
-/
import proofs.«160592_j63909113364812_2_alg».proof.Proof.KIR1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in each scratch operand at a last-key-tile point, the
    scratch entered at the contents `xs·` the point before left, the output block at anything. -/
noncomputable def kernelRun1_C (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1x1024x256 .bf16) (x1 : Vec F S1x512x256 .bf16) (x2 : Vec F S1x512x256 .bf16)
    (xs0 : Vec F S1024x1 .f32) (xs1 : Vec F S1024x1 .f32) (xs2 : Vec F S1024x256 .f32) :
    Σ' (L3 : List (View.Piece (Elt F) S1x1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KIRegion1.lean ====
/-
  The attention region's proof data at the contents `V` it is entered from, and its body obligation.

  What the scratch operands (running maximum, normaliser, accumulator) and the output block hold after the body at each
  grid position is defined by recursion on the position: at a first key tile the reset-and-update of the point's blocks,
  otherwise the update of what the position before left; the output block is the quotient at a last key tile. The
  region's invariant carries the scratch at those contents from one point to the next.
-/
import proofs.«160592_j63909113364812_2_alg».proof.Proof.KIR1RunA
import proofs.«160592_j63909113364812_2_alg».proof.Proof.KIR1RunB
import proofs.«160592_j63909113364812_2_alg».proof.Proof.KIR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The runs at a grid point's own memrefs -/

/-- The first-key-tile run at point `t`. -/
abbrev runA (c : Dev nD) (t : Fin cfg1.N) (h0 : t.val % 4 = 0) (x0 : Vec F S1x1024x256 .bf16) (x1 x2 : Vec F S1x512x256 .bf16) :=
  kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) x0 x1 x2
/-- The middle-key-tile run at point `t`. -/
abbrev runB (c : Dev nD) (t : Fin cfg1.N) (h0 : ¬t.val % 4 = 0) (h1 : ¬t.val % 4 = 3) (x0 : Vec F S1x1024x256 .bf16) (x1 x2 : Vec F S1x512x256 .bf16)
    (xs0 xs1 : Vec F S1024x1 .f32) (xs2 : Vec F S1024x256 .f32) :=
  kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) x0 x1 x2 xs0 xs1 xs2
/-- The last-key-tile run at point `t`. -/
abbrev runC (c : Dev nD) (t : Fin cfg1.N) (h0 : ¬t.val % 4 = 0) (h1 : t.val % 4 = 3) (x0 : Vec F S1x1024x256 .bf16) (x1 x2 : Vec F S1x512x256 .bf16)
    (xs0 xs1 : Vec F S1024x1 .f32) (xs2 : Vec F S1024x256 .f32) :=
  kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) ((hcond1_1 t).mpr h1) x0 x1 x2 xs0 xs1 xs2

/-! ## What each case leaves, read back; the pieces cover -/

theorem coverM_A (c : Dev nD) (t : Fin cfg1.N) (h0) (x0 x1 x2) (y : S1024x1.Idx) : ∃ pc ∈ (runA (F := F) c t h0 x0 x1 x2).2.1, y ∈ pc.1.set :=
  View.cover_of_tiledL _ S1024x1.size (by sl_kernel_rfl) y
theorem coverL_A (c : Dev nD) (t : Fin cfg1.N) (h0) (x0 x1 x2) (y : S1024x1.Idx) : ∃ pc ∈ (runA (F := F) c t h0 x0 x1 x2).2.2.1, y ∈ pc.1.set :=
  View.cover_of_tiledL _ S1024x1.size (by sl_kernel_rfl) y
theorem coverA_A (c : Dev nD) (t : Fin cfg1.N) (h0) (x0 x1 x2) (y : S1024x256.Idx) : ∃ pc ∈ (runA (F := F) c t h0 x0 x1 x2).2.2.2.1, y ∈ pc.1.set :=
  View.cover_of_tiledL _ S1024x256.size (by sl_kernel_rfl) y
theorem coverM_B (c : Dev nD) (t : Fin cfg1.N) (h0 h1) (x0 x1 x2 xs0 xs1 xs2) (y : S1024x1.Idx) : ∃ pc ∈ (runB (F := F) c t h0 h1 x0 x1 x2 xs0 xs1 xs2).2.1, y ∈ pc.1.set :=
  View.cover_of_tiledL _ S1024x1.size (by sl_kernel_rfl) y
theorem coverL_B (c : Dev nD) (t : Fin cfg1.N) (h0 h1) (x0 x1 x2 xs0 xs1 xs2) (y : S1024x1.Idx) : ∃ pc ∈ (runB (F := F) c t h0 h1 x0 x1 x2 xs0 xs1 xs2).2.2.1, y ∈ pc.1.set :=
  View.cover_of_tiledL _ S1024x1.size (by sl_kernel_rfl) y
theorem coverA_B (c : Dev nD) (t : Fin cfg1.N) (h0 h1) (x0 x1 x2 xs0 xs1 xs2) (y : S1024x256.Idx) : ∃ pc ∈ (runB (F := F) c t h0 h1 x0 x1 x2 xs0 xs1 xs2).2.2.2.1, y ∈ pc.1.set :=
  View.cover_of_tiledL _ S1024x256.size (by sl_kernel_rfl) y
theorem coverO_C (c : Dev nD) (t : Fin cfg1.N) (h0 h1) (x0 x1 x2 xs0 xs1 xs2) (y : S1x1024x256.Idx) : ∃ pc ∈ (runC (F := F) c t h0 h1 x0 x1 x2 xs0 xs1 xs2).1, y ∈ pc.1.set :=
  View.cover_of_tiledL _ S1x1024x256.size (by sl_kernel_rfl) y
theorem coverM_C (c : Dev nD) (t : Fin cfg1.N) (h0 h1) (x0 x1 x2 xs0 xs1 xs2) (y : S1024x1.Idx) : ∃ pc ∈ (runC (F := F) c t h0 h1 x0 x1 x2 xs0 xs1 xs2).2.1, y ∈ pc.1.set :=
  View.cover_of_tiledL _ S1024x1.size (by sl_kernel_rfl) y
theorem coverL_C (c : Dev nD) (t : Fin cfg1.N) (h0 h1) (x0 x1 x2 xs0 xs1 xs2) (y : S1024x1.Idx) : ∃ pc ∈ (runC (F := F) c t h0 h1 x0 x1 x2 xs0 xs1 xs2).2.2.1, y ∈ pc.1.set :=
  View.cover_of_tiledL _ S1024x1.size (by sl_kernel_rfl) y
theorem coverA_C (c : Dev nD) (t : Fin cfg1.N) (h0 h1) (x0 x1 x2 xs0 xs1 xs2) (y : S1024x256.Idx) : ∃ pc ∈ (runC (F := F) c t h0 h1 x0 x1 x2 xs0 xs1 xs2).2.2.2.1, y ∈ pc.1.set :=
  View.cover_of_tiledL _ S1024x256.size (by sl_kernel_rfl) y

/-- The four buffers after a first-key-tile point: the output block (untouched: a placeholder), then maximum,
    normaliser, accumulator. -/
def outs_A (c : Dev nD) (t : Fin cfg1.N) (h0 : t.val % 4 = 0) (x0 : Vec F S1x1024x256 .bf16) (x1 x2 : Vec F S1x512x256 .bf16) :
    Vec F S1x1024x256 .f32 × Vec F S1024x1 .f32 × Vec F S1024x1 .f32 × Vec F S1024x256 .f32 :=
  (VO1_3.read (Elt F) (VO1_3.writes (Elt F) VO1_3.junk (runA c t h0 x0 x1 x2).1),
   VSM.read (Elt F) (VSM.writes (Elt F) VSM.junk (runA c t h0 x0 x1 x2).2.1),
   VSL.read (Elt F) (VSL.writes (Elt F) VSL.junk (runA c t h0 x0 x1 x2).2.2.1),
   VSA.read (Elt F) (VSA.writes (Elt F) VSA.junk (runA c t h0 x0 x1 x2).2.2.2.1))
/-- After a middle-key-tile point. -/
def outs_B (c : Dev nD) (t : Fin cfg1.N) (h0 : ¬t.val % 4 = 0) (h1 : ¬t.val % 4 = 3) (x0 : Vec F S1x1024x256 .bf16) (x1 x2 : Vec F S1x512x256 .bf16)
    (xs0 xs1 : Vec F S1024x1 .f32) (xs2 : Vec F S1024x256 .f32) :
    Vec F S1x1024x256 .f32 × Vec F S1024x1 .f32 × Vec F S1024x1 .f32 × Vec F S1024x256 .f32 :=
  (VO1_3.read (Elt F) (VO1_3.writes (Elt F) VO1_3.junk (runB c t h0 h1 x0 x1 x2 xs0 xs1 xs2).1),
   VSM.read (Elt F) (VSM.writes (Elt F) VSM.junk (runB c t h0 h1 x0 x1 x2 xs0 xs1 xs2).2.1),
   VSL.read (Elt F) (VSL.writes (Elt F) VSL.junk (runB c t h0 h1 x0 x1 x2 xs0 xs1 xs2).2.2.1),
   VSA.read (Elt F) (VSA.writes (Elt F) VSA.junk (runB c t h0 h1 x0 x1 x2 xs0 xs1 xs2).2.2.2.1))
/-- After a last-key-tile point. -/
def outs_C (c : Dev nD) (t : Fin cfg1.N) (h0 : ¬t.val % 4 = 0) (h1 : t.val % 4 = 3) (x0 : Vec F S1x1024x256 .bf16) (x1 x2 : Vec F S1x512x256 .bf16)
    (xs0 xs1 : Vec F S1024x1 .f32) (xs2 : Vec F S1024x256 .f32) :
    Vec F S1x1024x256 .f32 × Vec F S1024x1 .f32 × Vec F S1024x1 .f32 × Vec F S1024x256 .f32 :=
  (VO1_3.read (Elt F) (VO1_3.writes (Elt F) VO1_3.junk (runC c t h0 h1 x0 x1 x2 xs0 xs1 xs2).1),
   VSM.read (Elt F) (VSM.writes (Elt F) VSM.junk (runC c t h0 h1 x0 x1 x2 xs0 xs1 xs2).2.1),
   VSL.read (Elt F) (VSL.writes (Elt F) VSL.junk (runC c t h0 h1 x0 x1 x2 xs0 xs1 xs2).2.2.1),
   VSA.read (Elt F) (VSA.writes (Elt F) VSA.junk (runC c t h0 h1 x0 x1 x2 xs0 xs1 xs2).2.2.2.1))

/-! ## Position by position -/

/-- What the output block and the three scratch operands hold after the body at position `n`. -/
def outsAt1 (c : Dev nD) : (n : ℕ) → n < cfg1.N → Vec F S1x1024x256 .f32 × Vec F S1024x1 .f32 × Vec F S1024x1 .f32 × Vec F S1024x256 .f32
  | 0, hn => outs_A c ⟨0, hn⟩ (Nat.zero_mod _) (iblk1 V c 0 ⟨0, hn⟩) (iblk1 V c 1 ⟨0, hn⟩) (iblk1 V c 2 ⟨0, hn⟩)
  | n + 1, hn =>
    if h0 : (n + 1) % 4 = 0 then
      outs_A c ⟨n + 1, hn⟩ h0 (iblk1 V c 0 ⟨n + 1, hn⟩) (iblk1 V c 1 ⟨n + 1, hn⟩) (iblk1 V c 2 ⟨n + 1, hn⟩)
    else if h1 : (n + 1) % 4 = 3 then
      outs_C c ⟨n + 1, hn⟩ h0 h1 (iblk1 V c 0 ⟨n + 1, hn⟩) (iblk1 V c 1 ⟨n + 1, hn⟩) (iblk1 V c 2 ⟨n + 1, hn⟩)
        (outsAt1 c n (Nat.lt_of_succ_lt hn)).2.1 (outsAt1 c n (Nat.lt_of_succ_lt hn)).2.2.1 (outsAt1 c n (Nat.lt_of_succ_lt hn)).2.2.2
    else
      outs_B c ⟨n + 1, hn⟩ h0 h1 (iblk1 V c 0 ⟨n + 1, hn⟩) (iblk1 V c 1 ⟨n + 1, hn⟩) (iblk1 V c 2 ⟨n + 1, hn⟩)
        (outsAt1 c n (Nat.lt_of_succ_lt hn)).2.1 (outsAt1 c n (Nat.lt_of_succ_lt hn)).2.2.1 (outsAt1 c n (Nat.lt_of_succ_lt hn)).2.2.2

/-- The position before `t`, as a bound. -/
theorem pred_lt (t : Fin cfg1.N) : t.val - 1 < cfg1.N := Nat.lt_of_le_of_lt (Nat.sub_le _ _) t.isLt

theorem outsAt1_A (c : Dev nD) (t : Fin cfg1.N) (h0 : t.val % 4 = 0) :
    outsAt1 V c t.val t.isLt = outs_A c t h0 (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = outs_B c t h0 h1 (iblk1 V c 0 t) (iblk1 V c 1 t) (iblk1 V c 2 t)
      (outsAt1 V c (t.val - 1) (pred_lt t)).2.1 (outsAt1 V c (t.val - 1) (pred_lt t)).2.2.1 (outsAt1 V c (t.val - 1) (pred_lt t)).2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = outs_C c t h0 h1 (iblk1 V c 0 t) (iblk1 V c 1 t) (iblk1 V c 2 t)
      (outsAt1 V c (t.val - 1) (pred_lt t)).2.1 (outsAt1 V c (t.val - 1) (pred_lt t)).2.2.1 (outsAt1 V c (t.val - 1) (pred_lt t)).2.2.2 := by
  obtain ⟨n, hn⟩ := t
  cases n with
  | zero => exact absurd (Nat.zero_mod _) h0
  | succ n => exact (dif_neg h0).trans ((dif_pos h1).trans rfl)

/-- The region's invariant before position `n`: before the first point the class's (every scratch at anything);
    afterwards the scoped rest with each scratch operand at what the position before left. -/
def PhiS1 (c : Dev nD) : (n : ℕ) → n ≤ cfg1.N → sProp 𝕄
  | 0, _ => Pipeline.ΦA spec1 c
  | n + 1, hn => iprop(ScRest c (owns (c : Thread nD τ) scM fullShare (outsAt1 V c n hn).2.1) (owns (c : Thread nD τ) scL fullShare (outsAt1 V c n hn).2.2.1)
      (owns (c : Thread nD τ) scA fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(ScRest c (owns (c : Thread nD τ) scM fullShare (outsAt1 V c n hn).2.1) (owns (c : Thread nD τ) scL fullShare (outsAt1 V c n hn).2.2.1)
      (owns (c : Thread nD τ) scA fullShare (outsAt1 V c n hn).2.2.2) ∗ (∃ r, prngReg c r)) := rfl

theorem PhiS1_pos (c : Dev nD) (n : ℕ) (h : n ≤ cfg1.N) (hz : n ≠ 0) :
    PhiS1 V c n h = iprop(ScRest c (owns (c : Thread nD τ) scM fullShare (outsAt1 V c (n - 1) (by omega)).2.1) (owns (c : Thread nD τ) scL fullShare (outsAt1 V c (n - 1) (by omega)).2.2.1)
      (owns (c : Thread nD τ) scA fullShare (outsAt1 V c (n - 1) (by omega)).2.2.2) ∗ (∃ r, prngReg c r)) := by
  cases n with
  | zero => exact absurd rfl hz
  | succ n => rfl

/-! ## The proof data -/

/-- The attention pipeline's proof data on core `c`: the arrays as the region finds them; after the body each input's
    buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the point's position mod 4 says which case it is in;
    the invariant hands the body the scratch at what the position before left (at anything before the first point)
    and takes it back at this position's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · have h1 : ¬t.val % 4 = 3 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => h1 ((hcond1_1 t).mp h))) (noFlush1_3 t (fun h => h1 ((hcond1_1 t).mp h)))]
    rw [outsAt1_A V c t h0]
    unfold outs_A; (try dsimp only)
    by_cases hz : t.val = 0
    · rw [PhiS1_castSucc V c t, PhiS1_zero V c _ _ hz, PhiA1_eq]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩⟩
      iapply ((runA c t h0 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (coverM_A c t h0 _ _ _)
          isplitl [HS1]
          · unfold owns; iexists _; isplitr
            swap; · iexact HS1
            ipureintro; exact View.read_writes_of_cover _ _ _ _ _ (coverL_A c t h0 _ _ _)
          unfold owns; iexists _; isplitr
          swap; · iexact HS2
          ipureintro; exact View.read_writes_of_cover _ _ _ _ _ (coverA_A c t h0 _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩⟩
      iapply ((runA c t h0 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (coverM_A c t h0 _ _ _)
          isplitl [HS1]
          · unfold owns; iexists _; isplitr
            swap; · iexact HS1
            ipureintro; exact View.read_writes_of_cover _ _ _ _ _ (coverL_A c t h0 _ _ _)
          unfold owns; iexists _; isplitr
          swap; · iexact HS2
          ipureintro; exact View.read_writes_of_cover _ _ _ _ _ (coverA_A c t h0 _ _ _)
        iexact Hg
      isplitl [Ho]; · iexact Ho
      isplitl [H0]; · iexact H0
      isplitl [H1]; · iexact H1
      isplitl [H2]; · iexact H2
      iexists _; iexact H3
  · by_cases h1 : t.val % 4 = 3
    · have hz : t.val ≠ 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold outs_C; (try dsimp only)
      rw [PhiS1_castSucc V c t, PhiS1_pos V c _ _ hz]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩⟩
      iapply ((runC c t h0 h1 (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (coverM_C c t h0 h1 _ _ _ _ _ _)
          isplitl [HS1]
          · unfold owns; iexists _; isplitr
            swap; · iexact HS1
            ipureintro; exact View.read_writes_of_cover _ _ _ _ _ (coverL_C c t h0 h1 _ _ _ _ _ _)
          unfold owns; iexists _; isplitr
          swap; · iexact HS2
          ipureintro; exact View.read_writes_of_cover _ _ _ _ _ (coverA_C c t h0 h1 _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverO_C c t h0 h1 _ _ _ _ _ _)
    · have hz : t.val ≠ 0 := by omega
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold outs_B; (try dsimp only)
      rw [PhiS1_castSucc V c t, PhiS1_pos V c _ _ hz]
      iintro ⟨⟨⟨R0, R1, R2, R3, R4, R5, R6, R7, R8, R9, HS0, HS1, HS2⟩, Hg⟩, Ho, ⟨%d0, H0⟩, ⟨%d1, H1⟩, ⟨%d2, H2⟩, ⟨%d3, H3⟩⟩
      iapply ((runB c t h0 h1 (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R0 R1 R2 R3 R4 R5 R6 R7 R8 R9 HS0 HS1 HS2 Hg]
      · isplitl [R0 R1 R2 R3 R4 R5 R6 R7 R8 R9 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [HS0]
          · unfold owns; iexists _; isplitr
            swap; · iexact HS0
            ipureintro; exact View.read_writes_of_cover _ _ _ _ _ (coverM_B c t h0 h1 _ _ _ _ _ _)
          isplitl [HS1]
          · unfold owns; iexists _; isplitr
            swap; · iexact HS1
            ipureintro; exact View.read_writes_of_cover _ _ _ _ _ (coverL_B c t h0 h1 _ _ _ _ _ _)
          unfold owns; iexists _; isplitr
          swap; · iexact HS2
          ipureintro; exact View.read_writes_of_cover _ _ _ _ _ (coverA_B c t h0 h1 _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨R0, R1, R2, R3, R4, R5, R6, R7, R8, R9, HS0, HS1, HS2⟩, Hg⟩
  isplitl [R0 R1 R2 R3 R4 R5 R6 R7 R8 R9 HS0 HS1 HS2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    isplitl [HS1]; · iexists _; iexact HS1
    iexists _; iexact HS2
  iexact Hg

end Cert.KernelIdeal.Hand

end
-- ==== Proof.KIRun.lean ====
/-
  The whole program's run: the projection region, then the attention region, over the thread state "every unscoped
  buffer at the boundary's contents, the generator register at some state, nothing owed".

  The buffer contents at the three boundaries are a fold from the launch memory: after a region its arrays hold what its
  write-backs leave and every other buffer what it held before. Every weakly fair execution terminates with every
  unscoped buffer at the last boundary's contents; the argument arrays, which no region writes, read back as launched.
-/
import proofs.«160592_j63909113364812_2_alg».proof.Proof.KIRegion0
import proofs.«160592_j63909113364812_2_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references: what the projection region is entered from. -/
abbrev V0r : (c : Dev nD) → (b : Ref sig .tc) → Buf (Elt F) ((c : Thread nD τ).loc b) := fun c b => W0 m ρ c b
/-- After the projection region: its arrays at what the pipeline leaves, every other buffer as entered. -/
def W1 (c : Dev nD) : Valuation τ sig (Elt F) :=
  Pipeline.withArrays spec0 c (W0 m ρ c) fun w => (dat0 (V0r m ρ) c).arrAt w cfg0.N
theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- What the attention region is entered from. -/
abbrev V1r : (c : Dev nD) → (b : Ref sig .tc) → Buf (Elt F) ((c : Thread nD τ).loc b) := fun c b => W1 m ρ c b
theorem hF0 (c : Dev nD) (w : Fin cfg0.W) : (dat0 (V0r m ρ) c).arrAt w cfg0.N = V1r m ρ c (Pipeline.arrRef spec0 w) :=
  (W1_arr m ρ c w).symm
theorem hrest0 (c : Dev nD) : ∀ b, b ∉ Finset.univ.image (Pipeline.arrRef spec0) → V1r m ρ c b = V0r m ρ c b :=
  fun b hb => W1_of_ne m ρ c b fun w e => hb (Finset.mem_image.mpr ⟨w, Finset.mem_univ _, e⟩)

/-- After the attention region. -/
def W2 (c : Dev nD) : Valuation τ sig (Elt F) :=
  Pipeline.withArrays spec1 c (W1 m ρ c) fun w => (dat1 (V1r m ρ) c).arrAt w cfg1.N
theorem W2_arr (c : Dev nD) (w : Fin cfg1.W) :
    W2 m ρ c (Proc.devRef .tc (Pipeline.arrRef spec1 w)) = (dat1 (V1r m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2r : (c : Dev nD) → (b : Ref sig .tc) → Buf (Elt F) ((c : Thread nD τ).loc b) := fun c b => W2 m ρ c b
theorem hF1 (c : Dev nD) (w : Fin cfg1.W) : (dat1 (V1r m ρ) c).arrAt w cfg1.N = V2r m ρ c (Pipeline.arrRef spec1 w) :=
  (W2_arr m ρ c w).symm
theorem hrest1 (c : Dev nD) : ∀ b, b ∉ Finset.univ.image (Pipeline.arrRef spec1) → V2r m ρ c b = V1r m ρ c b :=
  fun b hb => W2_of_ne m ρ c b fun w e => hb (Finset.mem_image.mpr ⟨w, Finset.mem_univ _, e⟩)

/-! ### The arguments end as launched: the attention region does not touch them, the projection region only reads them -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0r m ρ) c).arrAt_in 0 rfl _).trans (A_eq0 (V0r m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0r m ρ) c).arrAt_in 1 rfl _).trans (A_eq0 (V0r m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0r m ρ) c).arrAt_in 2 rfl _).trans (A_eq0 (V0r m ρ) c 2))
    _ = m ((c : Thread nD τ).loc main_arg2) := rfl
/-- The result buffer ends at what the attention region's write-backs leave in it. -/
theorem W2_main_v1 (c : Dev nD) : W2 m ρ c (Proc.devRef .tc main_v1) = (dat1 (V1r m ρ) c).arrAt 3 cfg1.N := W2_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0r m ρ) c
  | ⟨1, _⟩ => fun c => dat1 (V1r m ρ) c
abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

/-- Entering a region's invariant: the generator register and the scoped rest, the (empty) tables dropped. -/
theorem enterInv (X Pf S : sProp 𝕄) : iprop(X ∗ Pf ∗ S) ⊢ iprop(S ∗ X) := by
  iintro ⟨Hp, -, Hr⟩
  isplitl [Hr]; · iexact Hr
  iexact Hp
/-- Leaving it. -/
theorem leaveInv (S X : sProp 𝕄) : iprop(S ∗ X) ⊢ iprop(X ∗ BI.emp ∗ S) := by
  iintro ⟨Hr, Hp⟩
  isplitl [Hp]; · iexact Hp
  isplitr; · iempintro
  iexact Hr

/-! ## The regions as segments -/

set_option backward.isDefEq.respectTransparency.types false in
/-- The projection region over the thread state: entered from every unscoped buffer at `W0`, left at `W1`: its arrays
    split out of the unscoped buffers and put back at what its write-backs leave; the generator register into the region's
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0r m ρ c) (V1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W1`, left at `W2`: its arrays
    split out of the unscoped buffers and put back at what its write-backs leave; the generator register into the region's
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1r m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (enterInv _ _ _).trans (show Pipeline.ΦA spec1 c ⊢ (pdats m ρ 1 c).Φ 0 from hin1 (V1r m ρ) c)
  hout c := by
    rw [Pipeline.ownSems0_none]
    exact (show (pdats m ρ 1 c).Φ (Fin.last _) ⊢ Pipeline.ΦA spec1 c from hout1 (V1r m ρ) c).trans (leaveInv _ _)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1r m ρ c) (V2r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- At the compiled mesh, from any memory with zero counters: every weakly fair execution of @main terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

/-- The run with the result buffer named: it ends at what the attention region's write-backs leave. -/
theorem run_value : θ_run defs (onTc (τ := τ) (main (F := F))) ⟨m, fun _ => 0, ρ⟩ (fun r => ∀ c : Dev nD,
      r.2.mem ((c.tc : Thread nD τ).loc main_v1) = (dat1 (V1r m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

end Cert.KernelIdeal.Hand

end
-- ==== Proof.KIValue0.lean ====
/- What region 0 (the projection kernel) leaves in its three output arrays, at the ideal values, as whole-array
   functions of the contents the region finds: Q[b,s,e] = ∑ d, x[b,s,d] * Wq[e,d], K[b,s,e] = ∑ d, x[b,s,d] * Wk[e,d],
   V = x. First the body's payloads read at an index, then each point's written-back block as a block of the
   whole-array function, then the cover: point b writes batch row b. -/
import proofs.«160592_j63909113364812_2_alg».proof.Proof.KIRegion0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's payloads at an index -/

/-- The activations' block with its unit axis dropped and rounded: at the ideal values, the block itself. -/
theorem k0_pay1_apply (x : Vec Ideal S1x2048x256 .f32) (r : Fin 2048) (d : Fin 256) :
    k0_pay1 x (ix2 r d) = x (ix3 (0 : Fin 1) r d) := by
  show shapeCast S2048x256 x shapeCasts_S1x2048x256_S2048x256 (ix2 r d) = _
  refine shapeCast_apply x _ (ix2 r d) (ix3 (0 : Fin 1) r d) ?_
  rw [Shape.rowMajor_val_three, Shape.rowMajor_val_two]
  show ((0 : Nat) * 2048 + r.val) * 256 + d.val = r.val * 256 + d.val
  omega

/-- The product's operand indices at output index `i` and contraction index `q`: the left operand's row is the
    output's row, -/
theorem lhs_row (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- its column the contraction's coordinate; -/
theorem lhs_col (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- the right operand's row is the contraction's coordinate, -/
theorem rhs_row (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- its column the output's column. -/
theorem rhs_col (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The [2048,256] × [256,256] product into the zero accumulator at (r, e): the sum over the contracted axis. -/
theorem matmul_at (l : FVec Ideal S2048x256 .bf16) (w : FVec Ideal S256x256 .bf16) (r : Fin 2048) (e : Fin 256) :
    matmul dot_S2048x256_S256x256_S2048x256_1_0_0_1_n_n none l w (constant (F := Ideal) S2048x256 .f32 0x00000000#32) (ix2 r e)
      = ∑ k : Fin 256, l (ix2 r k) * w (ix2 k e) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r e) ((contrEquiv1 dot_S2048x256_S256x256_S2048x256_1_0_0_1_n_n 256 rfl rfl).symm k) = ix2 r k := funext fun a => Fin.ext (by
    match a with
    | ⟨0, _⟩ => exact lhs_row _ _
    | ⟨1, _⟩ => exact (lhs_col _ _).trans hk)
  have er : dot_S2048x256_S256x256_S2048x256_1_0_0_1_n_n.rhsIdx (ix2 r e) ((contrEquiv1 dot_S2048x256_S256x256_S2048x256_1_0_0_1_n_n 256 rfl rfl).symm k) = ix2 k e := funext fun a => Fin.ext (by
    match a with
    | ⟨0, _⟩ => exact (rhs_row _ _).trans hk
    | ⟨1, _⟩ => exact rhs_col _ _)
  rw [el, er]

/-- A weight's block rounded and transposed, at (k, e): the block at (e, k). -/
theorem wT_apply (w : Vec Ideal S256x256 .f32) (k e : Fin 256) :
    transpose S256x256 [1, 0] (truncf .bf16 w bitsLt_bf16_f32 : FVec Ideal S256x256 .bf16) transposes_S256x256_p1_0_S256x256 (ix2 k e) = w (ix2 e k) := by
  refine (transpose_apply [1, 0] _ transposes_S256x256_p1_0_S256x256 (ix2 k e) (ix2 e k) fun b => ?_).trans rfl
  match b with
  | ⟨0, _⟩ => rfl
  | ⟨1, _⟩ => rfl

/-- A projection's product with its unit axis put back, at (z, r, e): the product at (r, e). -/
theorem proj_apply (x : Vec Ideal S1x2048x256 .f32) (w : Vec Ideal S256x256 .f32) (z : Fin 1) (r : Fin 2048) (e : Fin 256) :
    shapeCast S1x2048x256 (truncf .bf16 (matmul dot_S2048x256_S256x256_S2048x256_1_0_0_1_n_n none (k0_pay1 x)
        (transpose S256x256 [1, 0] (truncf .bf16 w bitsLt_bf16_f32 : FVec Ideal S256x256 .bf16) transposes_S256x256_p1_0_S256x256)
        (constant (F := Ideal) S2048x256 .f32 0x00000000#32)) bitsLt_bf16_f32 : FVec Ideal S2048x256 .bf16) shapeCasts_S2048x256_S1x2048x256 (ix3 z r e)
      = ∑ d : Fin 256, x (ix3 (0 : Fin 1) r d) * w (ix2 e d) := by
  refine (shapeCast_apply _ shapeCasts_S2048x256_S1x2048x256 (ix3 z r e) (ix2 r e) ?_).trans ?_
  · rw [Shape.rowMajor_val_three, Shape.rowMajor_val_two]
    show r.val * 256 + e.val = (z.val * 2048 + r.val) * 256 + e.val
    have := z.isLt
    omega
  · rw [truncf_apply, matmul_at]
    exact Finset.sum_congr rfl fun d _ => by rw [k0_pay1_apply, wT_apply]

/-- The payload stored into window 3 (Q) at an index of the block. -/
theorem k0_pay2_apply (x : Vec Ideal S1x2048x256 .f32) (wq : Vec Ideal S256x256 .f32) (z : Fin 1) (r : Fin 2048) (e : Fin 256) :
    k0_pay2 x wq (ix3 z r e) = ∑ d : Fin 256, x (ix3 (0 : Fin 1) r d) * wq (ix2 e d) :=
  proj_apply x wq z r e

/-- The payload stored into window 4 (K). -/
theorem k0_pay3_apply (x : Vec Ideal S1x2048x256 .f32) (wk : Vec Ideal S256x256 .f32) (z : Fin 1) (r : Fin 2048) (e : Fin 256) :
    k0_pay3 x wk (ix3 z r e) = ∑ d : Fin 256, x (ix3 (0 : Fin 1) r d) * wk (ix2 e d) :=
  proj_apply x wk z r e

/-- The payload stored into window 5 (V): the activations' block. -/
theorem k0_pay4_apply (x : Vec Ideal S1x2048x256 .f32) (z : Fin 1) (r : Fin 2048) (e : Fin 256) :
    k0_pay4 x (ix3 z r e) = x (ix3 (0 : Fin 1) r e) := by
  show shapeCast S1x2048x256 (k0_pay1 x) shapeCasts_S2048x256_S1x2048x256 (ix3 z r e) = _
  refine (shapeCast_apply _ shapeCasts_S2048x256_S1x2048x256 (ix3 z r e) (ix2 r e) ?_).trans (k0_pay1_apply x r e)
  rw [Shape.rowMajor_val_three, Shape.rowMajor_val_two]
  show r.val * 256 + e.val = (z.val * 2048 + r.val) * 256 + e.val
  have := z.isLt
  omega

/-! ## The whole-array functions -/

/-- A projection of the activations `X` by a weight `W`, contracted over the feature axis: at (b, s, e) the sum over
    `d` of `X[b, s, d] * W[e, d]`. -/
def projArr (X : S8x2048x256.Idx → EReal) (W : S256x256.Idx → EReal) : S8x2048x256.Idx → EReal :=
  fun i => ∑ d : Fin 256, X (ix3 (⟨(i 0).val, (i 0).isLt⟩ : Fin 8) (⟨(i 1).val, (i 1).isLt⟩ : Fin 2048) d) * W (ix2 (⟨(i 2).val, (i 2).isLt⟩ : Fin 256) d)

/-- The projection at an index whose coordinates are `b`, `s`, `e`. -/
theorem projArr_apply (X : S8x2048x256.Idx → EReal) (W : S256x256.Idx → EReal) (i : S8x2048x256.Idx)
    (b : Fin 8) (s : Fin 2048) (e : Fin 256) (h0 : (i 0).val = b.val) (h1 : (i 1).val = s.val) (h2 : (i 2).val = e.val) :
    projArr X W i = ∑ d : Fin 256, X (ix3 b s d) * W (ix2 e d) := by
  unfold projArr
  rw [show (⟨(i 0).val, (i 0).isLt⟩ : Fin 8) = b from Fin.ext h0, show (⟨(i 1).val, (i 1).isLt⟩ : Fin 2048) = s from Fin.ext h1,
    show (⟨(i 2).val, (i 2).isLt⟩ : Fin 256) = e from Fin.ext h2]

/-- At an index given by its coordinates. -/
theorem projArr_ix3 (X : S8x2048x256.Idx → EReal) (W : S256x256.Idx → EReal) (b : Fin 8) (s : Fin 2048) (e : Fin 256) :
    projArr X W (ix3 b s e) = ∑ d : Fin 256, X (ix3 b s d) * W (ix2 e d) :=
  projArr_apply X W (ix3 b s e) b s e rfl rfl rfl

/-! ## From blocks to the arrays -/

/-- Products of equal extended reals are equal. -/
theorem mul_eq_mul_of_eq {a a' b b' : EReal} (h : a = a') (h' : b = b') : a * b = a' * b' := by rw [h, h']

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid's 8 points: the activations' window and the three output windows
    are at batch row `t`, the weights' windows at their one block. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ t.val < 8 :=
  (by decide +kernel : ∀ t : Fin grid0.N, _)

/-- What point `t` writes back to window 3's array is block `t` of the activations projected by `Wq`. -/
theorem flushedQ_eq (c : Dev nD) (t : Fin cfg0.N) :
    (dat0 V c).flushed 3 t = ((cfg0.win 3).blk t).view.read (Elt Ideal) (projArr (V c main_arg0) (V c main_arg1)) := by
  show (cfg0.win 3).cut (grid0.coords t) ((dat0 V c).after 3 t) = _
  rw [after0_3]
  unfold outQ
  rw [View.canon_unit_zero hz3]
  simp only [View.ld_unit_zero (S := S1x2048x256) hz3, View.ld_unit_zero (S := S256x256) hz2]
  funext j
  obtain ⟨z, r, e, rfl⟩ : ∃ (z : Fin 1) (r : Fin 2048) (e : Fin 256), j = ix3 z r e := ⟨j 0, j 1, j 2, eq_ix3 j⟩
  obtain ⟨a00, a01, a02, a10, a11, a20, a21, a30, a31, a32, a40, a41, a42, a50, a51, a52, ht⟩ := idx_facts0 t
  have hz : z.val = 0 := by have := z.isLt; omega
  show k0_pay2 (iblk0 V c 0 t) (iblk0 V c 1 t) (ix3 z r e) = projArr (V c main_arg0) (V c main_arg1) (((cfg0.win 3).blk t).view.emb (ix3 z r e))
  refine (k0_pay2_apply _ _ z r e).trans (Eq.trans ?_ (projArr_apply _ _ (((cfg0.win 3).blk t).view.emb (ix3 z r e)) ⟨t.val, ht⟩ r e ?_ ?_ ?_).symm)
  · refine Finset.sum_congr rfl fun d _ => ?_
    have h0 : ((cfg0.win 0).blk t).view.emb (ix3 (0 : Fin 1) r d) = ix3 (⟨t.val, ht⟩ : Fin 8) r d := by
      funext a; apply Fin.ext
      match a with
      | ⟨0, _⟩ => show win0_0.index t (0 : Fin 3) * 1 + 1 * 0 = t.val; omega
      | ⟨1, _⟩ => show win0_0.index t (1 : Fin 3) * 2048 + 1 * r.val = r.val; omega
      | ⟨2, _⟩ => show win0_0.index t (2 : Fin 3) * 256 + 1 * d.val = d.val; omega
    have h1 : ((cfg0.win 1).blk t).view.emb (ix2 e d) = ix2 e d := by
      funext a; apply Fin.ext
      match a with
      | ⟨0, _⟩ => show win0_1.index t (0 : Fin 2) * 256 + 1 * e.val = e.val; omega
      | ⟨1, _⟩ => show win0_1.index t (1 : Fin 2) * 256 + 1 * d.val = d.val; omega
    exact mul_eq_mul_of_eq (congrArg (V c main_arg0) h0) (congrArg (V c main_arg1) h1)
  · show win0_3.index t (0 : Fin 3) * 1 + 1 * z.val = t.val; omega
  · show win0_3.index t (1 : Fin 3) * 2048 + 1 * r.val = r.val; omega
  · show win0_3.index t (2 : Fin 3) * 256 + 1 * e.val = e.val; omega

/-- What point `t` writes back to window 4's array is block `t` of the activations projected by `Wk`. -/
theorem flushedK_eq (c : Dev nD) (t : Fin cfg0.N) :
    (dat0 V c).flushed 4 t = ((cfg0.win 4).blk t).view.read (Elt Ideal) (projArr (V c main_arg0) (V c main_arg2)) := by
  show (cfg0.win 4).cut (grid0.coords t) ((dat0 V c).after 4 t) = _
  rw [after0_4]
  unfold outK
  rw [View.canon_unit_zero hz3]
  simp only [View.ld_unit_zero (S := S1x2048x256) hz3, View.ld_unit_zero (S := S256x256) hz2]
  funext j
  obtain ⟨z, r, e, rfl⟩ : ∃ (z : Fin 1) (r : Fin 2048) (e : Fin 256), j = ix3 z r e := ⟨j 0, j 1, j 2, eq_ix3 j⟩
  obtain ⟨a00, a01, a02, a10, a11, a20, a21, a30, a31, a32, a40, a41, a42, a50, a51, a52, ht⟩ := idx_facts0 t
  have hz : z.val = 0 := by have := z.isLt; omega
  show k0_pay3 (iblk0 V c 0 t) (iblk0 V c 2 t) (ix3 z r e) = projArr (V c main_arg0) (V c main_arg2) (((cfg0.win 4).blk t).view.emb (ix3 z r e))
  refine (k0_pay3_apply _ _ z r e).trans (Eq.trans ?_ (projArr_apply _ _ (((cfg0.win 4).blk t).view.emb (ix3 z r e)) ⟨t.val, ht⟩ r e ?_ ?_ ?_).symm)
  · refine Finset.sum_congr rfl fun d _ => ?_
    have h0 : ((cfg0.win 0).blk t).view.emb (ix3 (0 : Fin 1) r d) = ix3 (⟨t.val, ht⟩ : Fin 8) r d := by
      funext a; apply Fin.ext
      match a with
      | ⟨0, _⟩ => show win0_0.index t (0 : Fin 3) * 1 + 1 * 0 = t.val; omega
      | ⟨1, _⟩ => show win0_0.index t (1 : Fin 3) * 2048 + 1 * r.val = r.val; omega
      | ⟨2, _⟩ => show win0_0.index t (2 : Fin 3) * 256 + 1 * d.val = d.val; omega
    have h1 : ((cfg0.win 2).blk t).view.emb (ix2 e d) = ix2 e d := by
      funext a; apply Fin.ext
      match a with
      | ⟨0, _⟩ => show win0_2.index t (0 : Fin 2) * 256 + 1 * e.val = e.val; omega
      | ⟨1, _⟩ => show win0_2.index t (1 : Fin 2) * 256 + 1 * d.val = d.val; omega
    exact mul_eq_mul_of_eq (congrArg (V c main_arg0) h0) (congrArg (V c main_arg2) h1)
  · show win0_4.index t (0 : Fin 3) * 1 + 1 * z.val = t.val; omega
  · show win0_4.index t (1 : Fin 3) * 2048 + 1 * r.val = r.val; omega
  · show win0_4.index t (2 : Fin 3) * 256 + 1 * e.val = e.val; omega

/-- An index of window 3's array is in point `t`'s block iff each coordinate is in the block's range on its axis. -/
theorem mem_blk0_3 (t : Fin cfg0.N) (i : S8x2048x256.Idx) :
    i ∈ ((cfg0.win 3).blk t).view.set ↔ ∀ a : Fin 3, win0_3.index t a * S1x2048x256.size a ≤ (i a).val ∧ (i a).val < win0_3.index t a * S1x2048x256.size a + S1x2048x256.size a := by
  show i ∈ ((View.whole main_v0_0).slice (win0_3.rect t)).set ↔ _
  rw [View.set_slice_whole, Rect.mem_set_unit]
  exact Iff.rfl

/-- Every index of window 3's array is in the block of the point of its batch row, which writes back. -/
theorem cover0_3 (i : S8x2048x256.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 256 := (i 2).isLt
  obtain ⟨t, ht⟩ : ∃ t : Fin cfg0.N, t.val = (i 0).val := ⟨⟨(i 0).val, by show (i 0).val < grid0.N; rw [N_0]; exact hi0⟩, rfl⟩
  refine ⟨t, flush0_3 t, ?_⟩
  rw [mem_blk0_3]
  obtain ⟨a00, a01, a02, a10, a11, a20, a21, a30, a31, a32, a40, a41, a42, a50, a51, a52, -⟩ := idx_facts0 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 256 ≤ (i 2).val ∧ (i 2).val < win0_3.index t (2 : Fin 3) * 256 + 256; omega

/-- An index of window 4's array is in point `t`'s block iff each coordinate is in the block's range on its axis. -/
theorem mem_blk0_4 (t : Fin cfg0.N) (i : S8x2048x256.Idx) :
    i ∈ ((cfg0.win 4).blk t).view.set ↔ ∀ a : Fin 3, win0_4.index t a * S1x2048x256.size a ≤ (i a).val ∧ (i a).val < win0_4.index t a * S1x2048x256.size a + S1x2048x256.size a := by
  show i ∈ ((View.whole main_v0_1).slice (win0_4.rect t)).set ↔ _
  rw [View.set_slice_whole, Rect.mem_set_unit]
  exact Iff.rfl

/-- Every index of window 4's array is in the block of the point of its batch row, which writes back. -/
theorem cover0_4 (i : S8x2048x256.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 256 := (i 2).isLt
  obtain ⟨t, ht⟩ : ∃ t : Fin cfg0.N, t.val = (i 0).val := ⟨⟨(i 0).val, by show (i 0).val < grid0.N; rw [N_0]; exact hi0⟩, rfl⟩
  refine ⟨t, flush0_4 t, ?_⟩
  rw [mem_blk0_4]
  obtain ⟨a00, a01, a02, a10, a11, a20, a21, a30, a31, a32, a40, a41, a42, a50, a51, a52, -⟩ := idx_facts0 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 256 ≤ (i 2).val ∧ (i 2).val < win0_4.index t (2 : Fin 3) * 256 + 256; omega

/-- An index of window 5's array is in point `t`'s block iff each coordinate is in the block's range on its axis. -/
theorem mem_blk0_5 (t : Fin cfg0.N) (i : S8x2048x256.Idx) :
    i ∈ ((cfg0.win 5).blk t).view.set ↔ ∀ a : Fin 3, win0_5.index t a * S1x2048x256.size a ≤ (i a).val ∧ (i a).val < win0_5.index t a * S1x2048x256.size a + S1x2048x256.size a := by
  show i ∈ ((View.whole main_v0_2).slice (win0_5.rect t)).set ↔ _
  rw [View.set_slice_whole, Rect.mem_set_unit]
  exact Iff.rfl

/-- Every index of window 5's array is in the block of the point of its batch row, which writes back. -/
theorem cover0_5 (i : S8x2048x256.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 256 := (i 2).isLt
  obtain ⟨t, ht⟩ : ∃ t : Fin cfg0.N, t.val = (i 0).val := ⟨⟨(i 0).val, by show (i 0).val < grid0.N; rw [N_0]; exact hi0⟩, rfl⟩
  refine ⟨t, flush0_5 t, ?_⟩
  rw [mem_blk0_5]
  obtain ⟨a00, a01, a02, a10, a11, a20, a21, a30, a31, a32, a40, a41, a42, a50, a51, a52, -⟩ := idx_facts0 t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 256 ≤ (i 2).val ∧ (i 2).val < win0_5.index t (2 : Fin 3) * 256 + 256; omega

/-- What point `t` writes back to window 5's array is block `t` of the activations' array. -/
theorem flushedV_eq (c : Dev nD) (t : Fin cfg0.N) :
    (dat0 V c).flushed 5 t = ((cfg0.win 5).blk t).view.read (Elt Ideal) (fun i : S8x2048x256.Idx => (V c main_arg0 i : EReal)) := by
  show (cfg0.win 5).cut (grid0.coords t) ((dat0 V c).after 5 t) = _
  rw [after0_5]
  unfold outV
  rw [View.canon_unit_zero hz3]
  simp only [View.ld_unit_zero (S := S1x2048x256) hz3]
  funext j
  obtain ⟨z, r, e, rfl⟩ : ∃ (z : Fin 1) (r : Fin 2048) (e : Fin 256), j = ix3 z r e := ⟨j 0, j 1, j 2, eq_ix3 j⟩
  obtain ⟨a00, a01, a02, a10, a11, a20, a21, a30, a31, a32, a40, a41, a42, a50, a51, a52, ht⟩ := idx_facts0 t
  have hz : z.val = 0 := by have := z.isLt; omega
  show k0_pay4 (iblk0 V c 0 t) (ix3 z r e) = V c main_arg0 (((cfg0.win 5).blk t).view.emb (ix3 z r e))
  refine (k0_pay4_apply _ z r e).trans ?_
  show V c main_arg0 (((cfg0.win 0).blk t).view.emb (ix3 (0 : Fin 1) r e)) = V c main_arg0 (((cfg0.win 5).blk t).view.emb (ix3 z r e))
  refine congrArg (V c main_arg0) ?_
  funext a; apply Fin.ext
  match a with
  | ⟨0, _⟩ => show win0_0.index t (0 : Fin 3) * 1 + 1 * 0 = win0_5.index t (0 : Fin 3) * 1 + 1 * z.val; omega
  | ⟨1, _⟩ => show win0_0.index t (1 : Fin 3) * 2048 + 1 * r.val = win0_5.index t (1 : Fin 3) * 2048 + 1 * r.val; omega
  | ⟨2, _⟩ => show win0_0.index t (2 : Fin 3) * 256 + 1 * e.val = win0_5.index t (2 : Fin 3) * 256 + 1 * e.val; omega

/-! ## The three output arrays after the region -/

/-- Window 3's array (Q) after the region: the activations projected by `Wq`. -/
theorem finalQ (c : Dev nD) : (dat0 V c).arrAt 3 cfg0.N = projArr (V c main_arg0) (V c main_arg1) :=
  (dat0 V c).arrAt_eq_of_cover 3 _ (fun t _ => flushedQ_eq V c t) cover0_3

/-- Window 4's array (K) after the region: the activations projected by `Wk`. -/
theorem finalK (c : Dev nD) : (dat0 V c).arrAt 4 cfg0.N = projArr (V c main_arg0) (V c main_arg2) :=
  (dat0 V c).arrAt_eq_of_cover 4 _ (fun t _ => flushedK_eq V c t) cover0_4

/-- Window 5's array (V) after the region: the activations. -/
theorem finalV (c : Dev nD) : (dat0 V c).arrAt 5 cfg0.N = fun i : S8x2048x256.Idx => (V c main_arg0 i : EReal) :=
  (dat0 V c).arrAt_eq_of_cover 5 _ (fun t _ => flushedV_eq V c t) cover0_5

end Cert.KernelIdeal.Hand

end
-- ==== Proof.KIBlocks1.lean ====
/-
  The attention region's blocks, placed in their arrays.

  The region's grid is (batch, query tile, key tile) = (8, 2, 4) with the key tile innermost, so point `t` has batch
  `t / 8`, query tile `t / 4 mod 2` and key tile `t mod 4`. The query block at `t` is rows `1024·(query tile) …` of batch
  `t / 8` of the query array, the key and value blocks are rows `512·(key tile) …` of the key and value arrays, and the
  output block is rows `1024·(query tile) …` of the output array. The output block is written back at the last key tile
  only; those write-backs tile the output array, so the array after the run is, index by index, whatever those blocks hold.
-/
import proofs.«160592_j63909113364812_2_alg».proof.Proof.KIR1Base
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A grid point's batch, query tile and key tile -/

/-- The batch of point `t`. -/
def gb (t : Fin cfg1.N) : Fin 8 := ⟨t.val / 8, by have h : t.val < 64 := lt_of_lt_of_eq t.isLt N_1; omega⟩
/-- The query tile of point `t`. -/
def gq (t : Fin cfg1.N) : Fin 2 := ⟨t.val / 4 % 2, by omega⟩
/-- The key tile of point `t`. -/
def gk (t : Fin cfg1.N) : Fin 4 := ⟨t.val % 4, by omega⟩

theorem gb_val (t : Fin cfg1.N) : (gb t).val = t.val / 8 := rfl
theorem gq_val (t : Fin cfg1.N) : (gq t).val = t.val / 4 % 2 := rfl
theorem gk_val (t : Fin cfg1.N) : (gk t).val = t.val % 4 := rfl

/-- The printed index maps, decided over the grid: the query and output windows sit at block (batch, query tile, 0), the
    key and value windows at block (batch, key tile, 0). -/
theorem idx_facts1 : ∀ t : Fin cfg1.N,
    (win1_0.index t (0 : Fin 3) = t.val / 8 ∧ win1_0.index t (1 : Fin 3) = t.val / 4 % 2 ∧ win1_0.index t (2 : Fin 3) = 0)
    ∧ (win1_1.index t (0 : Fin 3) = t.val / 8 ∧ win1_1.index t (1 : Fin 3) = t.val % 4 ∧ win1_1.index t (2 : Fin 3) = 0)
    ∧ (win1_2.index t (0 : Fin 3) = t.val / 8 ∧ win1_2.index t (1 : Fin 3) = t.val % 4 ∧ win1_2.index t (2 : Fin 3) = 0)
    ∧ (win1_3.index t (0 : Fin 3) = t.val / 8 ∧ win1_3.index t (1 : Fin 3) = t.val / 4 % 2 ∧ win1_3.index t (2 : Fin 3) = 0) :=
  (by decide +kernel : ∀ t : Fin grid1.N, _)

/-! ## The input blocks read at an index -/

section Blocks

variable (V : (c : Dev nD) → (b : Ref sig .tc) → Buf (Elt F) ((c : Thread nD τ).loc b))

/-- The query block at `t`, at row `r`: row `1024·(query tile) + r` of the point's batch of the query array. -/
theorem iblk1_q (c : Dev nD) (t : Fin cfg1.N) (r : Fin 1024) (e : Fin 256) :
    (iblk1 V c 0 t : S1x1024x256.Idx → Elt F .bf16) (ix3 0 r e)
      = (V c main_v0_0 : S8x2048x256.Idx → Elt F .bf16)
          (ix3 (gb t) (⟨1024 * (gq t).val + r.val, by have := (gq t).isLt; have := r.isLt; omega⟩ : Fin 2048) e) := by
  obtain ⟨⟨e0, e1, e2⟩, -, -, -⟩ := idx_facts1 t
  show (V c main_v0_0 : S8x2048x256.Idx → Elt F .bf16) (((cfg1.win 0).blk t).view.emb (ix3 0 r e)) = _
  refine congrArg (V c main_v0_0 : S8x2048x256.Idx → Elt F .bf16) (funext fun a => Fin.ext ?_)
  match a with
  | ⟨0, _⟩ => show win1_0.index t (0 : Fin 3) * 1 + 1 * 0 = t.val / 8; omega
  | ⟨1, _⟩ => show win1_0.index t (1 : Fin 3) * 1024 + 1 * r.val = 1024 * (t.val / 4 % 2) + r.val; omega
  | ⟨2, _⟩ => show win1_0.index t (2 : Fin 3) * 256 + 1 * e.val = e.val; omega

/-- The key block at `t`, at row `j`: row `512·(key tile) + j` of the point's batch of the key array. -/
theorem iblk1_k (c : Dev nD) (t : Fin cfg1.N) (j : Fin 512) (e : Fin 256) :
    (iblk1 V c 1 t : S1x512x256.Idx → Elt F .bf16) (ix3 0 j e)
      = (V c main_v0_1 : S8x2048x256.Idx → Elt F .bf16)
          (ix3 (gb t) (⟨512 * (gk t).val + j.val, by have := (gk t).isLt; have := j.isLt; omega⟩ : Fin 2048) e) := by
  obtain ⟨-, ⟨e0, e1, e2⟩, -, -⟩ := idx_facts1 t
  show (V c main_v0_1 : S8x2048x256.Idx → Elt F .bf16) (((cfg1.win 1).blk t).view.emb (ix3 0 j e)) = _
  refine congrArg (V c main_v0_1 : S8x2048x256.Idx → Elt F .bf16) (funext fun a => Fin.ext ?_)
  match a with
  | ⟨0, _⟩ => show win1_1.index t (0 : Fin 3) * 1 + 1 * 0 = t.val / 8; omega
  | ⟨1, _⟩ => show win1_1.index t (1 : Fin 3) * 512 + 1 * j.val = 512 * (t.val % 4) + j.val; omega
  | ⟨2, _⟩ => show win1_1.index t (2 : Fin 3) * 256 + 1 * e.val = e.val; omega

/-- The value block at `t`, at row `j`: row `512·(key tile) + j` of the point's batch of the value array. -/
theorem iblk1_v (c : Dev nD) (t : Fin cfg1.N) (j : Fin 512) (d : Fin 256) :
    (iblk1 V c 2 t : S1x512x256.Idx → Elt F .bf16) (ix3 0 j d)
      = (V c main_v0_2 : S8x2048x256.Idx → Elt F .bf16)
          (ix3 (gb t) (⟨512 * (gk t).val + j.val, by have := (gk t).isLt; have := j.isLt; omega⟩ : Fin 2048) d) := by
  obtain ⟨-, -, ⟨e0, e1, e2⟩, -⟩ := idx_facts1 t
  show (V c main_v0_2 : S8x2048x256.Idx → Elt F .bf16) (((cfg1.win 2).blk t).view.emb (ix3 0 j d)) = _
  refine congrArg (V c main_v0_2 : S8x2048x256.Idx → Elt F .bf16) (funext fun a => Fin.ext ?_)
  match a with
  | ⟨0, _⟩ => show win1_2.index t (0 : Fin 3) * 1 + 1 * 0 = t.val / 8; omega
  | ⟨1, _⟩ => show win1_2.index t (1 : Fin 3) * 512 + 1 * j.val = 512 * (t.val % 4) + j.val; omega
  | ⟨2, _⟩ => show win1_2.index t (2 : Fin 3) * 256 + 1 * d.val = d.val; omega

end Blocks

/-! ## The output array from the write-backs -/

/-- An index of the output array is in point `t`'s block iff each coordinate is in the block's range on its axis. -/
theorem mem_blk1_3 (t : Fin cfg1.N) (i : S8x2048x256.Idx) :
    i ∈ ((cfg1.win 3).blk t).view.set
      ↔ ∀ a : Fin 3, win1_3.index t a * S1x1024x256.size a ≤ (i a).val ∧ (i a).val < win1_3.index t a * S1x1024x256.size a + S1x1024x256.size a := by
  show i ∈ ((View.whole main_v1).slice (win1_3.rect t)).set ↔ _
  rw [View.set_slice_whole, Rect.mem_set_unit]
  exact Iff.rfl

/-- THE OUTPUT ARRAY after the run, for any proof data of the region: if at every last key tile the output block
    holds, row by row, the rows `1024·(query tile) …` of batch `t / 8` of one function `Gout` of (batch, row, column), the
    array ends holding `Gout`. -/
theorem final_of_flushed {c : Dev nD} (dat : Dat τ (Elt F) Unit ℕ (UR sig nD τ) ℕ cfg1 c)
    (Gout : Fin 8 → Fin 2048 → Fin 256 → Elt F .f32)
    (hflush : ∀ t : Fin cfg1.N, t.val % 4 = 3 → ∀ (r : Fin 1024) (d : Fin 256),
      (dat.after 3 t : S1x1024x256.Idx → Elt F .f32) (ix3 0 r d)
        = Gout (gb t) (⟨1024 * (gq t).val + r.val, by have := (gq t).isLt; have := r.isLt; omega⟩ : Fin 2048) d) :
    dat.arrAt 3 cfg1.N = (fun i : S8x2048x256.Idx => Gout (i 0) (i 1) (i 2)) := by
  refine dat.arrAt_eq_of_cover 3 (fun i : S8x2048x256.Idx => Gout (i 0) (i 1) (i 2)) (fun t hf => ?_) (fun i => ?_)
  · have h3 : t.val % 4 = 3 := (flush1_3 t).mp hf
    obtain ⟨-, -, -, ⟨e0, e1, e2⟩⟩ := idx_facts1 t
    funext y
    obtain ⟨z, r, d, rfl⟩ : ∃ (z : Fin 1) (r : Fin 1024) (d : Fin 256), (y : S1x1024x256.Idx) = ix3 z r d := ⟨y 0, y 1, y 2, eq_ix3 (y : S1x1024x256.Idx)⟩
    obtain rfl : z = 0 := Subsingleton.elim _ _
    show (dat.after 3 t : S1x1024x256.Idx → Elt F .f32) (ix3 0 r d)
      = Gout ((((cfg1.win 3).blk t).view.emb (ix3 0 r d) : S8x2048x256.Idx) 0) ((((cfg1.win 3).blk t).view.emb (ix3 0 r d) : S8x2048x256.Idx) 1) ((((cfg1.win 3).blk t).view.emb (ix3 0 r d) : S8x2048x256.Idx) 2)
    rw [hflush t h3 r d]
    congr 1
    · exact Fin.ext (by show t.val / 8 = win1_3.index t (0 : Fin 3) * 1 + 1 * 0; omega)
    · exact Fin.ext (by show 1024 * (t.val / 4 % 2) + r.val = win1_3.index t (1 : Fin 3) * 1024 + 1 * r.val; omega)
    · exact Fin.ext (by show d.val = win1_3.index t (2 : Fin 3) * 256 + 1 * d.val; omega)
  · have h0 : (i 0).val < 8 := (i 0).isLt
    have h1 : (i 1).val < 2048 := (i 1).isLt
    have h2 : (i 2).val < 256 := (i 2).isLt
    let t : Fin cfg1.N := ⟨8 * (i 0).val + 4 * ((i 1).val / 1024) + 3, by rw [show cfg1.N = 64 from N_1]; omega⟩
    have ht : t.val = 8 * (i 0).val + 4 * ((i 1).val / 1024) + 3 := rfl
    obtain ⟨-, -, -, ⟨e0, e1, e2⟩⟩ := idx_facts1 t
    refine ⟨t, (flush1_3 t).mpr (by omega), ?_⟩
    rw [mem_blk1_3]
    intro a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 1024 ≤ (i 1).val ∧ (i 1).val < win1_3.index t (1 : Fin 3) * 1024 + 1024; omega
    | ⟨2, _⟩ => show win1_3.index t (2 : Fin 3) * 256 ≤ (i 2).val ∧ (i 2).val < win1_3.index t (2 : Fin 3) * 256 + 256; omega

end Cert.KernelIdeal.Hand

end
-- ==== Proof.LibOnlineSoftmax.lean ====
/-
  The running (maximum, normaliser, weighted sum) of a softmax-weighted average, taken block by block, against the
  softmax-weighted average taken at once — on the extended reals, for real scores and real values.

  A block of scores `s` with values `v` updates a state `(m, l, a)` to
    m' = max m (max_j s_j),   l' = exp(m − m')·l + Σ_j exp(s_j − m'),   a' = exp(m − m')·a + Σ_j exp(s_j − m')·v_j.
  Started from `(−∞, 0, 0)` (where `exp(−∞ − m') = 0` wipes the empty state) and run over the four blocks of 512 of
  2048 real scores, the quotient `a / l` is `Σ_j (exp(S_j − M) / Σ_j' exp(S_j' − M)) · V_j` with `M = max_j S_j`:
  after each block the state is `(M_k, Σ exp(S_j − M_k), Σ exp(S_j − M_k)·V_j)` over the scores seen so far
  (`exp(M_k − M_{k+1})·exp(S_j − M_k) = exp(S_j − M_{k+1})` on the reals), and the normaliser is a positive real, so
  dividing the sum by it is dividing each term.
-/
import Idealize.ShloMosaic.PureOps.Ideal
import Mathlib

noncomputable section

namespace Cert.OnlineSoftmax

open Idealize.ShloMosaic

/-- One block's update of the running (maximum, normaliser, weighted sum). -/
def step {n : ℕ} (s v : Fin n → EReal) (st : EReal × EReal × EReal) : EReal × EReal × EReal :=
  (max st.1 (Finset.univ.fold max ⊥ s),
   Ideal.exp (st.1 - max st.1 (Finset.univ.fold max ⊥ s)) * st.2.1 + ∑ j, Ideal.exp (s j - max st.1 (Finset.univ.fold max ⊥ s)),
   Ideal.exp (st.1 - max st.1 (Finset.univ.fold max ⊥ s)) * st.2.2 + ∑ j, Ideal.exp (s j - max st.1 (Finset.univ.fold max ⊥ s)) * v j)

/-- Block `k` (of four, 512 wide) of a real function on `Fin 2048`, as extended reals. -/
def blk (k : Fin 4) (f : Fin 2048 → ℝ) : Fin 512 → EReal :=
  fun j => ((f ⟨512 * k.val + j.val, by omega⟩ : ℝ) : EReal)

/-- The coercion of a finite sum of reals is the sum of the coercions. -/
theorem coe_sum {ι : Type*} (T : Finset ι) (f : ι → ℝ) :
    (∑ j ∈ T, ((f j : ℝ) : EReal)) = ((∑ j ∈ T, f j : ℝ) : EReal) := by
  classical
  induction T using Finset.induction_on with
  | empty => simp
  | insert a s ha ih => rw [Finset.sum_insert ha, Finset.sum_insert ha, ih, EReal.coe_add]

/-- The running maximum from `−∞` is the supremum. -/
theorem fold_max_eq_sup {ι : Type*} (T : Finset ι) (f : ι → EReal) : T.fold max ⊥ f = T.sup f := rfl

/-- A finite supremum of reals is not `+∞`. -/
theorem sup_coe_lt_top {ι : Type*} (T : Finset ι) (S : ι → ℝ) : T.sup (fun j => (S j : EReal)) < ⊤ := by
  rw [Finset.sup_lt_iff bot_lt_top]
  intro j _; exact EReal.coe_lt_top _

/-- The update of a real state by a real block whose new maximum is the real `M'`. -/
theorem step_real {n : ℕ} (s v : Fin n → ℝ) (M L A M' : ℝ)
    (h : (M' : EReal) = max (M : EReal) (Finset.univ.fold max ⊥ (fun j => (s j : EReal)))) :
    step (fun j => (s j : EReal)) (fun j => (v j : EReal)) ((M : EReal), (L : EReal), (A : EReal)) =
      ((M' : EReal), ((Real.exp (M - M') * L + ∑ j, Real.exp (s j - M') : ℝ) : EReal),
        ((Real.exp (M - M') * A + ∑ j, Real.exp (s j - M') * v j : ℝ) : EReal)) := by
  simp only [step, ← h, ← EReal.coe_sub, Ideal.exp_coe, ← EReal.coe_mul, coe_sum, ← EReal.coe_add]

/-- The update of the empty state `(−∞, 0, 0)` by a real block whose maximum is the real `M'`. -/
theorem step_bot {n : ℕ} (s v : Fin n → ℝ) (M' : ℝ)
    (h : (M' : EReal) = Finset.univ.fold max ⊥ (fun j => (s j : EReal))) :
    step (fun j => (s j : EReal)) (fun j => (v j : EReal)) (⊥, 0, 0) =
      ((M' : EReal), ((∑ j, Real.exp (s j - M') : ℝ) : EReal),
        ((∑ j, Real.exp (s j - M') * v j : ℝ) : EReal)) := by
  simp only [step, bot_sup_eq, max_bot_left, ← h, EReal.bot_sub, Ideal.exp_bot, zero_mul, zero_add,
    ← EReal.coe_sub, Ideal.exp_coe, ← EReal.coe_mul, coe_sum]

/-- The position in `Fin 2048` of entry `j` of block `k`. -/
def idx (k : Fin 4) : Fin 512 ↪ Fin 2048 where
  toFun j := ⟨512 * k.val + j.val, by omega⟩
  inj' := by
    intro a b h
    have h' : 512 * k.val + a.val = 512 * k.val + b.val := congrArg Fin.val h
    exact Fin.ext (by omega)

/-- The positions of block `k`. -/
def B (k : Fin 4) : Finset (Fin 2048) := Finset.univ.map (idx k)

theorem blk_eq (k : Fin 4) (f : Fin 2048 → ℝ) : blk k f = fun j => ((f (idx k j) : ℝ) : EReal) := rfl

/-- `st` is the (maximum, normaliser, weighted sum) of the scores at the positions `T`, all real. -/
def IsSumm (S V : Fin 2048 → ℝ) (T : Finset (Fin 2048)) (st : EReal × EReal × EReal) : Prop :=
  ∃ M : ℝ, T.sup (fun j => (S j : EReal)) = (M : EReal) ∧
    st = ((M : EReal), ((∑ j ∈ T, Real.exp (S j - M) : ℝ) : EReal),
          ((∑ j ∈ T, Real.exp (S j - M) * V j : ℝ) : EReal))

/-- The running maximum of block `k` is the supremum over its positions. -/
theorem fold_blk (S : Fin 2048 → ℝ) (k : Fin 4) :
    Finset.univ.fold max ⊥ (fun j => ((S (idx k j) : ℝ) : EReal)) = (B k).sup (fun j => (S j : EReal)) := by
  rw [B, Finset.sup_map]; rfl

/-- The first block, from the empty state. -/
theorem summ_init (S V : Fin 2048 → ℝ) (k : Fin 4) :
    IsSumm S V (B k) (step (blk k S) (blk k V) (⊥, 0, 0)) := by
  have hbot : (B k).sup (fun j => (S j : EReal)) ≠ ⊥ := by
    have hmem : idx k 0 ∈ B k := Finset.mem_map_of_mem _ (Finset.mem_univ _)
    exact ne_of_gt (lt_of_lt_of_le (EReal.bot_lt_coe _) (Finset.le_sup (f := fun j => (S j : EReal)) hmem))
  have htop : (B k).sup (fun j => (S j : EReal)) ≠ ⊤ := (sup_coe_lt_top _ _).ne
  obtain ⟨M', hM'⟩ : ∃ M' : ℝ, (M' : EReal) = (B k).sup (fun j => (S j : EReal)) :=
    ⟨_, EReal.coe_toReal htop hbot⟩
  refine ⟨M', hM'.symm, ?_⟩
  rw [blk_eq, blk_eq, step_bot _ _ M' (by rw [fold_blk, hM']), B, Finset.sum_map, Finset.sum_map]

/-- A further block, on a real state. -/
theorem summ_step (S V : Fin 2048 → ℝ) (k : Fin 4) (T : Finset (Fin 2048)) (hd : Disjoint T (B k))
    (st : EReal × EReal × EReal) (h : IsSumm S V T st) :
    IsSumm S V (T ∪ B k) (step (blk k S) (blk k V) st) := by
  obtain ⟨M, hM, rfl⟩ := h
  have hsup : (T ∪ B k).sup (fun j => (S j : EReal))
      = max (M : EReal) (Finset.univ.fold max ⊥ (fun j => ((S (idx k j) : ℝ) : EReal))) := by
    rw [Finset.sup_union, hM, fold_blk]
  have hbot : (T ∪ B k).sup (fun j => (S j : EReal)) ≠ ⊥ := by
    rw [hsup]; exact ne_of_gt (lt_of_lt_of_le (EReal.bot_lt_coe M) (le_max_left _ _))
  have htop : (T ∪ B k).sup (fun j => (S j : EReal)) ≠ ⊤ := (sup_coe_lt_top _ _).ne
  obtain ⟨M', hM'⟩ : ∃ M' : ℝ, (M' : EReal) = (T ∪ B k).sup (fun j => (S j : EReal)) :=
    ⟨_, EReal.coe_toReal htop hbot⟩
  refine ⟨M', hM'.symm, ?_⟩
  rw [blk_eq, blk_eq, step_real _ _ M _ _ M' (by rw [hM', hsup])]
  have e1 : ∀ j, Real.exp (M - M') * Real.exp (S j - M) = Real.exp (S j - M') := by
    intro j; rw [← Real.exp_add]; congr 1; ring
  have hL : Real.exp (M - M') * ∑ j ∈ T, Real.exp (S j - M) + ∑ j, Real.exp (S (idx k j) - M')
      = ∑ j ∈ T ∪ B k, Real.exp (S j - M') := by
    rw [Finset.sum_union hd, B, Finset.sum_map, Finset.mul_sum]
    simp only [e1]
  have hA : Real.exp (M - M') * ∑ j ∈ T, Real.exp (S j - M) * V j
        + ∑ j, Real.exp (S (idx k j) - M') * V (idx k j)
      = ∑ j ∈ T ∪ B k, Real.exp (S j - M') * V j := by
    rw [Finset.sum_union hd, B, Finset.sum_map, Finset.mul_sum]
    simp only [← mul_assoc, e1]
  rw [hL, hA]

/-- A position in the range of block `k` is one of its positions. -/
theorem mem_B (k : Fin 4) (i : Fin 2048) (h1 : 512 * k.val ≤ i.val) (h2 : i.val < 512 * k.val + 512) :
    i ∈ B k := by
  have h : i = idx k ⟨i.val - 512 * k.val, by omega⟩ := by
    apply Fin.ext
    show i.val = 512 * k.val + (i.val - 512 * k.val)
    omega
  rw [h]; exact Finset.mem_map_of_mem _ (Finset.mem_univ _)

/-- Different blocks have no position in common. -/
theorem B_disjoint {k k' : Fin 4} (h : k ≠ k') : Disjoint (B k) (B k') := by
  rw [Finset.disjoint_left]
  intro i hi hi'
  rw [B, Finset.mem_map] at hi hi'
  obtain ⟨a, _, rfl⟩ := hi
  obtain ⟨b, _, hb⟩ := hi'
  have h' : 512 * k'.val + b.val = 512 * k.val + a.val := congrArg Fin.val hb
  exact h (Fin.ext (by omega))

/-- The four blocks are all the positions. -/
theorem B_cover : B 0 ∪ B 1 ∪ B 2 ∪ B 3 = Finset.univ := by
  apply Finset.eq_univ_of_forall
  intro i
  have v0 : (0 : Fin 4).val = 0 := rfl
  have v1 : (1 : Fin 4).val = 1 := rfl
  have v2 : (2 : Fin 4).val = 2 := rfl
  have v3 : (3 : Fin 4).val = 3 := rfl
  have hi := i.isLt
  simp only [Finset.mem_union]
  by_cases c1 : i.val < 512
  · exact Or.inl (Or.inl (Or.inl (mem_B 0 i (by rw [v0]; omega) (by rw [v0]; omega))))
  · by_cases c2 : i.val < 1024
    · exact Or.inl (Or.inl (Or.inr (mem_B 1 i (by rw [v1]; omega) (by rw [v1]; omega))))
    · by_cases c3 : i.val < 1536
      · exact Or.inl (Or.inr (mem_B 2 i (by rw [v2]; omega) (by rw [v2]; omega)))
      · exact Or.inr (mem_B 3 i (by rw [v3]; omega) (by rw [v3]; omega))

/-- Four blocks of the running state, then the quotient, are the softmax-weighted average. -/
theorem four_blocks (S V : Fin 2048 → ℝ) :
    Ideal.div
        (step (blk 3 S) (blk 3 V) (step (blk 2 S) (blk 2 V) (step (blk 1 S) (blk 1 V) (step (blk 0 S) (blk 0 V) (⊥, 0, 0))))).2.2
        (step (blk 3 S) (blk 3 V) (step (blk 2 S) (blk 2 V) (step (blk 1 S) (blk 1 V) (step (blk 0 S) (blk 0 V) (⊥, 0, 0))))).2.1
      = ∑ j : Fin 2048,
          Ideal.div (Ideal.exp ((S j : EReal) - Finset.univ.fold max ⊥ (fun j' : Fin 2048 => (S j' : EReal))))
              (∑ j' : Fin 2048, Ideal.exp ((S j' : EReal) - Finset.univ.fold max ⊥ (fun j'' : Fin 2048 => (S j'' : EReal))))
            * (V j : EReal) := by
  have h0 := summ_init S V 0
  have h1 := summ_step S V 1 _ (B_disjoint (by decide)) _ h0
  have h2 := summ_step S V 2 _
    (Finset.disjoint_union_left.mpr ⟨B_disjoint (by decide), B_disjoint (by decide)⟩) _ h1
  have h3 := summ_step S V 3 _
    (Finset.disjoint_union_left.mpr
      ⟨Finset.disjoint_union_left.mpr ⟨B_disjoint (by decide), B_disjoint (by decide)⟩, B_disjoint (by decide)⟩) _ h2
  rw [B_cover] at h3
  obtain ⟨M, hM, hst⟩ := h3
  rw [hst, fold_max_eq_sup, hM]
  have hL : (∑ j : Fin 2048, Real.exp (S j - M)) ≠ 0 :=
    (Finset.sum_pos (fun j _ => Real.exp_pos _) Finset.univ_nonempty).ne'
  simp only [← EReal.coe_sub, Ideal.exp_coe, coe_sum, Ideal.div_coe hL, ← EReal.coe_mul]
  rw [Finset.sum_mul]
  refine congrArg Real.toEReal (Finset.sum_congr rfl ?_)
  intro j _
  ring

end Cert.OnlineSoftmax

end
-- ==== Proof.KIAttn1.lean ====
/-
  The attention region's arithmetic, row by row: four block updates of the running (maximum, normaliser, weighted sum)
  and the final quotient are the softmax-weighted average over all 2048 keys.

  For a query row `i` of batch `b` the scaled score against key row `j` is `(Σ_e Q_{b,i,e}·K_{b,j,e})·c` with `c` the f32
  word `0x3D800000`. The point with key tile `k` sees the scores and values of the key rows `512·k …`; started from
  `(−∞, 0, 0)` at key tile 0, the state after key tile 3 has, as quotient of its weighted sum by its normaliser, the
  softmax-weighted average of the rows of `X`. Real entries of `Q`, `K`, `X` make every score and value real, which is
  what the block-by-block law is proved for.
-/
import proofs.«160592_j63909113364812_2_alg».proof.Proof.KIRegion1
import proofs.«160592_j63909113364812_2_alg».proof.Proof.KIBlocks1
import proofs.«160592_j63909113364812_2_alg».proof.Proof.LibOnlineSoftmax

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.OnlineSoftmax (step blk)

/-! ## The specification of the region's result -/

/-- The scaled score of query row `i` against key row `j` of batch `b`. -/
def sc (Q K : S8x2048x256.Idx → EReal) (b : Fin 8) (i j : Fin 2048) : EReal :=
  (∑ e : Fin 256, Q (ix3 b i e) * K (ix3 b j e)) * Ideal.ofBits .f32 0x3D800000#32

/-- The softmax-weighted average of the rows of `X`, the weights those of query row `i`'s scores. -/
def attnQKX (Q K X : S8x2048x256.Idx → EReal) (b : Fin 8) (i : Fin 2048) (d : Fin 256) : EReal :=
  ∑ j : Fin 2048, Ideal.div (Ideal.exp (sc Q K b i j - (Finset.univ : Finset (Fin 2048)).fold max ⊥ (fun j' => sc Q K b i j')))
      (∑ j' : Fin 2048, Ideal.exp (sc Q K b i j' - (Finset.univ : Finset (Fin 2048)).fold max ⊥ (fun j'' => sc Q K b i j''))) * X (ix3 b j d)

/-! ## Real scores -/

/-- The scale word denotes a real number. -/
theorem scale_real : ∃ w : ℝ, Ideal.ofBits .f32 0x3D800000#32 = (w : EReal) := by
  simp [Ideal.ofBits, Ideal.ieee]
  exact ⟨_, (EReal.coe_mul _ _).symm⟩

/-- With real queries and keys every score is real. -/
theorem sc_real (Q K : S8x2048x256.Idx → EReal) (hQ : ∀ i, ∃ r : ℝ, Q i = (r : EReal)) (hK : ∀ i, ∃ r : ℝ, K i = (r : EReal))
    (b : Fin 8) (i j : Fin 2048) : ∃ r : ℝ, sc Q K b i j = (r : EReal) := by
  choose qf hq using hQ
  choose kf hk using hK
  obtain ⟨w, hw⟩ := scale_real
  refine ⟨(∑ e : Fin 256, qf (ix3 b i e) * kf (ix3 b j e)) * w, ?_⟩
  unfold sc
  rw [hw, EReal.coe_mul, ← Cert.OnlineSoftmax.coe_sum]
  simp only [hq, hk, EReal.coe_mul]

/-! ## Four blocks -/

/-- Four block updates whose scores and values are the four blocks of row `i`'s scores and of column `d` of `X`,
    then the quotient: the softmax-weighted average. -/
theorem four_steps (Q K X : S8x2048x256.Idx → EReal) (hQ : ∀ i, ∃ r : ℝ, Q i = (r : EReal)) (hK : ∀ i, ∃ r : ℝ, K i = (r : EReal))
    (hX : ∀ i, ∃ r : ℝ, X i = (r : EReal)) (b : Fin 8) (i : Fin 2048) (d : Fin 256)
    (s0 s1 s2 s3 v0 v1 v2 v3 : Fin 512 → EReal)
    (hs0 : ∀ j : Fin 512, s0 j = sc Q K b i ⟨512 * 0 + j.val, by omega⟩)
    (hs1 : ∀ j : Fin 512, s1 j = sc Q K b i ⟨512 * 1 + j.val, by omega⟩)
    (hs2 : ∀ j : Fin 512, s2 j = sc Q K b i ⟨512 * 2 + j.val, by omega⟩)
    (hs3 : ∀ j : Fin 512, s3 j = sc Q K b i ⟨512 * 3 + j.val, by omega⟩)
    (hv0 : ∀ j : Fin 512, v0 j = X (ix3 b (⟨512 * 0 + j.val, by omega⟩ : Fin 2048) d))
    (hv1 : ∀ j : Fin 512, v1 j = X (ix3 b (⟨512 * 1 + j.val, by omega⟩ : Fin 2048) d))
    (hv2 : ∀ j : Fin 512, v2 j = X (ix3 b (⟨512 * 2 + j.val, by omega⟩ : Fin 2048) d))
    (hv3 : ∀ j : Fin 512, v3 j = X (ix3 b (⟨512 * 3 + j.val, by omega⟩ : Fin 2048) d)) :
    Ideal.div (step s3 v3 (step s2 v2 (step s1 v1 (step s0 v0 (⊥, 0, 0))))).2.2
        (step s3 v3 (step s2 v2 (step s1 v1 (step s0 v0 (⊥, 0, 0))))).2.1
      = attnQKX Q K X b i d := by
  obtain ⟨S, hS⟩ : ∃ S : Fin 2048 → ℝ, ∀ j, (S j : EReal) = sc Q K b i j :=
    ⟨fun j => Classical.choose (sc_real Q K hQ hK b i j), fun j => (Classical.choose_spec (sc_real Q K hQ hK b i j)).symm⟩
  obtain ⟨W, hW⟩ : ∃ W : Fin 2048 → ℝ, ∀ j, (W j : EReal) = X (ix3 b j d) :=
    ⟨fun j => Classical.choose (hX (ix3 b j d)), fun j => (Classical.choose_spec (hX (ix3 b j d))).symm⟩
  have e0 : s0 = blk 0 S := funext fun j => (hs0 j).trans (hS _).symm
  have e1 : s1 = blk 1 S := funext fun j => (hs1 j).trans (hS _).symm
  have e2 : s2 = blk 2 S := funext fun j => (hs2 j).trans (hS _).symm
  have e3 : s3 = blk 3 S := funext fun j => (hs3 j).trans (hS _).symm
  have f0 : v0 = blk 0 W := funext fun j => (hv0 j).trans (hW _).symm
  have f1 : v1 = blk 1 W := funext fun j => (hv1 j).trans (hW _).symm
  have f2 : v2 = blk 2 W := funext fun j => (hv2 j).trans (hW _).symm
  have f3 : v3 = blk 3 W := funext fun j => (hv3 j).trans (hW _).symm
  rw [e0, e1, e2, e3, f0, f1, f2, f3, Cert.OnlineSoftmax.four_blocks S W]
  unfold attnQKX
  simp only [hS, hW]

/-! ## A point's block scores and values, in the arrays -/

/-- The scaled scores of query row `r` of a query block against the rows of a key block. -/
def blockScores (q : S1x1024x256.Idx → EReal) (k : S1x512x256.Idx → EReal) (r : Fin 1024) : Fin 512 → EReal :=
  fun j => (∑ e : Fin 256, q (ix3 (0 : Fin 1) r e) * k (ix3 (0 : Fin 1) j e)) * Ideal.ofBits .f32 0x3D800000#32

/-- Column `d` of a value block. -/
def blockValues (v : S1x512x256.Idx → EReal) (d : Fin 256) : Fin 512 → EReal :=
  fun j => v (ix3 (0 : Fin 1) j d)

section Arrays

variable (V : (c : Dev nD) → (b : Ref sig .tc) → Buf (Elt Ideal) ((c : Thread nD τ).loc b)) (c : Dev nD)

/-- The block scores at point `t` are scores of the arrays: batch `b`, query row `i`, key row `j'`, whenever those are the
    point's batch, the row `1024·(query tile) + r` and the row `512·(key tile) + j`. -/
theorem blockScores_eq (t : Fin cfg1.N) (r : Fin 1024) (j : Fin 512) (b : Fin 8) (i j' : Fin 2048)
    (hb : t.val / 8 = b.val) (hi : 1024 * (t.val / 4 % 2) + r.val = i.val) (hj : 512 * (t.val % 4) + j.val = j'.val) :
    blockScores (iblk1 V c 0 t) (iblk1 V c 1 t) r j = sc (V c main_v0_0) (V c main_v0_1) b i j' := by
  have e1 : gb t = b := Fin.ext hb
  have e2 : (⟨1024 * (gq t).val + r.val, by have := (gq t).isLt; have := r.isLt; omega⟩ : Fin 2048) = i := Fin.ext hi
  have e3 : (⟨512 * (gk t).val + j.val, by have := (gk t).isLt; have := j.isLt; omega⟩ : Fin 2048) = j' := Fin.ext hj
  unfold blockScores sc
  refine congrArg (· * Ideal.ofBits .f32 0x3D800000#32) (Finset.sum_congr rfl fun e _ => ?_)
  refine congrArg₂ (· * ·) ((iblk1_q V c t r e).trans ?_) ((iblk1_k V c t j e).trans ?_)
  · rw [e1, e2]
  · rw [e1, e3]

/-- The block values at point `t` are entries of the value array. -/
theorem blockValues_eq (t : Fin cfg1.N) (d : Fin 256) (j : Fin 512) (b : Fin 8) (j' : Fin 2048)
    (hb : t.val / 8 = b.val) (hj : 512 * (t.val % 4) + j.val = j'.val) :
    blockValues (iblk1 V c 2 t) d j = (V c main_v0_2 : S8x2048x256.Idx → EReal) (ix3 b j' d) := by
  have e1 : gb t = b := Fin.ext hb
  have e3 : (⟨512 * (gk t).val + j.val, by have := (gk t).isLt; have := j.isLt; omega⟩ : Fin 2048) = j' := Fin.ext hj
  unfold blockValues
  refine (iblk1_v V c t j d).trans ?_
  rw [e1, e3]

/-- A per-row state that starts, at every first key tile, as the update of the empty state by the point's blocks, and is
    at every other position the update of the state before: after a last key tile its quotient is the softmax-weighted
    average over all the keys of the point's batch, at the point's query row. -/
theorem quotient_of_states
    (hQ : ∀ i, ∃ x : ℝ, (V c main_v0_0 : S8x2048x256.Idx → EReal) i = (x : EReal))
    (hK : ∀ i, ∃ x : ℝ, (V c main_v0_1 : S8x2048x256.Idx → EReal) i = (x : EReal))
    (hX : ∀ i, ∃ x : ℝ, (V c main_v0_2 : S8x2048x256.Idx → EReal) i = (x : EReal))
    (r : Fin 1024) (d : Fin 256) (st : (n : ℕ) → n < cfg1.N → EReal × EReal × EReal)
    (hfirst : ∀ (n : ℕ) (hn : n < cfg1.N), n % 4 = 0 →
      st n hn = step (blockScores (iblk1 V c 0 ⟨n, hn⟩) (iblk1 V c 1 ⟨n, hn⟩) r) (blockValues (iblk1 V c 2 ⟨n, hn⟩) d) (⊥, 0, 0))
    (hnext : ∀ (n : ℕ) (hn : n + 1 < cfg1.N), ¬(n + 1) % 4 = 0 →
      st (n + 1) hn = step (blockScores (iblk1 V c 0 ⟨n + 1, hn⟩) (iblk1 V c 1 ⟨n + 1, hn⟩) r) (blockValues (iblk1 V c 2 ⟨n + 1, hn⟩) d)
        (st n (Nat.lt_of_succ_lt hn)))
    (m : ℕ) (hm : m + 3 < cfg1.N) (h0 : m % 4 = 0) :
    Ideal.div (st (m + 3) hm).2.2 (st (m + 3) hm).2.1
      = attnQKX (V c main_v0_0) (V c main_v0_1) (V c main_v0_2) (gb ⟨m + 3, hm⟩)
          (⟨1024 * (gq ⟨m + 3, hm⟩).val + r.val, by have := (gq ⟨m + 3, hm⟩).isLt; have := r.isLt; omega⟩ : Fin 2048) d := by
  have hm2 : m + 2 < cfg1.N := Nat.lt_of_succ_lt hm
  have hm1 : m + 1 < cfg1.N := Nat.lt_of_succ_lt hm2
  have hm0 : m < cfg1.N := Nat.lt_of_succ_lt hm1
  rw [hnext (m + 2) hm (by omega), hnext (m + 1) hm2 (by omega), hnext m hm1 (by omega), hfirst m hm0 h0]
  refine four_steps _ _ _ hQ hK hX _ _ d _ _ _ _ _ _ _ _ ?_ ?_ ?_ ?_ ?_ ?_ ?_ ?_
  · intro j; exact blockScores_eq V c ⟨m, hm0⟩ r j _ _ _ (by show m / 8 = (m + 3) / 8; omega) (by show 1024 * (m / 4 % 2) + r.val = 1024 * ((m + 3) / 4 % 2) + r.val; omega) (by show 512 * (m % 4) + j.val = 512 * 0 + j.val; omega)
  · intro j; exact blockScores_eq V c ⟨m + 1, hm1⟩ r j _ _ _ (by show (m + 1) / 8 = (m + 3) / 8; omega) (by show 1024 * ((m + 1) / 4 % 2) + r.val = 1024 * ((m + 3) / 4 % 2) + r.val; omega) (by show 512 * ((m + 1) % 4) + j.val = 512 * 1 + j.val; omega)
  · intro j; exact blockScores_eq V c ⟨m + 2, hm2⟩ r j _ _ _ (by show (m + 2) / 8 = (m + 3) / 8; omega) (by show 1024 * ((m + 2) / 4 % 2) + r.val = 1024 * ((m + 3) / 4 % 2) + r.val; omega) (by show 512 * ((m + 2) % 4) + j.val = 512 * 2 + j.val; omega)
  · intro j; exact blockScores_eq V c ⟨m + 3, hm⟩ r j _ _ _ rfl rfl (by show 512 * ((m + 3) % 4) + j.val = 512 * 3 + j.val; omega)
  · intro j; exact blockValues_eq V c ⟨m, hm0⟩ d j _ _ (by show m / 8 = (m + 3) / 8; omega) (by show 512 * (m % 4) + j.val = 512 * 0 + j.val; omega)
  · intro j; exact blockValues_eq V c ⟨m + 1, hm1⟩ d j _ _ (by show (m + 1) / 8 = (m + 3) / 8; omega) (by show 512 * ((m + 1) % 4) + j.val = 512 * 1 + j.val; omega)
  · intro j; exact blockValues_eq V c ⟨m + 2, hm2⟩ d j _ _ (by show (m + 2) / 8 = (m + 3) / 8; omega) (by show 512 * ((m + 2) % 4) + j.val = 512 * 2 + j.val; omega)
  · intro j; exact blockValues_eq V c ⟨m + 3, hm⟩ d j _ _ rfl (by show 512 * ((m + 3) % 4) + j.val = 512 * 3 + j.val; omega)

end Arrays

end Cert.KernelIdeal.Hand

end
-- ==== Proof.KIPieces1.lean ====
/-
  What each case of the attention body leaves in the scratch operands and in the output block, as the body's arithmetic
  of the staged blocks and of the scratch it was entered with: the new maximum, normaliser and accumulator are the
  update's three terms, and at a last key tile the output block is the quotient of the NEW accumulator by the NEW
  normaliser. At a first key tile the scratch entered with is the reset's: minus infinity, zero, zero.
-/
import proofs.«160592_j63909113364812_2_alg».proof.Proof.KIRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem pz2 : (![0, 0] : Fin 2 → Nat) = fun _ => 0 := by funext a; fin_cases a <;> rfl
theorem pz3 : (![0, 0, 0] : Fin 3 → Nat) = fun _ => 0 := by funext a; fin_cases a <;> rfl

section
variable (c : Dev nD) (t : Fin cfg1.N) (h0 : t.val % 4 = 0) (x0 : Vec F S1x1024x256 .bf16) (x1 x2 : Vec F S1x512x256 .bf16)

theorem outs_A_M : (outs_A c t h0 x0 x1 x2).2.1 = k1_pay2 (k1_pay9 x0 x1 (k1_pay4 (F := F))) := by
  unfold outs_A; dsimp only
  rw [View.read_writes_eq_canon _ _ _ (coverM_A c t h0 x0 x1 x2)]
  unfold runA kernelRun1_A
  dsimp only
  sl_unfold_words
  simp only [View.readAt_eq_ld, Memref.IsWhole.read_unread, View.ld_unit_zero (S := S1x1024x256) pz3, View.ld_unit_zero (S := S1x512x256) pz3,
    View.ld_unit_zero (S := S1024x1) pz2, View.ld_unit_zero (S := S1024x256) pz2,
    View.readCov_unit_zero (S := S1024x1) _ pz2, View.readCov_unit_zero (S := S1024x256) _ pz2,
    View.canon_cons_unit_zero (S := S1024x1) pz2, View.canon_cons_unit_zero (S := S1024x256) pz2, View.canon_cons_unit_zero (S := S1x1024x256) pz3]

theorem outs_A_L : (outs_A c t h0 x0 x1 x2).2.2.1 = k1_pay12 x0 x1 (k1_pay4 (F := F)) (k1_pay4 (F := F)) (k1_pay5 (F := F)) := by
  unfold outs_A; dsimp only
  rw [View.read_writes_eq_canon _ _ _ (coverL_A c t h0 x0 x1 x2)]
  unfold runA kernelRun1_A
  dsimp only
  sl_unfold_words
  simp only [View.readAt_eq_ld, Memref.IsWhole.read_unread, View.ld_unit_zero (S := S1x1024x256) pz3, View.ld_unit_zero (S := S1x512x256) pz3,
    View.ld_unit_zero (S := S1024x1) pz2, View.ld_unit_zero (S := S1024x256) pz2,
    View.readCov_unit_zero (S := S1024x1) _ pz2, View.readCov_unit_zero (S := S1024x256) _ pz2,
    View.canon_cons_unit_zero (S := S1024x1) pz2, View.canon_cons_unit_zero (S := S1024x256) pz2, View.canon_cons_unit_zero (S := S1x1024x256) pz3]

theorem outs_A_A : (outs_A c t h0 x0 x1 x2).2.2.2 = k1_pay1 (k1_pay7 x2) (k1_pay10 x0 x1 (k1_pay4 (F := F)) (k1_pay4 (F := F))) (k1_pay13 x0 x1 (k1_pay4 (F := F))) (k1_pay6 (F := F)) := by
  unfold outs_A; dsimp only
  rw [View.read_writes_eq_canon _ _ _ (coverA_A c t h0 x0 x1 x2)]
  unfold runA kernelRun1_A
  dsimp only
  sl_unfold_words
  simp only [View.readAt_eq_ld, Memref.IsWhole.read_unread, View.ld_unit_zero (S := S1x1024x256) pz3, View.ld_unit_zero (S := S1x512x256) pz3,
    View.ld_unit_zero (S := S1024x1) pz2, View.ld_unit_zero (S := S1024x256) pz2,
    View.readCov_unit_zero (S := S1024x1) _ pz2, View.readCov_unit_zero (S := S1024x256) _ pz2,
    View.canon_cons_unit_zero (S := S1024x1) pz2, View.canon_cons_unit_zero (S := S1024x256) pz2, View.canon_cons_unit_zero (S := S1x1024x256) pz3]

end

section
variable (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1x1024x256 .bf16) (x1 x2 : Vec F S1x512x256 .bf16) (xs0 xs1 : Vec F S1024x1 .f32) (xs2 : Vec F S1024x256 .f32)

theorem canonB_M : View.canon (kernelRun1_B (F := F) c i arg3 harg3 arg4 harg4 arg5 harg5 arg6 harg6 arg7 harg7 arg8 harg8 arg9 harg9 hc0 hc1 x0 x1 x2 xs0 xs1 xs2).2.1 = k1_pay2 (k1_pay9 x0 x1 xs0) := by
  unfold kernelRun1_B
  dsimp only
  sl_unfold_words
  simp only [View.readAt_eq_ld, Memref.IsWhole.read_unread, View.ld_unit_zero (S := S1x1024x256) pz3, View.ld_unit_zero (S := S1x512x256) pz3,
    View.ld_unit_zero (S := S1024x1) pz2, View.ld_unit_zero (S := S1024x256) pz2,
    View.readCov_unit_zero (S := S1024x1) _ pz2, View.readCov_unit_zero (S := S1024x256) _ pz2,
    View.canon_cons_unit_zero (S := S1024x1) pz2, View.canon_cons_unit_zero (S := S1024x256) pz2, View.canon_cons_unit_zero (S := S1x1024x256) pz3]

theorem canonB_L : View.canon (kernelRun1_B (F := F) c i arg3 harg3 arg4 harg4 arg5 harg5 arg6 harg6 arg7 harg7 arg8 harg8 arg9 harg9 hc0 hc1 x0 x1 x2 xs0 xs1 xs2).2.2.1 = k1_pay12 x0 x1 xs0 xs0 xs1 := by
  unfold kernelRun1_B
  dsimp only
  sl_unfold_words
  simp only [View.readAt_eq_ld, Memref.IsWhole.read_unread, View.ld_unit_zero (S := S1x1024x256) pz3, View.ld_unit_zero (S := S1x512x256) pz3,
    View.ld_unit_zero (S := S1024x1) pz2, View.ld_unit_zero (S := S1024x256) pz2,
    View.readCov_unit_zero (S := S1024x1) _ pz2, View.readCov_unit_zero (S := S1024x256) _ pz2,
    View.canon_cons_unit_zero (S := S1024x1) pz2, View.canon_cons_unit_zero (S := S1024x256) pz2, View.canon_cons_unit_zero (S := S1x1024x256) pz3]

theorem canonB_A : View.canon (kernelRun1_B (F := F) c i arg3 harg3 arg4 harg4 arg5 harg5 arg6 harg6 arg7 harg7 arg8 harg8 arg9 harg9 hc0 hc1 x0 x1 x2 xs0 xs1 xs2).2.2.2.1 = k1_pay1 (k1_pay7 x2) (k1_pay10 x0 x1 xs0 xs0) (k1_pay13 x0 x1 xs0) xs2 := by
  unfold kernelRun1_B
  dsimp only
  sl_unfold_words
  simp only [View.readAt_eq_ld, Memref.IsWhole.read_unread, View.ld_unit_zero (S := S1x1024x256) pz3, View.ld_unit_zero (S := S1x512x256) pz3,
    View.ld_unit_zero (S := S1024x1) pz2, View.ld_unit_zero (S := S1024x256) pz2,
    View.readCov_unit_zero (S := S1024x1) _ pz2, View.readCov_unit_zero (S := S1024x256) _ pz2,
    View.canon_cons_unit_zero (S := S1024x1) pz2, View.canon_cons_unit_zero (S := S1024x256) pz2, View.canon_cons_unit_zero (S := S1x1024x256) pz3]

end

section
variable (c : Dev nD) (i : grid1.Coords) (arg3 : Memref sig .tc .vmem S1x1024x256 .bf16) (harg3 : arg3.IsWhole) (arg4 : Memref sig .tc .vmem S1x512x256 .bf16) (harg4 : arg4.IsWhole) (arg5 : Memref sig .tc .vmem S1x512x256 .bf16) (harg5 : arg5.IsWhole) (arg6 : Memref sig .tc .vmem S1x1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1x1024x256 .bf16) (x1 x2 : Vec F S1x512x256 .bf16) (xs0 xs1 : Vec F S1024x1 .f32) (xs2 : Vec F S1024x256 .f32)

theorem canonC_M : View.canon (kernelRun1_C (F := F) c i arg3 harg3 arg4 harg4 arg5 harg5 arg6 harg6 arg7 harg7 arg8 harg8 arg9 harg9 hc0 hc1 x0 x1 x2 xs0 xs1 xs2).2.1 = k1_pay2 (k1_pay9 x0 x1 xs0) := by
  unfold kernelRun1_C
  dsimp only
  sl_unfold_words
  simp only [View.readAt_eq_ld, Memref.IsWhole.read_unread, View.ld_unit_zero (S := S1x1024x256) pz3, View.ld_unit_zero (S := S1x512x256) pz3,
    View.ld_unit_zero (S := S1024x1) pz2, View.ld_unit_zero (S := S1024x256) pz2,
    View.readCov_unit_zero (S := S1024x1) _ pz2, View.readCov_unit_zero (S := S1024x256) _ pz2,
    View.canon_cons_unit_zero (S := S1024x1) pz2, View.canon_cons_unit_zero (S := S1024x256) pz2, View.canon_cons_unit_zero (S := S1x1024x256) pz3]

theorem canonC_L : View.canon (kernelRun1_C (F := F) c i arg3 harg3 arg4 harg4 arg5 harg5 arg6 harg6 arg7 harg7 arg8 harg8 arg9 harg9 hc0 hc1 x0 x1 x2 xs0 xs1 xs2).2.2.1 = k1_pay12 x0 x1 xs0 xs0 xs1 := by
  unfold kernelRun1_C
  dsimp only
  sl_unfold_words
  simp only [View.readAt_eq_ld, Memref.IsWhole.read_unread, View.ld_unit_zero (S := S1x1024x256) pz3, View.ld_unit_zero (S := S1x512x256) pz3,
    View.ld_unit_zero (S := S1024x1) pz2, View.ld_unit_zero (S := S1024x256) pz2,
    View.readCov_unit_zero (S := S1024x1) _ pz2, View.readCov_unit_zero (S := S1024x256) _ pz2,
    View.canon_cons_unit_zero (S := S1024x1) pz2, View.canon_cons_unit_zero (S := S1024x256) pz2, View.canon_cons_unit_zero (S := S1x1024x256) pz3]

theorem canonC_A : View.canon (kernelRun1_C (F := F) c i arg3 harg3 arg4 harg4 arg5 harg5 arg6 harg6 arg7 harg7 arg8 harg8 arg9 harg9 hc0 hc1 x0 x1 x2 xs0 xs1 xs2).2.2.2.1 = k1_pay1 (k1_pay7 x2) (k1_pay10 x0 x1 xs0 xs0) (k1_pay13 x0 x1 xs0) xs2 := by
  unfold kernelRun1_C
  dsimp only
  sl_unfold_words
  simp only [View.readAt_eq_ld, Memref.IsWhole.read_unread, View.ld_unit_zero (S := S1x1024x256) pz3, View.ld_unit_zero (S := S1x512x256) pz3,
    View.ld_unit_zero (S := S1024x1) pz2, View.ld_unit_zero (S := S1024x256) pz2,
    View.readCov_unit_zero (S := S1024x1) _ pz2, View.readCov_unit_zero (S := S1024x256) _ pz2,
    View.canon_cons_unit_zero (S := S1024x1) pz2, View.canon_cons_unit_zero (S := S1024x256) pz2, View.canon_cons_unit_zero (S := S1x1024x256) pz3]

theorem canonC_O : View.canon (kernelRun1_C (F := F) c i arg3 harg3 arg4 harg4 arg5 harg5 arg6 harg6 arg7 harg7 arg8 harg8 arg9 harg9 hc0 hc1 x0 x1 x2 xs0 xs1 xs2).1 = k1_pay3 (k1_pay1 (k1_pay7 x2) (k1_pay10 x0 x1 xs0 xs0) (k1_pay13 x0 x1 xs0) xs2) (k1_pay12 x0 x1 xs0 xs0 xs1) := by
  unfold kernelRun1_C
  dsimp only
  sl_unfold_words
  simp only [View.readAt_eq_ld, Memref.IsWhole.read_unread, View.ld_unit_zero (S := S1x1024x256) pz3, View.ld_unit_zero (S := S1x512x256) pz3,
    View.ld_unit_zero (S := S1024x1) pz2, View.ld_unit_zero (S := S1024x256) pz2,
    View.readCov_unit_zero (S := S1024x1) _ pz2, View.readCov_unit_zero (S := S1024x256) _ pz2,
    View.canon_cons_unit_zero (S := S1024x1) pz2, View.canon_cons_unit_zero (S := S1024x256) pz2, View.canon_cons_unit_zero (S := S1x1024x256) pz3]

end

section
variable (c : Dev nD) (t : Fin cfg1.N) (h0 : ¬t.val % 4 = 0) (h1 : ¬t.val % 4 = 3) (x0 : Vec F S1x1024x256 .bf16) (x1 x2 : Vec F S1x512x256 .bf16) (xs0 xs1 : Vec F S1024x1 .f32) (xs2 : Vec F S1024x256 .f32)

theorem outs_B_M : (outs_B c t h0 h1 x0 x1 x2 xs0 xs1 xs2).2.1 = k1_pay2 (k1_pay9 x0 x1 xs0) := by
  unfold outs_B; dsimp only
  rw [View.read_writes_eq_canon _ _ _ (coverM_B c t h0 h1 x0 x1 x2 xs0 xs1 xs2)]
  exact canonB_M c _ _ _ _ _ _ _ _ _ _ _ _ _ _ _ _ _ x0 x1 x2 xs0 xs1 xs2

theorem outs_B_L : (outs_B c t h0 h1 x0 x1 x2 xs0 xs1 xs2).2.2.1 = k1_pay12 x0 x1 xs0 xs0 xs1 := by
  unfold outs_B; dsimp only
  rw [View.read_writes_eq_canon _ _ _ (coverL_B c t h0 h1 x0 x1 x2 xs0 xs1 xs2)]
  exact canonB_L c _ _ _ _ _ _ _ _ _ _ _ _ _ _ _ _ _ x0 x1 x2 xs0 xs1 xs2

theorem outs_B_A : (outs_B c t h0 h1 x0 x1 x2 xs0 xs1 xs2).2.2.2 = k1_pay1 (k1_pay7 x2) (k1_pay10 x0 x1 xs0 xs0) (k1_pay13 x0 x1 xs0) xs2 := by
  unfold outs_B; dsimp only
  rw [View.read_writes_eq_canon _ _ _ (coverA_B c t h0 h1 x0 x1 x2 xs0 xs1 xs2)]
  exact canonB_A c _ _ _ _ _ _ _ _ _ _ _ _ _ _ _ _ _ x0 x1 x2 xs0 xs1 xs2

end

section
variable (c : Dev nD) (t : Fin cfg1.N) (h0 : ¬t.val % 4 = 0) (h1 : t.val % 4 = 3) (x0 : Vec F S1x1024x256 .bf16) (x1 x2 : Vec F S1x512x256 .bf16) (xs0 xs1 : Vec F S1024x1 .f32) (xs2 : Vec F S1024x256 .f32)

theorem outs_C_M : (outs_C c t h0 h1 x0 x1 x2 xs0 xs1 xs2).2.1 = k1_pay2 (k1_pay9 x0 x1 xs0) := by
  unfold outs_C; dsimp only
  rw [View.read_writes_eq_canon _ _ _ (coverM_C c t h0 h1 x0 x1 x2 xs0 xs1 xs2)]
  exact canonC_M c _ _ _ _ _ _ _ _ _ _ _ _ _ _ _ _ _ x0 x1 x2 xs0 xs1 xs2

theorem outs_C_L : (outs_C c t h0 h1 x0 x1 x2 xs0 xs1 xs2).2.2.1 = k1_pay12 x0 x1 xs0 xs0 xs1 := by
  unfold outs_C; dsimp only
  rw [View.read_writes_eq_canon _ _ _ (coverL_C c t h0 h1 x0 x1 x2 xs0 xs1 xs2)]
  exact canonC_L c _ _ _ _ _ _ _ _ _ _ _ _ _ _ _ _ _ x0 x1 x2 xs0 xs1 xs2

theorem outs_C_A : (outs_C c t h0 h1 x0 x1 x2 xs0 xs1 xs2).2.2.2 = k1_pay1 (k1_pay7 x2) (k1_pay10 x0 x1 xs0 xs0) (k1_pay13 x0 x1 xs0) xs2 := by
  unfold outs_C; dsimp only
  rw [View.read_writes_eq_canon _ _ _ (coverA_C c t h0 h1 x0 x1 x2 xs0 xs1 xs2)]
  exact canonC_A c _ _ _ _ _ _ _ _ _ _ _ _ _ _ _ _ _ x0 x1 x2 xs0 xs1 xs2

theorem outs_C_O : (outs_C c t h0 h1 x0 x1 x2 xs0 xs1 xs2).1 = k1_pay3 (k1_pay1 (k1_pay7 x2) (k1_pay10 x0 x1 xs0 xs0) (k1_pay13 x0 x1 xs0) xs2) (k1_pay12 x0 x1 xs0 xs0 xs1) := by
  unfold outs_C; dsimp only
  rw [View.read_writes_eq_canon _ _ _ (coverO_C c t h0 h1 x0 x1 x2 xs0 xs1 xs2)]
  exact canonC_O c _ _ _ _ _ _ _ _ _ _ _ _ _ _ _ _ _ x0 x1 x2 xs0 xs1 xs2

end

end Cert.KernelIdeal.Hand

end
-- ==== Proof.KIPay1.lean ====
/-
  The attention kernel's payloads read at an index, at the ideal values: one block's update of the running
  (maximum, normaliser, weighted sum) of a row is `Cert.OnlineSoftmax.step` on that row's scaled scores against the
  block's keys and the block's values; the initial payloads are `(−∞, 0, 0)`; the output payload is the quotient.
-/
import proofs.«160592_j63909113364812_2_alg».proof.Proof.Gen.KernelIdeal.Skeleton
import proofs.«160592_j63909113364812_2_alg».proof.Proof.LibOnlineSoftmax
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## Layout operations at an index: the keepdims column forms -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two matrix products at an index -/

theorem mm_qk_lhs0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem mm_qk_rhs1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl
/-- The product into the zero splat, at `(r, c)`: the sum over the contracted coordinate of the left operand's row `r`
    times the right operand's column `c`. -/
theorem mm_qk_apply (x : FVec Ideal S1024x256 .bf16) (y : FVec Ideal S256x512 .bf16) (r : Fin 1024) (c : Fin 512) :
    matmul dot_S1024x256_S256x512_S1024x512_1_0_0_1_n_n none x y (constant S1024x512 .f32 0x00000000#32) (ix2 r c)
      = ∑ e : Fin 256, x (ix2 r e) * y (ix2 e c) := by
  simp only [matmul]
  rw [Ideal.matmul_constant_zero_apply, ← Equiv.sum_comp (contrEquiv1 dot_S1024x256_S256x512_S1024x512_1_0_0_1_n_n 256 rfl rfl).symm]
  refine Finset.sum_congr rfl fun e _ => ?_
  have hk := contrEquiv1_symm_val dot_S1024x256_S256x512_S1024x512_1_0_0_1_n_n 256 rfl rfl e
  have el : dot_S1024x256_S256x512_S1024x512_1_0_0_1_n_n.lhsIdx (ix2 r c) ((contrEquiv1 dot_S1024x256_S256x512_S1024x512_1_0_0_1_n_n 256 rfl rfl).symm e) = ix2 r e := funext fun a => Fin.ext (by
    match a with
    | ⟨0, _⟩ => exact mm_qk_lhs0 _ _
    | ⟨1, _⟩ => exact (dot_S1024x256_S256x512_S1024x512_1_0_0_1_n_n.lhsIdx_val_of_single rfl _ _).trans hk)
  have er : dot_S1024x256_S256x512_S1024x512_1_0_0_1_n_n.rhsIdx (ix2 r c) ((contrEquiv1 dot_S1024x256_S256x512_S1024x512_1_0_0_1_n_n 256 rfl rfl).symm e) = ix2 e c := funext fun a => Fin.ext (by
    match a with
    | ⟨0, _⟩ => exact (dot_S1024x256_S256x512_S1024x512_1_0_0_1_n_n.rhsIdx_val_of_single rfl _ _).trans hk
    | ⟨1, _⟩ => exact mm_qk_rhs1 _ _)
  rw [el, er]

theorem mm_pv_lhs0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem mm_pv_rhs1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl
/-- The product into the zero splat, at `(r, c)`: the sum over the contracted coordinate of the left operand's row `r`
    times the right operand's column `c`. -/
theorem mm_pv_apply (x : FVec Ideal S1024x512 .bf16) (y : FVec Ideal S512x256 .bf16) (r : Fin 1024) (c : Fin 256) :
    matmul dot_S1024x512_S512x256_S1024x256_1_0_0_1_n_n none x y (constant S1024x256 .f32 0x00000000#32) (ix2 r c)
      = ∑ e : Fin 512, x (ix2 r e) * y (ix2 e c) := by
  simp only [matmul]
  rw [Ideal.matmul_constant_zero_apply, ← Equiv.sum_comp (contrEquiv1 dot_S1024x512_S512x256_S1024x256_1_0_0_1_n_n 512 rfl rfl).symm]
  refine Finset.sum_congr rfl fun e _ => ?_
  have hk := contrEquiv1_symm_val dot_S1024x512_S512x256_S1024x256_1_0_0_1_n_n 512 rfl rfl e
  have el : dot_S1024x512_S512x256_S1024x256_1_0_0_1_n_n.lhsIdx (ix2 r c) ((contrEquiv1 dot_S1024x512_S512x256_S1024x256_1_0_0_1_n_n 512 rfl rfl).symm e) = ix2 r e := funext fun a => Fin.ext (by
    match a with
    | ⟨0, _⟩ => exact mm_pv_lhs0 _ _
    | ⟨1, _⟩ => exact (dot_S1024x512_S512x256_S1024x256_1_0_0_1_n_n.lhsIdx_val_of_single rfl _ _).trans hk)
  have er : dot_S1024x512_S512x256_S1024x256_1_0_0_1_n_n.rhsIdx (ix2 r c) ((contrEquiv1 dot_S1024x512_S512x256_S1024x256_1_0_0_1_n_n 512 rfl rfl).symm e) = ix2 e c := funext fun a => Fin.ext (by
    match a with
    | ⟨0, _⟩ => exact (dot_S1024x512_S512x256_S1024x256_1_0_0_1_n_n.rhsIdx_val_of_single rfl _ _).trans hk
    | ⟨1, _⟩ => exact mm_pv_rhs1 _ _)
  rw [el, er]

/-! ## The two row reductions at an index -/

/-- The f32 word of `−∞` is the extended real `⊥`. -/
theorem ofBits_neg_inf_f32 : Ideal.ofBits .f32 0xFF800000#32 = ⊥ := by simp [Ideal.ofBits, Ideal.ieee]

/-- The source index of a reduction over the columns: row `r` at the reduced coordinate `j`. -/
theorem lift_row (h : S1024x512.Reduces [1] S1024) (r : Fin 1024) (j : Fin 512) : h.lift (ix1 r) j = ix2 r j := by
  funext c
  apply Fin.ext
  match c with
  | ⟨0, _⟩ => rfl
  | ⟨1, _⟩ => rfl

/-- A row's maximum, from `−∞`: the fold of `max` from `⊥` over the row. -/
theorem rowmax_apply (src : FVec Ideal S1024x512 .f32) (h : S1024x512.Reduces [1] S1024) (hφ : FKind.Formats .f32)
    (hacc : (0xFF800000#32 : BitVec 32) = 0xFF800000#32) (r : Fin 1024) :
    multiReduction .maximumf [1] S1024 src 0xFF800000#32 h hφ hacc (ix1 r)
      = Finset.univ.fold max ⊥ (fun j : Fin 512 => src (ix2 r j)) := by
  refine (Ideal.multiReduction_maximumf_single src 0xFF800000#32 h hφ hacc (ix1 r)).trans ?_
  show (Finset.univ : Finset (Fin 512)).fold max (Ideal.ofBits .f32 0xFF800000#32) (fun j : Fin 512 => src (h.lift (ix1 r) j)) = _
  rw [ofBits_neg_inf_f32]
  simp only [lift_row]

/-- A row's sum. -/
theorem rowsum_apply (src : FVec Ideal S1024x512 .f32) (h : S1024x512.Reduces [1] S1024) (hφ : FKind.Formats .f32)
    (hacc : (0x00000000#32 : BitVec 32) = 0x00000000#32) (r : Fin 1024) :
    multiReduction .add [1] S1024 src 0x00000000#32 h hφ hacc (ix1 r) = ∑ j : Fin 512, src (ix2 r j) := by
  refine (Ideal.multiReduction_add_single src 0x00000000#32 h hφ hacc (ix1 r)).trans ?_
  show ∑ j : Fin 512, src (h.lift (ix1 r) j) = _
  simp only [lift_row]

/-! ## The payloads at an index -/

theorem pay7_apply (v : Vec Ideal S1x512x256 .bf16) (j : Fin 512) (d : Fin 256) :
    k1_pay7 v (ix2 j d) = v (ix3 (0 : Fin 1) j d) := by
  unfold k1_pay7
  exact shapeCast_1ab_ab_apply v _ j d

theorem pay8_apply (q : Vec Ideal S1x1024x256 .bf16) (k : Vec Ideal S1x512x256 .bf16) (r : Fin 1024) (j : Fin 512) :
    k1_pay8 q k (ix2 r j)
      = (∑ e : Fin 256, q (ix3 (0 : Fin 1) r e) * k (ix3 (0 : Fin 1) j e)) * Ideal.ofBits .f32 0x3D800000#32 := by
  unfold k1_pay8
  dsimp only
  rw [mulf_apply, mm_qk_apply, broadcast_apply]
  refine congrArg (· * Ideal.ofBits .f32 0x3D800000#32) (Finset.sum_congr rfl fun e _ => ?_)
  exact congrArg₂ (· * ·) (shapeCast_1ab_ab_apply q _ r e)
    ((transpose_ix2_apply _ _ e j).trans (shapeCast_1ab_ab_apply k _ j e))

theorem pay9_apply (q : Vec Ideal S1x1024x256 .bf16) (k : Vec Ideal S1x512x256 .bf16) (m : Vec Ideal S1024x1 .f32) (r : Fin 1024) :
    k1_pay9 q k m (ix2 r (0 : Fin 1))
      = max (m (ix2 r (0 : Fin 1))) (Finset.univ.fold max ⊥ (fun j : Fin 512 => k1_pay8 q k (ix2 r j))) := by
  unfold k1_pay9
  dsimp only
  rw [maximumf_apply, shapeCast_a_a1_apply, rowmax_apply]

theorem pay10_apply (q : Vec Ideal S1x1024x256 .bf16) (k : Vec Ideal S1x512x256 .bf16) (m m' : Vec Ideal S1024x1 .f32) (r : Fin 1024) :
    k1_pay10 q k m m' (ix2 r (0 : Fin 1))
      = Ideal.exp (m' (ix2 r (0 : Fin 1)) - k1_pay9 q k m (ix2 r (0 : Fin 1))) := rfl

theorem pay11_apply (q : Vec Ideal S1x1024x256 .bf16) (k : Vec Ideal S1x512x256 .bf16) (m : Vec Ideal S1024x1 .f32) (r : Fin 1024) (j : Fin 512) :
    k1_pay11 q k m (ix2 r j)
      = Ideal.exp (k1_pay8 q k (ix2 r j) - k1_pay9 q k m (ix2 r (0 : Fin 1))) := by
  unfold k1_pay11
  show Ideal.exp (k1_pay8 q k (ix2 r j) - broadcastTo S1024x512 (k1_pay9 q k m) broadcasts_S1024x1_S1024x512 (ix2 r j)) = _
  rw [broadcastTo_a1_ab_apply]

theorem pay12_apply (q : Vec Ideal S1x1024x256 .bf16) (k : Vec Ideal S1x512x256 .bf16) (m m' l : Vec Ideal S1024x1 .f32) (r : Fin 1024) :
    k1_pay12 q k m m' l (ix2 r (0 : Fin 1))
      = k1_pay10 q k m m' (ix2 r (0 : Fin 1)) * l (ix2 r (0 : Fin 1)) + ∑ j : Fin 512, k1_pay11 q k m (ix2 r j) := by
  unfold k1_pay12
  dsimp only
  rw [shapeCast_self, addf_apply, mulf_apply, shapeCast_a_a1_apply, rowsum_apply]

theorem pay13_apply (q : Vec Ideal S1x1024x256 .bf16) (k : Vec Ideal S1x512x256 .bf16) (m : Vec Ideal S1024x1 .f32) (r : Fin 1024) (j : Fin 512) :
    k1_pay13 q k m (ix2 r j) = k1_pay11 q k m (ix2 r j) := rfl

theorem pay1_apply (v8 : FVec Ideal S512x256 .bf16) (v19 : FVec Ideal S1024x1 .f32) (v31 : FVec Ideal S1024x512 .bf16)
    (v33 : Vec Ideal S1024x256 .f32) (r : Fin 1024) (d : Fin 256) :
    k1_pay1 v8 v19 v31 v33 (ix2 r d)
      = v19 (ix2 r (0 : Fin 1)) * v33 (ix2 r d) + ∑ j : Fin 512, v31 (ix2 r j) * v8 (ix2 j d) := by
  unfold k1_pay1
  rw [shapeCast_self, addf_apply, mulf_apply, broadcastTo_a1_ab_apply, mm_pv_apply]

theorem pay2_apply (x : FVec Ideal S1024x1 .f32) : k1_pay2 x = x := by
  unfold k1_pay2
  exact shapeCast_self _ _

/-- The output payload: the weighted sum over the normaliser. -/
theorem out_payload (acc : Vec Ideal S1024x256 .f32) (l : Vec Ideal S1024x1 .f32) (r : Fin 1024) (d : Fin 256) :
    k1_pay3 acc l (ix3 (0 : Fin 1) r d) = Ideal.div (acc (ix2 r d)) (l (ix2 r (0 : Fin 1))) := by
  unfold k1_pay3
  rw [shapeCast_ab_1ab_apply, divf_apply, broadcastTo_a1_ab_apply]

/-- The initial payloads: the empty state `(−∞, 0, 0)`. -/
theorem init_payloads (r : Fin 1024) (d : Fin 256) :
    (k1_pay4 (F := Ideal) (ix2 r (0 : Fin 1)), k1_pay5 (F := Ideal) (ix2 r (0 : Fin 1)), k1_pay6 (F := Ideal) (ix2 r d))
      = ((⊥ : EReal), (0 : EReal), (0 : EReal)) := by
  unfold k1_pay4 k1_pay5 k1_pay6
  rw [shapeCast_self, shapeCast_self, shapeCast_self]
  show (Ideal.ofBits .f32 0xFF800000#32, Ideal.ofBits .f32 0x00000000#32, Ideal.ofBits .f32 0x00000000#32) = _
  rw [ofBits_neg_inf_f32, Ideal.ofBits_zero_f32]

/-- One block's payloads at row `r` (and column `d` of the weighted sum): the update of the row's running state by the
    block's scaled scores and values. -/
theorem step_payloads (q : Vec Ideal S1x1024x256 .bf16) (k v : Vec Ideal S1x512x256 .bf16) (m l : Vec Ideal S1024x1 .f32)
    (acc : Vec Ideal S1024x256 .f32) (r : Fin 1024) (d : Fin 256) :
    (k1_pay2 (k1_pay9 q k m) (ix2 r (0 : Fin 1)), k1_pay12 q k m m l (ix2 r (0 : Fin 1)),
        k1_pay1 (k1_pay7 v) (k1_pay10 q k m m) (k1_pay13 q k m) acc (ix2 r d))
      = Cert.OnlineSoftmax.step
          (fun j : Fin 512 => (∑ e : Fin 256, q (ix3 (0 : Fin 1) r e) * k (ix3 (0 : Fin 1) j e)) * Ideal.ofBits .f32 0x3D800000#32)
          (fun j : Fin 512 => v (ix3 (0 : Fin 1) j d))
          (m (ix2 r (0 : Fin 1)), l (ix2 r (0 : Fin 1)), acc (ix2 r d)) := by
  rw [pay2_apply, pay12_apply, pay1_apply, pay10_apply, pay9_apply]
  simp only [pay13_apply, pay11_apply, pay7_apply, pay9_apply, pay8_apply]
  rfl

end Cert.KernelIdeal.Hand

end
-- ==== Proof.KIValue1.lean ====
/-
  What the attention region leaves in its output array, at the ideal values: the softmax-weighted average.

  Row `r` of the running maximum and of the normaliser, and entry `(r, d)` of the accumulator, after each grid position
  form a state `(m, l, a)`. At a first key tile it is the update of the empty state `(−∞, 0, 0)` by the point's scores and
  values; at every other position it is the update of the state the position before left; and at a last key tile the
  output block holds `a / l` of the new state. Four updates and the quotient are the softmax-weighted average over the
  2048 keys, and the last-key-tile write-backs tile the output array.
-/
import proofs.«160592_j63909113364812_2_alg».proof.Proof.KIAttn1
import proofs.«160592_j63909113364812_2_alg».proof.Proof.KIPieces1
import proofs.«160592_j63909113364812_2_alg».proof.Proof.KIPay1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.OnlineSoftmax (step blk)

/-! ## One case's buffers as one update of the row state -/

section Cases

variable (c : Dev nD) (t : Fin cfg1.N) (x0 : Vec Ideal S1x1024x256 .bf16) (x1 x2 : Vec Ideal S1x512x256 .bf16)
  (xs0 xs1 : Vec Ideal S1024x1 .f32) (xs2 : Vec Ideal S1024x256 .f32) (r : Fin 1024) (d : Fin 256)

/-- A first key tile: the update of the empty state. -/
theorem state_A (h0 : t.val % 4 = 0) :
    (((outs_A c t h0 x0 x1 x2).2.1 (ix2 r (0 : Fin 1)), (outs_A c t h0 x0 x1 x2).2.2.1 (ix2 r (0 : Fin 1)),
        (outs_A c t h0 x0 x1 x2).2.2.2 (ix2 r d)) : EReal × EReal × EReal)
      = step (blockScores x0 x1 r) (blockValues x2 d) (⊥, 0, 0) := by
  rw [outs_A_M, outs_A_L, outs_A_A]
  exact (step_payloads x0 x1 x2 (k1_pay4 (F := Ideal)) (k1_pay5 (F := Ideal)) (k1_pay6 (F := Ideal)) r d).trans
    (congrArg (step (blockScores x0 x1 r) (blockValues x2 d)) (init_payloads r d))

/-- A middle key tile: the update of the state entered with. -/
theorem state_B (h0 : ¬t.val % 4 = 0) (h1 : ¬t.val % 4 = 3) :
    (((outs_B c t h0 h1 x0 x1 x2 xs0 xs1 xs2).2.1 (ix2 r (0 : Fin 1)), (outs_B c t h0 h1 x0 x1 x2 xs0 xs1 xs2).2.2.1 (ix2 r (0 : Fin 1)),
        (outs_B c t h0 h1 x0 x1 x2 xs0 xs1 xs2).2.2.2 (ix2 r d)) : EReal × EReal × EReal)
      = step (blockScores x0 x1 r) (blockValues x2 d) (xs0 (ix2 r (0 : Fin 1)), xs1 (ix2 r (0 : Fin 1)), xs2 (ix2 r d)) := by
  rw [outs_B_M, outs_B_L, outs_B_A]
  exact step_payloads x0 x1 x2 xs0 xs1 xs2 r d

/-- A last key tile: the update of the state entered with, -/
theorem state_C (h0 : ¬t.val % 4 = 0) (h1 : t.val % 4 = 3) :
    (((outs_C c t h0 h1 x0 x1 x2 xs0 xs1 xs2).2.1 (ix2 r (0 : Fin 1)), (outs_C c t h0 h1 x0 x1 x2 xs0 xs1 xs2).2.2.1 (ix2 r (0 : Fin 1)),
        (outs_C c t h0 h1 x0 x1 x2 xs0 xs1 xs2).2.2.2 (ix2 r d)) : EReal × EReal × EReal)
      = step (blockScores x0 x1 r) (blockValues x2 d) (xs0 (ix2 r (0 : Fin 1)), xs1 (ix2 r (0 : Fin 1)), xs2 (ix2 r d)) := by
  rw [outs_C_M, outs_C_L, outs_C_A]
  exact step_payloads x0 x1 x2 xs0 xs1 xs2 r d

/-- and the output block is the new weighted sum over the new normaliser. -/
theorem out_C (h0 : ¬t.val % 4 = 0) (h1 : t.val % 4 = 3) :
    (outs_C c t h0 h1 x0 x1 x2 xs0 xs1 xs2).1 (ix3 (0 : Fin 1) r d)
      = Ideal.div ((outs_C c t h0 h1 x0 x1 x2 xs0 xs1 xs2).2.2.2 (ix2 r d)) ((outs_C c t h0 h1 x0 x1 x2 xs0 xs1 xs2).2.2.1 (ix2 r (0 : Fin 1))) := by
  rw [outs_C_O, outs_C_L, outs_C_A]
  exact out_payload _ _ r d

end Cases

/-! ## The row state, position by position -/

section Positions

variable (V : (c : Dev nD) → (b : Ref sig .tc) → Buf (Elt Ideal) ((c : Thread nD τ).loc b)) (c : Dev nD)

/-- Row `r` of the maximum and of the normaliser, entry `(r, d)` of the accumulator, after position `n`. -/
def rowState (n : ℕ) (hn : n < cfg1.N) (r : Fin 1024) (d : Fin 256) : EReal × EReal × EReal :=
  ((outsAt1 V c n hn).2.1 (ix2 r (0 : Fin 1)), (outsAt1 V c n hn).2.2.1 (ix2 r (0 : Fin 1)), (outsAt1 V c n hn).2.2.2 (ix2 r d))

theorem rowState_first (n : ℕ) (hn : n < cfg1.N) (h0 : n % 4 = 0) (r : Fin 1024) (d : Fin 256) :
    rowState V c n hn r d
      = step (blockScores (iblk1 V c 0 ⟨n, hn⟩) (iblk1 V c 1 ⟨n, hn⟩) r) (blockValues (iblk1 V c 2 ⟨n, hn⟩) d) (⊥, 0, 0) := by
  have e : outsAt1 V c n hn = outs_A c ⟨n, hn⟩ h0 (iblk1 V c 0 ⟨n, hn⟩) (iblk1 V c 1 ⟨n, hn⟩) (iblk1 V c 2 ⟨n, hn⟩) :=
    outsAt1_A V c ⟨n, hn⟩ h0
  unfold rowState
  rw [e]
  exact state_A c ⟨n, hn⟩ (iblk1 V c 0 ⟨n, hn⟩) (iblk1 V c 1 ⟨n, hn⟩) (iblk1 V c 2 ⟨n, hn⟩) r d h0

theorem rowState_next (n : ℕ) (hn : n + 1 < cfg1.N) (h0 : ¬(n + 1) % 4 = 0) (r : Fin 1024) (d : Fin 256) :
    rowState V c (n + 1) hn r d
      = step (blockScores (iblk1 V c 0 ⟨n + 1, hn⟩) (iblk1 V c 1 ⟨n + 1, hn⟩) r) (blockValues (iblk1 V c 2 ⟨n + 1, hn⟩) d)
          (rowState V c n (Nat.lt_of_succ_lt hn) r d) := by
  by_cases h1 : (n + 1) % 4 = 3
  · have e : outsAt1 V c (n + 1) hn = outs_C c ⟨n + 1, hn⟩ h0 h1 (iblk1 V c 0 ⟨n + 1, hn⟩) (iblk1 V c 1 ⟨n + 1, hn⟩) (iblk1 V c 2 ⟨n + 1, hn⟩)
        (outsAt1 V c n (Nat.lt_of_succ_lt hn)).2.1 (outsAt1 V c n (Nat.lt_of_succ_lt hn)).2.2.1 (outsAt1 V c n (Nat.lt_of_succ_lt hn)).2.2.2 :=
      outsAt1_C V c ⟨n + 1, hn⟩ h0 h1
    unfold rowState
    rw [e]
    exact state_C c ⟨n + 1, hn⟩ (iblk1 V c 0 ⟨n + 1, hn⟩) (iblk1 V c 1 ⟨n + 1, hn⟩) (iblk1 V c 2 ⟨n + 1, hn⟩)
      (outsAt1 V c n (Nat.lt_of_succ_lt hn)).2.1 (outsAt1 V c n (Nat.lt_of_succ_lt hn)).2.2.1 (outsAt1 V c n (Nat.lt_of_succ_lt hn)).2.2.2 r d h0 h1
  · have e : outsAt1 V c (n + 1) hn = outs_B c ⟨n + 1, hn⟩ h0 h1 (iblk1 V c 0 ⟨n + 1, hn⟩) (iblk1 V c 1 ⟨n + 1, hn⟩) (iblk1 V c 2 ⟨n + 1, hn⟩)
        (outsAt1 V c n (Nat.lt_of_succ_lt hn)).2.1 (outsAt1 V c n (Nat.lt_of_succ_lt hn)).2.2.1 (outsAt1 V c n (Nat.lt_of_succ_lt hn)).2.2.2 :=
      outsAt1_B V c ⟨n + 1, hn⟩ h0 h1
    unfold rowState
    rw [e]
    exact state_B c ⟨n + 1, hn⟩ (iblk1 V c 0 ⟨n + 1, hn⟩) (iblk1 V c 1 ⟨n + 1, hn⟩) (iblk1 V c 2 ⟨n + 1, hn⟩)
      (outsAt1 V c n (Nat.lt_of_succ_lt hn)).2.1 (outsAt1 V c n (Nat.lt_of_succ_lt hn)).2.2.1 (outsAt1 V c n (Nat.lt_of_succ_lt hn)).2.2.2 r d h0 h1

/-- At a last key tile the output block holds the quotient of the new state. -/
theorem out_last (n : ℕ) (hn : n + 1 < cfg1.N) (h0 : ¬(n + 1) % 4 = 0) (h1 : (n + 1) % 4 = 3) (r : Fin 1024) (d : Fin 256) :
    (outsAt1 V c (n + 1) hn).1 (ix3 (0 : Fin 1) r d)
      = Ideal.div ((outsAt1 V c (n + 1) hn).2.2.2 (ix2 r d)) ((outsAt1 V c (n + 1) hn).2.2.1 (ix2 r (0 : Fin 1))) := by
  have e : outsAt1 V c (n + 1) hn = outs_C c ⟨n + 1, hn⟩ h0 h1 (iblk1 V c 0 ⟨n + 1, hn⟩) (iblk1 V c 1 ⟨n + 1, hn⟩) (iblk1 V c 2 ⟨n + 1, hn⟩)
      (outsAt1 V c n (Nat.lt_of_succ_lt hn)).2.1 (outsAt1 V c n (Nat.lt_of_succ_lt hn)).2.2.1 (outsAt1 V c n (Nat.lt_of_succ_lt hn)).2.2.2 :=
    outsAt1_C V c ⟨n + 1, hn⟩ h0 h1
  rw [e]
  exact out_C c ⟨n + 1, hn⟩ (iblk1 V c 0 ⟨n + 1, hn⟩) (iblk1 V c 1 ⟨n + 1, hn⟩) (iblk1 V c 2 ⟨n + 1, hn⟩)
    (outsAt1 V c n (Nat.lt_of_succ_lt hn)).2.1 (outsAt1 V c n (Nat.lt_of_succ_lt hn)).2.2.1 (outsAt1 V c n (Nat.lt_of_succ_lt hn)).2.2.2 r d h0 h1

/-! ## The output array -/

/-- THE OUTPUT ARRAY of the attention region, for real queries, keys and values: at `(b, i, d)` the softmax-weighted
    average, over the 2048 key rows of batch `b`, of column `d` of the values, the weights those of query row `i`. -/
theorem final1
    (hQ : ∀ i, ∃ x : ℝ, (V c main_v0_0 : S8x2048x256.Idx → EReal) i = (x : EReal))
    (hK : ∀ i, ∃ x : ℝ, (V c main_v0_1 : S8x2048x256.Idx → EReal) i = (x : EReal))
    (hX : ∀ i, ∃ x : ℝ, (V c main_v0_2 : S8x2048x256.Idx → EReal) i = (x : EReal)) :
    (dat1 V c).arrAt 3 cfg1.N
      = fun i : S8x2048x256.Idx => attnQKX (V c main_v0_0) (V c main_v0_1) (V c main_v0_2) (i 0) (i 1) (i 2) := by
  refine final_of_flushed (dat1 V c) (attnQKX (V c main_v0_0) (V c main_v0_1) (V c main_v0_2)) (fun t h3 r d => ?_)
  refine (congrFun (after1_3 V c t) (ix3 (0 : Fin 1) r d)).trans ?_
  obtain ⟨tv, ht⟩ := t
  obtain ⟨m, rfl⟩ : ∃ m, tv = m + 3 := ⟨tv - 3, by have h : tv % 4 = 3 := h3; omega⟩
  have h0 : m % 4 = 0 := by have h : (m + 3) % 4 = 3 := h3; omega
  refine (out_last V c (m + 2) ht (by omega) (by omega) r d).trans ?_
  show Ideal.div (rowState V c (m + 3) ht r d).2.2 (rowState V c (m + 3) ht r d).2.1 = _
  exact quotient_of_states V c hQ hK hX r d (fun n hn => rowState V c n hn r d)
    (fun n hn h => rowState_first V c n hn h r d) (fun n hn h => rowState_next V c n hn h r d) m ht h0

end Positions

end Cert.KernelIdeal.Hand

end
-- ==== Proof.AttnSpec.lean ====
/-
  Single-head attention with values the raw input, as ONE function of the three argument arrays, index by index, on the
  extended reals.

  For a batch `b`, the query and key rows are the projections `q_{b,n,e} = Σ_d x_{b,n,d}·Wq_{e,d}` and
  `k_{b,n,e} = Σ_d x_{b,n,d}·Wk_{e,d}`; the score of query row `i` against key row `j` is
  `s_{b,i,j} = (Σ_e q_{b,i,e}·k_{b,j,e})·c` with `c` the f32 word `0x3D800000` (one sixteenth); the row's weights are
  `exp(s_{b,i,j} − M_{b,i}) / Σ_j' exp(s_{b,i,j'} − M_{b,i})` with `M_{b,i}` the row's maximum (the fold of `max` from `−∞`);
  and the result at `(b,i,d)` is the weighted sum `Σ_j weight_{b,i,j}·x_{b,j,d}`.
-/
import Idealize.ShloMosaic.PureOps.Ideal
import Idealize.ShloMosaic.Lib.ValueIdx

noncomputable section

namespace Cert.Attn

open Idealize.ShloMosaic Idealize.ShloMosaic.ValueIdx

/-- The shape of the input and of the result, and of a weight matrix. -/
abbrev SX : Shape := ⟨3, ![8, 2048, 256]⟩
abbrev SW : Shape := ⟨2, ![256, 256]⟩

/-- Row `(b, n)` of `x` against row `e` of a weight matrix: one entry of a projection. -/
def proj (x : SX.Idx → EReal) (w : SW.Idx → EReal) (b : Fin 8) (n : Fin 2048) (e : Fin 256) : EReal :=
  ∑ d : Fin 256, x (ix3 b n d) * w (ix2 e d)

/-- The scaled score of query row `i` against key row `j` of batch `b`. -/
def score (x : SX.Idx → EReal) (wq wk : SW.Idx → EReal) (b : Fin 8) (i j : Fin 2048) : EReal :=
  (∑ e : Fin 256, proj x wq b i e * proj x wk b j e) * Ideal.ofBits .f32 0x3D800000#32

/-- The maximum of row `i`'s scores. -/
def rowMax (x : SX.Idx → EReal) (wq wk : SW.Idx → EReal) (b : Fin 8) (i : Fin 2048) : EReal :=
  (Finset.univ : Finset (Fin 2048)).fold max ⊥ (fun j => score x wq wk b i j)

/-- The attention output: the softmax-weighted sum of the rows of `x`. -/
def G (x : SX.Idx → EReal) (wq wk : SW.Idx → EReal) : SX.Idx → EReal := fun i =>
  ∑ j : Fin 2048,
    Ideal.div (Ideal.exp (score x wq wk (i 0) (i 1) j - rowMax x wq wk (i 0) (i 1)))
        (∑ j' : Fin 2048, Ideal.exp (score x wq wk (i 0) (i 1) j' - rowMax x wq wk (i 0) (i 1)))
      * x (ix3 (i 0) j (i 2))

end Cert.Attn

end
-- ==== Proof.KIFinal.lean ====
/- The kernel side's last step at the ideal values: after the whole run the result array is the attention specification
   of the three launch arrays, when their entries are real. The projection region leaves Q = x·Wqᵀ, K = x·Wkᵀ and V = x in
   its three output arrays; these are what the attention region is entered from; the entries of a projection of real
   arrays are real, so the attention region's value lemma applies, and its softmax-weighted sum over the projected rows
   is the specification index by index. -/
import proofs.«160592_j63909113364812_2_alg».proof.Proof.KIValue0
import proofs.«160592_j63909113364812_2_alg».proof.Proof.KIValue1
import proofs.«160592_j63909113364812_2_alg».proof.Proof.KIRun
import proofs.«160592_j63909113364812_2_alg».proof.Proof.AttnSpec
import proofs.«160592_j63909113364812_2_alg».proof.Proof.LibOnlineSoftmax

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The projections of real arrays are real -/

/-- Every entry of a projection of real arrays is a real number: a finite sum of products of reals. -/
theorem projArr_real (X : S8x2048x256.Idx → EReal) (W : S256x256.Idx → EReal)
    (hX : ∀ i, ∃ r : ℝ, X i = (r : EReal)) (hW : ∀ i, ∃ r : ℝ, W i = (r : EReal)) (i : S8x2048x256.Idx) :
    ∃ r : ℝ, projArr X W i = (r : EReal) := by
  choose fx hfx using hX
  choose fw hfw using hW
  refine ⟨∑ d : Fin 256, fx (ix3 (⟨(i 0).val, (i 0).isLt⟩ : Fin 8) (⟨(i 1).val, (i 1).isLt⟩ : Fin 2048) d) * fw (ix2 (⟨(i 2).val, (i 2).isLt⟩ : Fin 256) d), ?_⟩
  unfold projArr
  rw [← Cert.OnlineSoftmax.coe_sum]
  exact Finset.sum_congr rfl fun d _ => by rw [hfx, hfw, EReal.coe_mul]

/-! ## The attention of the projections is the specification -/

/-- The score of the projected rows is the specification's score. -/
theorem sc_projArr (x : S8x2048x256.Idx → EReal) (wq wk : S256x256.Idx → EReal) (b : Fin 8) (i j : Fin 2048) :
    sc (projArr x wq) (projArr x wk) b i j = Cert.Attn.score x wq wk b i j := by
  unfold sc Cert.Attn.score Cert.Attn.proj
  simp only [projArr_ix3]

/-- The softmax-weighted sum over the projected rows is the specification, index by index. -/
theorem attnQKX_projArr (x : S8x2048x256.Idx → EReal) (wq wk : S256x256.Idx → EReal) (b : Fin 8) (i : Fin 2048) (d : Fin 256) :
    attnQKX (projArr x wq) (projArr x wk) x b i d = Cert.Attn.G x wq wk (ix3 b i d) := by
  unfold attnQKX Cert.Attn.G Cert.Attn.rowMax
  simp only [sc_projArr]

/-! ## The result array after the whole run -/

/-- After the whole run the result array is the specification of the three launch arrays, when their entries are real:
    the attention region is entered with Q and K the projections of the launch arrays and V the activations, all real. -/
theorem kernel_final (m : (ℓ : Loc nD τ sig) → Buf (Elt Ideal) ℓ) (ρ : Dev nD → PrngReg) (c : Dev nD)
    (hx : ∀ i, ∃ r : ℝ, (m ((c : Thread nD τ).loc main_arg0) : S8x2048x256.Idx → EReal) i = (r : EReal))
    (hwq : ∀ i, ∃ r : ℝ, (m ((c : Thread nD τ).loc main_arg1) : S256x256.Idx → EReal) i = (r : EReal))
    (hwk : ∀ i, ∃ r : ℝ, (m ((c : Thread nD τ).loc main_arg2) : S256x256.Idx → EReal) i = (r : EReal)) :
    (dat1 (V1r m ρ) c).arrAt 3 cfg1.N
      = Cert.Attn.G (m ((c : Thread nD τ).loc main_arg0)) (m ((c : Thread nD τ).loc main_arg1)) (m ((c : Thread nD τ).loc main_arg2)) := by
  have eQ : (V1r m ρ c main_v0_0 : S8x2048x256.Idx → EReal)
      = projArr (m ((c : Thread nD τ).loc main_arg0)) (m ((c : Thread nD τ).loc main_arg1)) :=
    (W1_arr m ρ c 3).trans (finalQ (V0r m ρ) c)
  have eK : (V1r m ρ c main_v0_1 : S8x2048x256.Idx → EReal)
      = projArr (m ((c : Thread nD τ).loc main_arg0)) (m ((c : Thread nD τ).loc main_arg2)) :=
    (W1_arr m ρ c 4).trans (finalK (V0r m ρ) c)
  have eX : (V1r m ρ c main_v0_2 : S8x2048x256.Idx → EReal) = m ((c : Thread nD τ).loc main_arg0) :=
    (W1_arr m ρ c 5).trans (finalV (V0r m ρ) c)
  have hQ : ∀ i, ∃ r : ℝ, (V1r m ρ c main_v0_0 : S8x2048x256.Idx → EReal) i = (r : EReal) := fun i => by
    rw [eQ]; exact projArr_real _ _ hx hwq i
  have hK : ∀ i, ∃ r : ℝ, (V1r m ρ c main_v0_1 : S8x2048x256.Idx → EReal) i = (r : EReal) := fun i => by
    rw [eK]; exact projArr_real _ _ hx hwk i
  have hX : ∀ i, ∃ r : ℝ, (V1r m ρ c main_v0_2 : S8x2048x256.Idx → EReal) i = (r : EReal) := fun i => by
    rw [eX]; exact hx i
  rw [final1 (V1r m ρ) c hQ hK hX, eQ, eK, eX]
  funext i
  obtain ⟨b, s, d, rfl⟩ : ∃ (b : Fin 8) (s : Fin 2048) (d : Fin 256), i = ix3 b s d := ⟨i 0, i 1, i 2, eq_ix3 i⟩
  exact attnQKX_projArr _ _ _ b s d

end Cert.KernelIdeal.Hand

end
-- ==== Proof.RefValue.lean ====
/-
  The reference program's result, read index by index, is the attention function of the specification.

  Stage by stage: the two projections `q`, `k` are the sums `Σ_d x_{b,n,d}·W_{e,d}`; the scaled product of a query row
  with a key row is the score; the row maximum is the fold of `max` from `−∞` over the key rows (the later maximum with a
  `−∞` splat changes nothing); the weights are `exp(score − max)` over their row sum (the sum starts from the zero word,
  which is `0`); the result is the weighted sum of the rows of `x`.
-/
import proofs.«160592_j63909113364812_2_alg».proof.Proof.Gen.ReferenceIdeal.Read
import proofs.«160592_j63909113364812_2_alg».proof.Proof.AttnSpec

noncomputable section

namespace Cert.ReferenceIdeal.RefValue

open Cert.ReferenceIdeal Cert.ReferenceIdeal.Gen Cert.ReferenceIdeal.Read Cert.Attn
open Idealize.ShloMosaic Idealize.ShloMosaic.ValueIdx

/-- The word `0xFF800000` is `−∞`. -/
theorem ofBits_neg_inf : Ideal.ofBits .f32 0xFF800000#32 = (⊥ : EReal) := by
  simp [Ideal.ofBits, Ideal.ieee]

/-! ## The index maps of the stages, at coordinates -/

theorem lidx_v0 (b : Fin 8) (n : Fin 2048) (e d : Fin 256) : lidx_main_v0 (ix3 b n e) d = ix3 b n d :=
  funext fun a => Fin.ext (by match a with | ⟨0, _⟩ => rfl | ⟨1, _⟩ => rfl | ⟨2, _⟩ => rfl)

theorem ridx_v0 (b : Fin 8) (n : Fin 2048) (e d : Fin 256) : ridx_main_v0 (ix3 b n e) d = ix2 e d :=
  funext fun a => Fin.ext (by match a with | ⟨0, _⟩ => rfl | ⟨1, _⟩ => rfl)

theorem lidx_v1 (b : Fin 8) (n : Fin 2048) (e d : Fin 256) : lidx_main_v1 (ix3 b n e) d = ix3 b n d :=
  funext fun a => Fin.ext (by match a with | ⟨0, _⟩ => rfl | ⟨1, _⟩ => rfl | ⟨2, _⟩ => rfl)

theorem ridx_v1 (b : Fin 8) (n : Fin 2048) (e d : Fin 256) : ridx_main_v1 (ix3 b n e) d = ix2 e d :=
  funext fun a => Fin.ext (by match a with | ⟨0, _⟩ => rfl | ⟨1, _⟩ => rfl)

theorem lidx_v2 (b : Fin 8) (i j : Fin 2048) (e : Fin 256) : lidx_main_v2 (ix3 b i j) e = ix3 b i e :=
  funext fun a => Fin.ext (by match a with | ⟨0, _⟩ => rfl | ⟨1, _⟩ => rfl | ⟨2, _⟩ => rfl)

theorem ridx_v2 (b : Fin 8) (i j : Fin 2048) (e : Fin 256) : ridx_main_v2 (ix3 b i j) e = ix3 b j e :=
  funext fun a => Fin.ext (by match a with | ⟨0, _⟩ => rfl | ⟨1, _⟩ => rfl | ⟨2, _⟩ => rfl)

/-! ## The projections and the score -/

/-- The query projection at `(b, n, e)`. -/
theorem q_apply (x : S8x2048x256.Idx → EReal) (wq : S256x256.Idx → EReal) (b : Fin 8) (n : Fin 2048) (e : Fin 256) :
    val_main_v0 (F := Ideal) x wq (ix3 b n e) = proj x wq b n e := by
  rw [val_main_v0_apply]
  unfold proj
  refine Finset.sum_congr rfl fun d _ => ?_
  rw [lidx_v0, ridx_v0]

/-- The key projection at `(b, n, e)`. -/
theorem k_apply (x : S8x2048x256.Idx → EReal) (wk : S256x256.Idx → EReal) (b : Fin 8) (n : Fin 2048) (e : Fin 256) :
    val_main_v1 (F := Ideal) x wk (ix3 b n e) = proj x wk b n e := by
  rw [val_main_v1_apply]
  unfold proj
  refine Finset.sum_congr rfl fun d _ => ?_
  rw [lidx_v1, ridx_v1]

/-- The scaled score at `(b, i, j)`. -/
theorem score_apply (x : S8x2048x256.Idx → EReal) (wq wk : S256x256.Idx → EReal) (b : Fin 8) (i j : Fin 2048) :
    val_main_v4 (F := Ideal) x wq wk (ix3 b i j) = score x wq wk b i j := by
  rw [val_main_v4_apply, val_main_v2_apply, val_main_v3_apply, val_main_cst_apply]
  unfold score
  simp only [Ideal.mulf_def, Ideal.ofBits_def]
  refine congrArg (· * _) (Finset.sum_congr rfl fun e _ => ?_)
  rw [lidx_v2, ridx_v2, q_apply, k_apply]

/-! ## The row maximum -/

/-- The key row `k` put back on the reduced axis of `(b, i)` is `(b, i, k)`. -/
theorem lift_row (h : S8x2048x2048.Reduces [2] S8x2048) (b : Fin 8) (i : Fin 2048) (k : Fin 2048) :
    h.lift (ix2 b i) k = ix3 b i k :=
  funext fun a => Fin.ext (by match a with | ⟨0, _⟩ => rfl | ⟨1, _⟩ => rfl | ⟨2, _⟩ => rfl)

/-- The maximum-reduce from `−∞` over the key axis, at `(b, i)`: the fold of `max` from `−∞` over the key rows. -/
theorem hostMax_apply (h : S8x2048x2048.Reduces [2] S8x2048) (y : (⟨S8x2048x2048, .f32⟩ : BufTy).Contents (Elt Ideal))
    (b : Fin 8) (i : Fin 2048) :
    Host.reduce (FloatOps.maximumf (F := Ideal) (φ := .f32)) y (val_main_cst_0 (F := Ideal)) reducesTo_S8x2048x2048_S8x2048_d2 h_S_ (ix2 b i)
      = (Finset.univ : Finset (Fin 2048)).fold max ⊥ (fun j => y (ix3 b i j)) := by
  rw [Host.reduce_eq_fold_single (FloatOps.maximumf (F := Ideal) (φ := .f32)) y _ reducesTo_S8x2048x2048_S8x2048_d2 h h_S_, val_main_cst_0_apply]
  have hf : (y ∘ h.lift (ix2 b i)) = fun j : Fin 2048 => y (ix3 b i j) := funext fun k => congrArg y (lift_row h b i k)
  rw [hf, Ideal.ofBits_def, ofBits_neg_inf]
  rfl

/-- The row maximum at `(b, i)`. -/
theorem rowMax_apply (x : S8x2048x256.Idx → EReal) (wq wk : S256x256.Idx → EReal) (b : Fin 8) (i : Fin 2048) :
    val_main_v7 (F := Ideal) x wq wk (ix2 b i) = rowMax x wq wk b i := by
  rw [val_main_v7_apply, val_main_v6_apply, val_main_cst_1_apply]
  unfold val_main_v5
  simp only [Ideal.maximumf_def, Ideal.ofBits_def, ofBits_neg_inf, max_bot_left]
  refine (hostMax_apply (by decide) _ b i).trans ?_
  unfold rowMax
  exact congrArg (fun f => Finset.fold max ⊥ f (Finset.univ : Finset (Fin 2048))) (funext fun j => score_apply x wq wk b i j)

/-! ## The weights -/

/-- The exponential of the score less its row's maximum, at `(b, i, j)`. -/
theorem exp_apply (x : S8x2048x256.Idx → EReal) (wq wk : S256x256.Idx → EReal) (b : Fin 8) (i j : Fin 2048) :
    val_main_v11 (F := Ideal) x wq wk (ix3 b i j)
      = Ideal.exp (score x wq wk b i j - rowMax x wq wk b i) := by
  have e : idx_main_v8 (idx_main_v9 (ix3 b i j)) = ix2 b i :=
    funext fun a => Fin.ext (by match a with | ⟨0, _⟩ => rfl | ⟨1, _⟩ => rfl)
  rw [val_main_v11_apply, val_main_v10_apply, val_main_v9_apply, val_main_v8_apply, e, score_apply, rowMax_apply]
  simp only [Ideal.hostUnary_exp_def, Ideal.subf_def]

/-- The row sum of the exponentials at `(b, i)`: the sum starts from the zero word, which is `0`. -/
theorem rowSum_apply (x : S8x2048x256.Idx → EReal) (wq wk : S256x256.Idx → EReal) (b : Fin 8) (i : Fin 2048) :
    val_main_v12 (F := Ideal) x wq wk (ix2 b i)
      = ∑ j : Fin 2048, Ideal.exp (score x wq wk b i j - rowMax x wq wk b i) := by
  rw [val_main_v12_apply, val_main_cst_2_apply, Ideal.ofBits_def, Ideal.ofBits_zero_f32, zero_add]
  refine Finset.sum_congr rfl fun j _ => ?_
  have e : idx_main_v12 (ix2 b i) j = ix3 b i j :=
    funext fun a => Fin.ext (by match a with | ⟨0, _⟩ => rfl | ⟨1, _⟩ => rfl | ⟨2, _⟩ => rfl)
  rw [e, exp_apply]

/-- The softmax weight at `(b, i, j)`. -/
theorem weight_apply (x : S8x2048x256.Idx → EReal) (wq wk : S256x256.Idx → EReal) (b : Fin 8) (i j : Fin 2048) :
    val_main_v15 (F := Ideal) x wq wk (ix3 b i j)
      = Ideal.div (Ideal.exp (score x wq wk b i j - rowMax x wq wk b i))
          (∑ j' : Fin 2048, Ideal.exp (score x wq wk b i j' - rowMax x wq wk b i)) := by
  have e : idx_main_v13 (idx_main_v14 (ix3 b i j)) = ix2 b i :=
    funext fun a => Fin.ext (by match a with | ⟨0, _⟩ => rfl | ⟨1, _⟩ => rfl)
  rw [val_main_v15_apply, val_main_v14_apply, val_main_v13_apply, e, exp_apply, rowSum_apply]
  simp only [Ideal.hostDivf_def]

/-! ## The result -/

/-- The reference's result is the attention function of the three arguments. -/
theorem ref_is_G (x : (⟨Cert.ReferenceIdeal.S8x2048x256, .f32⟩ : BufTy).Contents (Elt Ideal))
    (wq wk : (⟨Cert.ReferenceIdeal.S256x256, .f32⟩ : BufTy).Contents (Elt Ideal)) :
    Cert.ReferenceIdeal.Read.val_main_v16 (F := Ideal) x wq wk = Cert.Attn.G x wq wk := by
  funext i
  obtain ⟨b, n, d, rfl⟩ : ∃ (b : Fin 8) (n : Fin 2048) (d : Fin 256), i = ix3 b n d := ⟨i 0, i 1, i 2, eq_ix3 i⟩
  rw [val_main_v16_apply]
  show _ = ∑ j : Fin 2048,
    Ideal.div (Ideal.exp (score x wq wk b n j - rowMax x wq wk b n))
        (∑ j' : Fin 2048, Ideal.exp (score x wq wk b n j' - rowMax x wq wk b n))
      * x (ix3 b j d)
  refine Finset.sum_congr rfl fun j _ => ?_
  have el : lidx_main_v16 (ix3 b n d) j = ix3 b n j :=
    funext fun a => Fin.ext (by match a with | ⟨0, _⟩ => rfl | ⟨1, _⟩ => rfl | ⟨2, _⟩ => rfl)
  have er : ridx_main_v16 (ix3 b n d) j = ix3 b j d :=
    funext fun a => Fin.ext (by match a with | ⟨0, _⟩ => rfl | ⟨1, _⟩ => rfl | ⟨2, _⟩ => rfl)
  rw [el, er, weight_apply]

end Cert.ReferenceIdeal.RefValue

end
-- ==== Proof.Finite.lean ====
/-
  From the precondition to the entries being real numbers.

  The precondition is the conjunction, over the three argument arrays, of "every entry's absolute value is below `+∞`".
  On the extended reals `|y| = max y (−y)`, and `|y| < +∞` fails exactly at `y = ±∞`: so every entry of every array is
  a real number.
-/
import proofs.«160592_j63909113364812_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Cert.Pre_finite_inputs Idealize.ShloMosaic

/-- The rank-0 shape has one index. -/
instance : Subsingleton S_.Idx := ⟨fun a b => funext fun d => d.elim0⟩

/-- The word `0x7F800000` is `+∞`. -/
theorem ofBits_pos_inf : Ideal.ofBits .f32 0x7F800000#32 = (⊤ : EReal) := by
  simp [Ideal.ofBits, Ideal.ieee]

/-- An extended real whose absolute value `max y (−y)` is below `+∞` is a real number. -/
theorem real_of_abs_lt_top (y : EReal)
    (h : Ideal.cmp .olt (max y (-y)) (Ideal.ofBits .f32 0x7F800000#32) = 1#1) : ∃ r : ℝ, y = (r : EReal) := by
  rw [ofBits_pos_inf] at h
  induction y using EReal.rec with
  | bot => simp [Ideal.cmp] at h
  | coe r => exact ⟨r, rfl⟩
  | top => simp [Ideal.cmp] at h

/-- Under the precondition every entry of the three arrays is a real number. -/
theorem entries_real [Facts] (x : (⟨S8x2048x256, .f32⟩ : BufTy).Contents (Elt Ideal))
    (wq wk : (⟨S256x256, .f32⟩ : BufTy).Contents (Elt Ideal))
    (h : Cert.Pre_finite_inputs.fn (F := Ideal) x wq wk = (fun _ => 1#1)) :
    (∀ i, ∃ r : ℝ, x i = (r : EReal)) ∧ (∀ i, ∃ r : ℝ, wq i = (r : EReal)) ∧ (∀ i, ∃ r : ℝ, wk i = (r : EReal)) := by
  have h0 := congrFun h ValueIdx.ix0
  dsimp only [fn] at h0
  obtain ⟨h12, h3⟩ := IntOp.andi_eq_one.1 h0
  obtain ⟨h1, h2⟩ := IntOp.andi_eq_one.1 h12
  refine ⟨fun i => ?_, fun i => ?_, fun i => ?_⟩
  · exact real_of_abs_lt_top (x i) (Host.reduce_andi_all _ _ _ _ _ h1 i)
  · exact real_of_abs_lt_top (wq i) (Host.reduce_andi_all _ _ _ _ _ h2 i)
  · exact real_of_abs_lt_top (wk i) (Host.reduce_andi_all _ _ _ _ _ h3 i)

end Cert.Pre_finite_inputs.Finite

end
-- ==== Proof.lean ====
/-
  The claim: the two-kernel attention program (a projection kernel, then a key-tile-by-key-tile softmax-weighted
  average with a running maximum, normaliser and accumulator) against the reference's softmax attention.

  The frames of the word-level and of the idealized program are the hand-written run of their two regions; the
  reference's frame is its generated run with the result dropped; nothing was rewritten by the ideal pass. At the ideal
  values both programs end with the result array at the one function `Cert.Attn.G` of the three argument arrays: the
  kernel's by its run, the region-by-region values and the block-by-block law of the running softmax (which needs the
  scores to be real numbers, hence finite inputs), the reference's by reading its operations at an index.
-/
import proofs.«160592_j63909113364812_2_alg».proof.Defs
import proofs.«160592_j63909113364812_2_alg».proof.Proof.Gen.Kernel
import proofs.«160592_j63909113364812_2_alg».proof.Proof.Gen.KernelIdeal
import proofs.«160592_j63909113364812_2_alg».proof.Proof.Gen.ReferenceIdeal
import proofs.«160592_j63909113364812_2_alg».proof.Proof.Gen.Pre_finite_inputs
import proofs.«160592_j63909113364812_2_alg».proof.Proof.Gen.ReferenceIdeal.Run
import proofs.«160592_j63909113364812_2_alg».proof.Proof.Gen.ReferenceIdeal.Read
import proofs.«160592_j63909113364812_2_alg».proof.Proof.KRun
import proofs.«160592_j63909113364812_2_alg».proof.Proof.KIRun
import proofs.«160592_j63909113364812_2_alg».proof.Proof.KIFinal
import proofs.«160592_j63909113364812_2_alg».proof.Proof.RefValue
import proofs.«160592_j63909113364812_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result array ends at the attention function of its arguments (its run, then the
    two regions' values) and the reference's at the same function (its run read at an index), of arguments that agree. -/
theorem algebraic : Cert.algebraic_KernelIdeal_ReferenceIdeal := by
  intro m ρ m' ρ' hpre hagree
  have hfin := fun c : Dev Cert.KernelIdeal.nD => Cert.Pre_finite_inputs.Finite.entries_real _ _ _ (hpre c)
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.kernel_final m ρ c (hfin c).1 (hfin c).2.1 (hfin c).2.2), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v16_eq _ _ _).trans (Cert.ReferenceIdeal.RefValue.ref_is_G _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
